-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S102400x512 : Shape := ⟨2, ![102400, 512]⟩
abbrev S2048x512 : Shape := ⟨2, ![2048, 512]⟩
abbrev S2048x102400 : Shape := ⟨2, ![2048, 102400]⟩
abbrev S512x100 : Shape := ⟨2, ![512, 100]⟩
abbrev S100 : Shape := ⟨1, ![100]⟩
abbrev S100x100 : Shape := ⟨2, ![100, 100]⟩
abbrev S_ : Shape := ⟨0, ![]⟩

class Facts : Prop where
  bcast_S_S102400x512 : S_.BroadcastsInDim S102400x512 (![] : Fin 0 → Fin S102400x512.rank)
  reducesTo_S102400x512_S_d0_1 : S102400x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048x102400 : S_.BroadcastsInDim S2048x102400 (![] : Fin 0 → Fin S2048x102400.rank)
  reducesTo_S2048x102400_S_d0_1 : S2048x102400.ReducesTo [0, 1] S_
  bcast_S_S512x100 : S_.BroadcastsInDim S512x100 (![] : Fin 0 → Fin S512x100.rank)
  reducesTo_S512x100_S_d0_1 : S512x100.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_

variable [Facts]

def fn_part2 {F : FTy → Type} [FloatOps F] (main_arg7 : FVec F S100x100 .f32) (main_arg8 : FVec F S100 .f32) (main_v33 : IVec S_ 1) : IVec S_ 1 :=
  let main_v34 : FVec F S100x100 .f32 := Host.absf main_arg7
  let main_cst_12 : FVec F S_ .f32 := constant S_ .f32 0x7F800000#32
  let main_v35 : FVec F S100x100 .f32 := broadcastInDim S100x100 ![] bcast_S_S100x100 main_cst_12
  let main_v36 : IVec S100x100 1 := cmpf .olt main_v34 main_v35
  let main_c_13 : IVec S_ 1 := constantI S_ 1 1#1
  let main_v37 : IVec S_ 1 := (fun x v => Host.reduce IntOp.andi x v reducesTo_S100x100_S_d0_1 h_S_) main_v36 main_c_13
  let main_v38 : IVec S_ 1 := andi main_v33 main_v37
  let main_v39 : FVec F S100 .f32 := Host.absf main_arg8
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  main_v43

def fn_part1 {F : FTy → Type} [FloatOps F] (main_arg4 : FVec F S100 .f32) (main_arg5 : FVec F S100x100 .f32) (main_arg6 : FVec F S100 .f32) (main_arg7 : FVec F S100x100 .f32) (main_arg8 : FVec F S100 .f32) (main_v13 : IVec S_ 1) (main_v16 : IVec S512x100 1) : IVec S_ 1 :=
  let main_c_5 : IVec S_ 1 := constantI S_ 1 1#1
  let main_v17 : IVec S_ 1 := (fun x v => Host.reduce IntOp.andi x v reducesTo_S512x100_S_d0_1 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x100 .f32 := Host.absf main_arg5
  let main_cst_8 : FVec F S_ .f32 := constant S_ .f32 0x7F800000#32
  let main_v25 : FVec F S100x100 .f32 := broadcastInDim S100x100 ![] bcast_S_S100x100 main_cst_8
  let main_v26 : IVec S100x100 1 := cmpf .olt main_v24 main_v25
  let main_c_9 : IVec S_ 1 := constantI S_ 1 1#1
  let main_v27 : IVec S_ 1 := (fun x v => Host.reduce IntOp.andi x v reducesTo_S100x100_S_d0_1 h_S_) main_v26 main_c_9
  let main_v28 : IVec S_ 1 := andi main_v23 main_v27
  let main_v29 : FVec F S100 .f32 := Host.absf main_arg6
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg7 main_arg8 main_v33

def fn {F : FTy → Type} [FloatOps F] (main_arg0 : FVec F S102400x512 .f32) (main_arg1 : FVec F S2048x512 .f32) (main_arg2 : FVec F S2048x102400 .f32) (main_arg3 : FVec F S512x100 .f32) (main_arg4 : FVec F S100 .f32) (main_arg5 : FVec F S100x100 .f32) (main_arg6 : FVec F S100 .f32) (main_arg7 : FVec F S100x100 .f32) (main_arg8 : FVec F S100 .f32) : IVec S_ 1 :=
  let main_v0 : FVec F S102400x512 .f32 := Host.absf main_arg0
  let main_cst : FVec F S_ .f32 := constant S_ .f32 0x7F800000#32
  let main_v1 : FVec F S102400x512 .f32 := broadcastInDim S102400x512 ![] bcast_S_S102400x512 main_cst
  let main_v2 : IVec S102400x512 1 := cmpf .olt main_v0 main_v1
  let main_c : IVec S_ 1 := constantI S_ 1 1#1
  let main_v3 : IVec S_ 1 := (fun x v => Host.reduce IntOp.andi x v reducesTo_S102400x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x102400 .f32 := Host.absf main_arg2
  let main_cst_2 : FVec F S_ .f32 := constant S_ .f32 0x7F800000#32
  let main_v10 : FVec F S2048x102400 .f32 := broadcastInDim S2048x102400 ![] bcast_S_S2048x102400 main_cst_2
  let main_v11 : IVec S2048x102400 1 := cmpf .olt main_v9 main_v10
  let main_c_3 : IVec S_ 1 := constantI S_ 1 1#1
  let main_v12 : IVec S_ 1 := (fun x v => Host.reduce IntOp.andi x v reducesTo_S2048x102400_S_d0_1 h_S_) main_v11 main_c_3
  let main_v13 : IVec S_ 1 := andi main_v8 main_v12
  let main_v14 : FVec F S512x100 .f32 := Host.absf main_arg3
  let main_cst_4 : FVec F S_ .f32 := constant S_ .f32 0x7F800000#32
  let main_v15 : FVec F S512x100 .f32 := broadcastInDim S512x100 ![] bcast_S_S512x100 main_cst_4
  let main_v16 : IVec S512x100 1 := cmpf .olt main_v14 main_v15
  fn_part1 (F := F) main_arg4 main_arg5 main_arg6 main_arg7 main_arg8 main_v13 main_v16
-- ==== Kernel.lean ====
abbrev S102400x512 : Shape := ⟨2, ![102400, 512]⟩
abbrev S2048x512 : Shape := ⟨2, ![2048, 512]⟩
abbrev S2048x102400 : Shape := ⟨2, ![2048, 102400]⟩
abbrev S512x100 : Shape := ⟨2, ![512, 100]⟩
abbrev S100 : Shape := ⟨1, ![100]⟩
abbrev S100x100 : Shape := ⟨2, ![100, 100]⟩
abbrev S_ : Shape := ⟨0, ![]⟩
abbrev S512x128 : Shape := ⟨2, ![512, 128]⟩
abbrev S1 : Shape := ⟨1, ![1]⟩
abbrev S128 : Shape := ⟨1, ![128]⟩
abbrev S128x128 : Shape := ⟨2, ![128, 128]⟩
abbrev S2 : Shape := ⟨1, ![2]⟩
abbrev S2048x128 : Shape := ⟨2, ![2048, 128]⟩
abbrev S1x128 : Shape := ⟨2, ![1, 128]⟩
abbrev S102400x128 : Shape := ⟨2, ![102400, 128]⟩
abbrev S102400x1 : Shape := ⟨2, ![102400, 1]⟩
abbrev S2x2048x1 : Shape := ⟨3, ![2, 2048, 1]⟩
abbrev S1024x512 : Shape := ⟨2, ![1024, 512]⟩
abbrev S2048x1024 : Shape := ⟨2, ![2048, 1024]⟩
abbrev S1024x128 : Shape := ⟨2, ![1024, 128]⟩
abbrev S1024x1 : Shape := ⟨2, ![1024, 1]⟩
abbrev S1x2048x1 : Shape := ⟨3, ![1, 2048, 1]⟩
abbrev S2048x1 : Shape := ⟨2, ![2048, 1]⟩
abbrev S1024 : Shape := ⟨1, ![1024]⟩
abbrev S1x1024 : Shape := ⟨2, ![1, 1024]⟩
abbrev S2048 : Shape := ⟨1, ![2048]⟩
abbrev S2x2048x128 : Shape := ⟨3, ![2, 2048, 128]⟩
abbrev S1x2048x128 : Shape := ⟨3, ![1, 2048, 128]⟩
abbrev S2048x100 : Shape := ⟨2, ![2048, 100]⟩

abbrev nBuf : Space → Nat
  | .hbm => 62
  | .vmem => 34
  | .smem => 0
  | _ => 0

abbrev bufTy : (tb : Table) → Fin (tcTables nBuf tb) → BufTy
  | .hbm, ⟨0, _⟩ => ⟨S102400x512, .f32⟩
  | .hbm, ⟨1, _⟩ => ⟨S2048x512, .f32⟩
  | .hbm, ⟨2, _⟩ => ⟨S2048x102400, .f32⟩
  | .hbm, ⟨3, _⟩ => ⟨S512x100, .f32⟩
  | .hbm, ⟨4, _⟩ => ⟨S100, .f32⟩
  | .hbm, ⟨5, _⟩ => ⟨S100x100, .f32⟩
  | .hbm, ⟨6, _⟩ => ⟨S100, .f32⟩
  | .hbm, ⟨7, _⟩ => ⟨S100x100, .f32⟩
  | .hbm, ⟨8, _⟩ => ⟨S100, .f32⟩
  | .hbm, ⟨9, _⟩ => ⟨S_, .f32⟩
  | .hbm, ⟨10, _⟩ => ⟨S512x128, .f32⟩
  | .hbm, ⟨11, _⟩ => ⟨S_, .i32⟩
  | .hbm, ⟨12, _⟩ => ⟨S1, .i32⟩
  | .hbm, ⟨13, _⟩ => ⟨S512x128, .f32⟩
  | .hbm, ⟨14, _⟩ => ⟨S_, .f32⟩
  | .hbm, ⟨15, _⟩ => ⟨S128, .f32⟩
  | .hbm, ⟨16, _⟩ => ⟨S_, .i32⟩
  | .hbm, ⟨17, _⟩ => ⟨S1, .i32⟩
  | .hbm, ⟨18, _⟩ => ⟨S128, .f32⟩
  | .hbm, ⟨19, _⟩ => ⟨S_, .f32⟩
  | .hbm, ⟨20, _⟩ => ⟨S128x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S128x128, .f32⟩
  | .hbm, ⟨27, _⟩ => ⟨S_, .f32⟩
  | .hbm, ⟨28, _⟩ => ⟨S128, .f32⟩
  | .hbm, ⟨29, _⟩ => ⟨S_, .i32⟩
  | .hbm, ⟨30, _⟩ => ⟨S1, .i32⟩
  | .hbm, ⟨31, _⟩ => ⟨S128, .f32⟩
  | .hbm, ⟨32, _⟩ => ⟨S_, .f32⟩
  | .hbm, ⟨33, _⟩ => ⟨S128x128, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S128x128, .f32⟩
  | .hbm, ⟨40, _⟩ => ⟨S_, .f32⟩
  | .hbm, ⟨41, _⟩ => ⟨S128, .f32⟩
  | .hbm, ⟨42, _⟩ => ⟨S_, .i32⟩
  | .hbm, ⟨43, _⟩ => ⟨S1, .i32⟩
  | .hbm, ⟨44, _⟩ => ⟨S128, .f32⟩
  | .hbm, ⟨45, _⟩ => ⟨S2048x128, .f32⟩
  | .hbm, ⟨46, _⟩ => ⟨S102400x128, .f32⟩
  | .hbm, ⟨47, _⟩ => ⟨S102400x1, .f32⟩
  | .hbm, ⟨48, _⟩ => ⟨S2x2048x1, .f32⟩
  | .hbm, ⟨49, _⟩ => ⟨S1x2048x1, .f32⟩
  | .hbm, ⟨50, _⟩ => ⟨S2048x1, .f32⟩
  | .hbm, ⟨51, _⟩ => ⟨S1x2048x1, .f32⟩
  | .hbm, ⟨52, _⟩ => ⟨S2048x1, .f32⟩
  | .hbm, ⟨53, _⟩ => ⟨S2048x1, .f32⟩
  | .hbm, ⟨54, _⟩ => ⟨S2x2048x128, .f32⟩
  | .hbm, ⟨55, _⟩ => ⟨S1x2048x128, .f32⟩
  | .hbm, ⟨56, _⟩ => ⟨S2048x128, .f32⟩
  | .hbm, ⟨57, _⟩ => ⟨S1x2048x128, .f32⟩
  | .hbm, ⟨58, _⟩ => ⟨S2048x128, .f32⟩
  | .hbm, ⟨59, _⟩ => ⟨S2048x128, .f32⟩
  | .hbm, ⟨60, _⟩ => ⟨S2048x100, .f32⟩
  | .hbm, ⟨61, _⟩ => ⟨S2048x100, .f32⟩
  | .local _ .vmem, ⟨0, _⟩ => ⟨S2048x512, .f32⟩
  | .local _ .vmem, ⟨1, _⟩ => ⟨S512x128, .f32⟩
  | .local _ .vmem, ⟨2, _⟩ => ⟨S128, .f32⟩
  | .local _ .vmem, ⟨3, _⟩ => ⟨S128x128, .f32⟩
  | .local _ .vmem, ⟨4, _⟩ => ⟨S128, .f32⟩
  | .local _ .vmem, ⟨5, _⟩ => ⟨S128x128, .f32⟩
  | .local _ .vmem, ⟨6, _⟩ => ⟨S128, .f32⟩
  | .local _ .vmem, ⟨7, _⟩ => ⟨S2048x128, .f32⟩
  | .local _ .vmem, ⟨8, _⟩ => ⟨S1024x512, .f32⟩
  | .local _ .vmem, ⟨9, _⟩ => ⟨S1024x512, .f32⟩
  | .local _ .vmem, ⟨10, _⟩ => ⟨S2048x1024, .f32⟩
  | .local _ .vmem, ⟨11, _⟩ => ⟨S2048x1024, .f32⟩
  | .local _ .vmem, ⟨12, _⟩ => ⟨S2048x128, .f32⟩
  | .local _ .vmem, ⟨13, _⟩ => ⟨S512x128, .f32⟩
  | .local _ .vmem, ⟨14, _⟩ => ⟨S128, .f32⟩
  | .local _ .vmem, ⟨15, _⟩ => ⟨S128x128, .f32⟩
  | .local _ .vmem, ⟨16, _⟩ => ⟨S128, .f32⟩
  | .local _ .vmem, ⟨17, _⟩ => ⟨S128x128, .f32⟩
  | .local _ .vmem, ⟨18, _⟩ => ⟨S128, .f32⟩
  | .local _ .vmem, ⟨19, _⟩ => ⟨S1024x128, .f32⟩
  | .local _ .vmem, ⟨20, _⟩ => ⟨S1024x128, .f32⟩
  | .local _ .vmem, ⟨21, _⟩ => ⟨S1024x1, .f32⟩
  | .local _ .vmem, ⟨22, _⟩ => ⟨S1024x1, .f32⟩
  | .local _ .vmem, ⟨23, _⟩ => ⟨S1x2048x1, .f32⟩
  | .local _ .vmem, ⟨24, _⟩ => ⟨S1x2048x1, .f32⟩
  | .local _ .vmem, ⟨25, _⟩ => ⟨S2048x1024, .f32⟩
  | .local _ .vmem, ⟨26, _⟩ => ⟨S2048x1024, .f32⟩
  | .local _ .vmem, ⟨27, _⟩ => ⟨S1024x1, .f32⟩
  | .local _ .vmem, ⟨28, _⟩ => ⟨S1024x1, .f32⟩
  | .local _ .vmem, ⟨29, _⟩ => ⟨S1024x128, .f32⟩
  | .local _ .vmem, ⟨30, _⟩ => ⟨S1024x128, .f32⟩
  | .local _ .vmem, ⟨31, _⟩ => ⟨S2048x1, .f32⟩
  | .local _ .vmem, ⟨32, _⟩ => ⟨S1x2048x128, .f32⟩
  | .local _ .vmem, ⟨33, _⟩ => ⟨S1x2048x128, .f32⟩
  | _, _ => ⟨S102400x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_c_4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_5 : Ref sig .tc := ⟨.hbm, 27, rfl⟩
abbrev main_v11 : Ref sig .tc := ⟨.hbm, 28, rfl⟩
abbrev main_c_6 : Ref sig .tc := ⟨.hbm, 29, rfl⟩
abbrev main_v12 : Ref sig .tc := ⟨.hbm, 30, rfl⟩
abbrev main_v13 : Ref sig .tc := ⟨.hbm, 31, rfl⟩
abbrev main_cst_7 : Ref sig .tc := ⟨.hbm, 32, rfl⟩
abbrev main_v14 : Ref sig .tc := ⟨.hbm, 33, rfl⟩
abbrev main_c_8 : Ref sig .tc := ⟨.hbm, 34, rfl⟩
abbrev main_v15 : Ref sig .tc := ⟨.hbm, 35, rfl⟩
abbrev main_c_9 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_10 : Ref sig .tc := ⟨.hbm, 40, rfl⟩
abbrev main_v19 : Ref sig .tc := ⟨.hbm, 41, rfl⟩
abbrev main_c_11 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23_0 : Ref sig .tc := ⟨.hbm, 46, rfl⟩
abbrev main_v23_1 : Ref sig .tc := ⟨.hbm, 47, rfl⟩
abbrev main_v23_2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc1_stg10_0 : Ref sig .tc := ⟨.vmem, 21, rfl⟩
abbrev cc1_stg10_1 : Ref sig .tc := ⟨.vmem, 22, rfl⟩
abbrev cc1_stg11_0 : Ref sig .tc := ⟨.vmem, 23, rfl⟩
abbrev cc1_stg11_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg4_1 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20
abbrev cc1_sem10_0 : DmaSem sig := 21
abbrev cc1_sem10_1 : DmaSem sig := 22
abbrev cc1_sem11_0 : DmaSem sig := 23
abbrev cc1_sem11_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem4_1 : DmaSem sig := 33

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![2, 50], ![false, false]⟩

def cc1_transform_0 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_10 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2048x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1024x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1024x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x2048x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev grid2 : Pipeline.Grid := ⟨2, ![2, 50], ![false, false]⟩

def cc2_transform_0 (i : grid2.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![c0_i32.toNat, v1.toNat]

def cc2_transform_1 (i : grid2.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S2048x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  bcast_S_S512x128 : S_.BroadcastsInDim S512x128 (![] : Fin 0 → Fin S512x128.rank)
  bcast_S_S1 : S_.BroadcastsInDim S1 (![] : Fin 0 → Fin S1.rank)
  bcast_S_S128 : S_.BroadcastsInDim S128 (![] : Fin 0 → Fin S128.rank)
  bcast_S_S128x128 : S_.BroadcastsInDim S128x128 (![] : Fin 0 → Fin S128x128.rank)
  concatenates_S1_S1_S2_d0 : Shape.Concatenates [S1, S1] S2 0
  inb_S2048x512_S2048x512_0_0 : ∀ a, (![0, 0] : Fin 2 → Nat) a + S2048x512.size a ≤ S2048x512.size a
  h_S2048x512 : 0 < S2048x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S128 : S128.ShapeCasts S128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  shapeCasts_S128_S1x128 : S128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  inb_S1024x512_S1024x512_0_0 : ∀ a, (![0, 0] : Fin 2 → Nat) a + S1024x512.size a ≤ S1024x512.size a
  h_S1024x512 : 0 < S1024x512.numel
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  inb_S2048x1024_S2048x1024_0_0 : ∀ a, (![0, 0] : Fin 2 → Nat) a + S2048x1024.size a ≤ S2048x1024.size a
  h_S2048x1024 : 0 < S2048x1024.numel
  shapeCasts_S2048x128_S2048x128 : S2048x128.ShapeCasts S2048x128
  reduces_S1024x128_S1024 : S1024x128.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  transposes_S1024x1_p1_0_S1x1024 : S1024x1.Transposes [1, 0] S1x1024
  broadcasts_S1x1024_S2048x1024 : S1x1024.Broadcasts S2048x1024
  reduces_S2048x1024_S2048 : S2048x1024.Reduces [1] S2048
  shapeCasts_S2048_S2048x1 : S2048.ShapeCasts S2048x1
  slices_S2x2048x1_S1x2048x1_0_0_0 : S2x2048x1.Slices ![0, 0, 0] S1x2048x1
  slices_S2x2048x1_S1x2048x1_1_0_0 : S2x2048x1.Slices ![1, 0, 0] S1x2048x1
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1024 : S2048x1.Broadcasts S2048x1024
  reduces_S2048x1024_S1024 : S2048x1024.Reduces [0] S1024
  shapeCasts_S1024_S1x1024 : S1024.ShapeCasts S1x1024
  transposes_S1x1024_p1_0_S1024x1 : S1x1024.Transposes [1, 0] S1024x1
  shapeCasts_S1024x1_S1024x1 : S1024x1.ShapeCasts S1024x1
  shapeCasts_S1024x128_S1024x128 : S1024x128.ShapeCasts S1024x128
  broadcasts_S1024x1_S1024x128 : S1024x1.Broadcasts S1024x128
  slices_S2x2048x128_S1x2048x128_0_0_0 : S2x2048x128.Slices ![0, 0, 0] S1x2048x128
  slices_S2x2048x128_S1x2048x128_1_0_0 : S2x2048x128.Slices ![1, 0, 0] S1x2048x128
  slices_S2048x128_S2048x100_0_0 : S2048x128.Slices ![0, 0] S2048x100
  scatter_S512x128_S1_S512x100_01_n_1_0_wf : ScatterDims.WF S512x128 S1 S512x100 [0, 1] [] [1] 0
  scatter_S128_S1_S100_0_n_0_0_wf : ScatterDims.WF S128 S1 S100 [0] [] [0] 0
  scatter_S128x128_S2_S100x100_01_n_01_0_wf : ScatterDims.WF S128x128 S2 S100x100 [0, 1] [] [0, 1] 0
  dot_S2048x512_S512x128_S2048x128_1_0_0_1_n_n_wf : DotDims.WF S2048x512 S512x128 S2048x128 [1] [0] [0] [1] [] []
  dot_S2048x128_S128x128_S2048x128_1_0_0_1_n_n_wf : DotDims.WF S2048x128 S128x128 S2048x128 [1] [0] [0] [1] [] []
  dot_S1024x512_S512x128_S1024x128_1_0_0_1_n_n_wf : DotDims.WF S1024x512 S512x128 S1024x128 [1] [0] [0] [1] [] []
  dot_S1024x128_S128x128_S1024x128_1_0_0_1_n_n_wf : DotDims.WF S1024x128 S128x128 S1024x128 [1] [0] [0] [1] [] []
  dot_S2048x1024_S2048x128_S1024x128_0_0_1_1_n_n_wf : DotDims.WF S2048x1024 S2048x128 S1024x128 [0] [0] [1] [1] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x512.size a
  hwx0_0 : ∀ i : grid0.Coords, EltTy.bits .f32 = 32 ∨ (Rect.block (s := S2048x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S2048x128.size a
  hwx0_7 : ∀ i : grid0.Coords, EltTy.bits .f32 = 32 ∨ (Rect.block (s := S2048x128) S2048x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S102400x512.size a
  hwx1_0 : ∀ i : grid1.Coords, EltTy.bits .f32 = 32 ∨ (Rect.block (s := S102400x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x102400.size a
  hwx1_1 : ∀ i : grid1.Coords, EltTy.bits .f32 = 32 ∨ (Rect.block (s := S2048x102400) S2048x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S2048x128.size a
  hwx1_2 : ∀ i : grid1.Coords, EltTy.bits .f32 = 32 ∨ (Rect.block (s := S2048x128) S2048x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .f32 = 32 ∨ (Rect.block (s := S512x128) S512x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x128.size a ≤ S102400x128.size a
  hwx1_9 : ∀ i : grid1.Coords, EltTy.bits .f32 = 32 ∨ (Rect.block (s := S102400x128) S1024x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1024x1.size a ≤ S102400x1.size a
  hwx1_10 : ∀ i : grid1.Coords, EltTy.bits .f32 = 32 ∨ (Rect.block (s := S102400x1) S1024x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x2048x1.size a ≤ S2x2048x1.size a
  hwx1_11 : ∀ i : grid1.Coords, EltTy.bits .f32 = 32 ∨ (Rect.block (s := S2x2048x1) S1x2048x1.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S2048x102400.size a
  hwx2_0 : ∀ i : grid2.Coords, EltTy.bits .f32 = 32 ∨ (Rect.block (s := S2048x102400) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S102400x1.size a
  hwx2_1 : ∀ i : grid2.Coords, EltTy.bits .f32 = 32 ∨ (Rect.block (s := S102400x1) S1024x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S102400x128.size a
  hwx2_2 : ∀ i : grid2.Coords, EltTy.bits .f32 = 32 ∨ (Rect.block (s := S102400x128) S1024x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S2048x1.size a
  hwx2_3 : ∀ i : grid2.Coords, EltTy.bits .f32 = 32 ∨ (Rect.block (s := S2048x1) S2048x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048x128.size a ≤ S2x2048x128.size a
  hwx2_4 : ∀ i : grid2.Coords, EltTy.bits .f32 = 32 ∨ (Rect.block (s := S2x2048x128) S1x2048x128.size (cc2_transform_4 i) (hinb2_4 i)).WholeWords (EltTy.packing .f32)

variable [Facts₀]

def scatter_S512x128_S1_S512x100_01_n_1_0 : ScatterDims S512x128 S1 S512x100 where
  updateWindowDims := [0, 1]
  insertedWindowDims := []
  scatterDimsToOperandDims := [1]
  indexVectorDim := 0
  wf := scatter_S512x128_S1_S512x100_01_n_1_0_wf
def scatter_S128_S1_S100_0_n_0_0 : ScatterDims S128 S1 S100 where
  updateWindowDims := [0]
  insertedWindowDims := []
  scatterDimsToOperandDims := [0]
  indexVectorDim := 0
  wf := scatter_S128_S1_S100_0_n_0_0_wf
def scatter_S128x128_S2_S100x100_01_n_01_0 : ScatterDims S128x128 S2 S100x100 where
  updateWindowDims := [0, 1]
  insertedWindowDims := []
  scatterDimsToOperandDims := [0, 1]
  indexVectorDim := 0
  wf := scatter_S128x128_S2_S100x100_01_n_01_0_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S2048x1024_S2048x128_S1024x128_0_0_1_1_n_n : DotDims S2048x1024 S2048x128 S1024x128 where
  lhsContracting := [0]
  rhsContracting := [0]
  lhsNonContracting := [1]
  rhsNonContracting := [1]
  lhsBatch := []
  rhsBatch := []
  wf := dot_S2048x1024_S2048x128_S1024x128_0_0_1_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg1) S2048x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S2048x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2048x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v21) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v23_0) S1024x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v23_1) S1024x1.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v23_2) S1x2048x1.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_arg2) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23_1) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23_0) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S2048x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x2048x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S102400x512 : Shape := ⟨2, ![102400, 512]⟩
abbrev S2048x512 : Shape := ⟨2, ![2048, 512]⟩
abbrev S2048x102400 : Shape := ⟨2, ![2048, 102400]⟩
abbrev S512x100 : Shape := ⟨2, ![512, 100]⟩
abbrev S100 : Shape := ⟨1, ![100]⟩
abbrev S100x100 : Shape := ⟨2, ![100, 100]⟩
abbrev S102400x100 : Shape := ⟨2, ![102400, 100]⟩
abbrev S1x100 : Shape := ⟨2, ![1, 100]⟩
abbrev S2048x100 : Shape := ⟨2, ![2048, 100]⟩
abbrev S102400x2048 : Shape := ⟨2, ![102400, 2048]⟩
abbrev S_ : Shape := ⟨0, ![]⟩
abbrev S102400 : Shape := ⟨1, ![102400]⟩
abbrev S102400x1 : Shape := ⟨2, ![102400, 1]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S102400x512, .f32⟩
  | .hbm, ⟨1, _⟩ => ⟨S2048x512, .f32⟩
  | .hbm, ⟨2, _⟩ => ⟨S2048x102400, .f32⟩
  | .hbm, ⟨3, _⟩ => ⟨S512x100, .f32⟩
  | .hbm, ⟨4, _⟩ => ⟨S100, .f32⟩
  | .hbm, ⟨5, _⟩ => ⟨S100x100, .f32⟩
  | .hbm, ⟨6, _⟩ => ⟨S100, .f32⟩
  | .hbm, ⟨7, _⟩ => ⟨S100x100, .f32⟩
  | .hbm, ⟨8, _⟩ => ⟨S100, .f32⟩
  | .hbm, ⟨9, _⟩ => ⟨S102400x100, .f32⟩
  | .hbm, ⟨10, _⟩ => ⟨S1x100, .f32⟩
  | .hbm, ⟨11, _⟩ => ⟨S102400x100, .f32⟩
  | .hbm, ⟨12, _⟩ => ⟨S102400x100, .f32⟩
  | .hbm, ⟨13, _⟩ => ⟨S102400x100, .f32⟩
  | .hbm, ⟨14, _⟩ => ⟨S102400x100, .f32⟩
  | .hbm, ⟨15, _⟩ => ⟨S1x100, .f32⟩
  | .hbm, ⟨16, _⟩ => ⟨S102400x100, .f32⟩
  | .hbm, ⟨17, _⟩ => ⟨S102400x100, .f32⟩
  | .hbm, ⟨18, _⟩ => ⟨S102400x100, .f32⟩
  | .hbm, ⟨19, _⟩ => ⟨S102400x100, .f32⟩
  | .hbm, ⟨20, _⟩ => ⟨S1x100, .f32⟩
  | .hbm, ⟨21, _⟩ => ⟨S102400x100, .f32⟩
  | .hbm, ⟨22, _⟩ => ⟨S102400x100, .f32⟩
  | .hbm, ⟨23, _⟩ => ⟨S102400x100, .f32⟩
  | .hbm, ⟨24, _⟩ => ⟨S2048x100, .f32⟩
  | .hbm, ⟨25, _⟩ => ⟨S1x100, .f32⟩
  | .hbm, ⟨26, _⟩ => ⟨S2048x100, .f32⟩
  | .hbm, ⟨27, _⟩ => ⟨S2048x100, .f32⟩
  | .hbm, ⟨28, _⟩ => ⟨S2048x100, .f32⟩
  | .hbm, ⟨29, _⟩ => ⟨S2048x100, .f32⟩
  | .hbm, ⟨30, _⟩ => ⟨S1x100, .f32⟩
  | .hbm, ⟨31, _⟩ => ⟨S2048x100, .f32⟩
  | .hbm, ⟨32, _⟩ => ⟨S2048x100, .f32⟩
  | .hbm, ⟨33, _⟩ => ⟨S2048x100, .f32⟩
  | .hbm, ⟨34, _⟩ => ⟨S2048x100, .f32⟩
  | .hbm, ⟨35, _⟩ => ⟨S1x100, .f32⟩
  | .hbm, ⟨36, _⟩ => ⟨S2048x100, .f32⟩
  | .hbm, ⟨37, _⟩ => ⟨S2048x100, .f32⟩
  | .hbm, ⟨38, _⟩ => ⟨S2048x100, .f32⟩
  | .hbm, ⟨39, _⟩ => ⟨S102400x2048, .f32⟩
  | .hbm, ⟨40, _⟩ => ⟨S102400x100, .f32⟩
  | .hbm, ⟨41, _⟩ => ⟨S102400x100, .f32⟩
  | .hbm, ⟨42, _⟩ => ⟨S_, .f32⟩
  | .hbm, ⟨43, _⟩ => ⟨S102400, .f32⟩
  | .hbm, ⟨44, _⟩ => ⟨S102400x1, .f32⟩
  | .hbm, ⟨45, _⟩ => ⟨S102400x1, .f32⟩
  | .hbm, ⟨46, _⟩ => ⟨S2048x1, .f32⟩
  | .hbm, ⟨47, _⟩ => ⟨S102400x2048, .f32⟩
  | .hbm, ⟨48, _⟩ => ⟨S102400x1, .f32⟩
  | .hbm, ⟨49, _⟩ => ⟨S102400x1, .f32⟩
  | .hbm, ⟨50, _⟩ => ⟨S102400x100, .f32⟩
  | .hbm, ⟨51, _⟩ => ⟨S102400x100, .f32⟩
  | .hbm, ⟨52, _⟩ => ⟨S2048x100, .f32⟩
  | _, _ => ⟨S102400x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]

class Facts₀ : Prop where
  bcast_S100_S1x100_1 : S100.BroadcastsInDim S1x100 (![1] : Fin 1 → Fin S1x100.rank)
  bcast_S1x100_S102400x100_0_1 : S1x100.BroadcastsInDim S102400x100 (![0, 1] : Fin 2 → Fin S102400x100.rank)
  bcast_S1x100_S2048x100_0_1 : S1x100.BroadcastsInDim S2048x100 (![0, 1] : Fin 2 → Fin S2048x100.rank)
  transposes_S2048x102400_S102400x2048_1_0 : S2048x102400.Transposes [1, 0] S102400x2048
  reducesTo_S102400x100_S102400_d1 : S102400x100.ReducesTo [1] S102400
  h_S_ : 0 < S_.numel
  bcast_S102400_S102400x1_0 : S102400.BroadcastsInDim S102400x1 (![0] : Fin 1 → Fin S102400x1.rank)
  bcast_S102400x1_S102400x100_0_1 : S102400x1.BroadcastsInDim S102400x100 (![0, 1] : Fin 2 → Fin S102400x100.rank)
  dot_S102400x512_S512x100_S102400x100_1_0_0_1_n_n_wf : DotDims.WF S102400x512 S512x100 S102400x100 [1] [0] [0] [1] [] []
  dot_S102400x100_S100x100_S102400x100_1_0_0_1_n_n_wf : DotDims.WF S102400x100 S100x100 S102400x100 [1] [0] [0] [1] [] []
  dot_S2048x512_S512x100_S2048x100_1_0_0_1_n_n_wf : DotDims.WF S2048x512 S512x100 S2048x100 [1] [0] [0] [1] [] []
  dot_S2048x100_S100x100_S2048x100_1_0_0_1_n_n_wf : DotDims.WF S2048x100 S100x100 S2048x100 [1] [0] [0] [1] [] []
  dot_S102400x2048_S2048x100_S102400x100_1_0_0_1_n_n_wf : DotDims.WF S102400x2048 S2048x100 S102400x100 [1] [0] [0] [1] [] []
  dot_S2048x102400_S102400x1_S2048x1_1_0_0_1_n_n_wf : DotDims.WF S2048x102400 S102400x1 S2048x1 [1] [0] [0] [1] [] []
  dot_S102400x2048_S2048x1_S102400x1_1_0_0_1_n_n_wf : DotDims.WF S102400x2048 S2048x1 S102400x1 [1] [0] [0] [1] [] []
  dot_S2048x102400_S102400x100_S2048x100_1_0_0_1_n_n_wf : DotDims.WF S2048x102400 S102400x100 S2048x100 [1] [0] [0] [1] [] []

variable [Facts₀]

def dot_S102400x512_S512x100_S102400x100_1_0_0_1_n_n : DotDims S102400x512 S512x100 S102400x100 where
  lhsContracting := [1]
  rhsContracting := [0]
  lhsNonContracting := [0]
  rhsNonContracting := [1]
  lhsBatch := []
  rhsBatch := []
  wf := dot_S102400x512_S512x100_S102400x100_1_0_0_1_n_n_wf
def dot_S102400x100_S100x100_S102400x100_1_0_0_1_n_n : DotDims S102400x100 S100x100 S102400x100 where
  lhsContracting := [1]
  rhsContracting := [0]
  lhsNonContracting := [0]
  rhsNonContracting := [1]
  lhsBatch := []
  rhsBatch := []
  wf := dot_S102400x100_S100x100_S102400x100_1_0_0_1_n_n_wf
def dot_S2048x512_S512x100_S2048x100_1_0_0_1_n_n : DotDims S2048x512 S512x100 S2048x100 where
  lhsContracting := [1]
  rhsContracting := [0]
  lhsNonContracting := [0]
  rhsNonContracting := [1]
  lhsBatch := []
  rhsBatch := []
  wf := dot_S2048x512_S512x100_S2048x100_1_0_0_1_n_n_wf
def dot_S2048x100_S100x100_S2048x100_1_0_0_1_n_n : DotDims S2048x100 S100x100 S2048x100 where
  lhsContracting := [1]
  rhsContracting := [0]
  lhsNonContracting := [0]
  rhsNonContracting := [1]
  lhsBatch := []
  rhsBatch := []
  wf := dot_S2048x100_S100x100_S2048x100_1_0_0_1_n_n_wf
def dot_S102400x2048_S2048x100_S102400x100_1_0_0_1_n_n : DotDims S102400x2048 S2048x100 S102400x100 where
  lhsContracting := [1]
  rhsContracting := [0]
  lhsNonContracting := [0]
  rhsNonContracting := [1]
  lhsBatch := []
  rhsBatch := []
  wf := dot_S102400x2048_S2048x100_S102400x100_1_0_0_1_n_n_wf
def dot_S2048x102400_S102400x1_S2048x1_1_0_0_1_n_n : DotDims S2048x102400 S102400x1 S2048x1 where
  lhsContracting := [1]
  rhsContracting := [0]
  lhsNonContracting := [0]
  rhsNonContracting := [1]
  lhsBatch := []
  rhsBatch := []
  wf := dot_S2048x102400_S102400x1_S2048x1_1_0_0_1_n_n_wf
def dot_S102400x2048_S2048x1_S102400x1_1_0_0_1_n_n : DotDims S102400x2048 S2048x1 S102400x1 where
  lhsContracting := [1]
  rhsContracting := [0]
  lhsNonContracting := [0]
  rhsNonContracting := [1]
  lhsBatch := []
  rhsBatch := []
  wf := dot_S102400x2048_S2048x1_S102400x1_1_0_0_1_n_n_wf
def dot_S2048x102400_S102400x100_S2048x100_1_0_0_1_n_n : DotDims S2048x102400 S102400x100 S2048x100 where
  lhsContracting := [1]
  rhsContracting := [0]
  lhsNonContracting := [0]
  rhsNonContracting := [1]
  lhsBatch := []
  rhsBatch := []
  wf := dot_S2048x102400_S102400x100_S2048x100_1_0_0_1_n_n_wf

class Facts : Prop extends Facts₀ where

variable [Facts]
-- ==== Proof.KRun.lean ====
/-
  The idealized kernel's run with its two results named.

  @main is six segments: the host operations that pad the weights, the three regions with the host additions of the
  two halves' partial masses between the second and the third, and the host operations that add the two halves'
  partial aggregates and cut both results back to the first 100 lanes. Every weakly fair execution goes through the
  segments in order, so it ends with every buffer of the program at the contents the last segment leaves (the fold of
  the segments over the launch memory); read at the two result buffers and at the nine argument buffers, that is the
  statement below. The argument buffers are written by no segment.
-/
import proofs.«130200_j43044162240998_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at what the last host
    segment leaves in them and the nine arguments as launched. -/
theorem run_values : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_v36) = W6 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       h c _ (mem_uc main_v36 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.KRun

end
-- ==== Proof.Spec.lean ====
/-
  The computation both programs perform, written once over plain functions of row and column positions, with the
  extents left general.

  A dense layer sends a row x to tanh(∑ₖ xₖ · W(k, j) + bⱼ); the network is three such layers. With fᵢ the network's
  rows of the batch items and fᵤ its rows of the edges, and M the batch-by-edge incidence weights:

      score(e)   = ∑ₕ (∑_b M(b, e) · fᵢ(b, h)) · fᵤ(e, h)          the edge's dot score
      Z(e)       = exp(score(e))
      A(b)       = ∑ₑ M(b, e) · Z(e)                               the mass of batch item b
      S(e)       = ∑_b M(b, e) · A(b)                              the mass seen from edge e
      out(b, h)  = ∑ₑ M(b, e) · ((Z(e) / S(e)) · fᵤ(e, h))        the normalised aggregate

  The kernel works with the hidden width padded by zero columns and zero bias entries, and walks the edges tile by
  tile; `pad`, `padSq`, `padV` are the paddings and `tile` the position of an edge inside the tile walk.
-/
import Idealize.ShloMosaic.PureOps.Ideal
import Idealize.ShloMosaic.Lib.ValueIdx

noncomputable section

open scoped BigOperators

namespace Cert.Spec

open Idealize.ShloMosaic Idealize.ShloMosaic.ValueIdx

/-- One dense layer applied to one row. -/
def layer {K J : ℕ} (W : Fin K → Fin J → EReal) (b : Fin J → EReal) (x : Fin K → EReal) : Fin J → EReal :=
  fun j => Ideal.tanh ((∑ k, x k * W k j) + b j)

/-- The three-layer network applied to one row. -/
def mlp {K H : ℕ} (W1 : Fin K → Fin H → EReal) (b1 : Fin H → EReal) (W2 : Fin H → Fin H → EReal) (b2 : Fin H → EReal)
    (W3 : Fin H → Fin H → EReal) (b3 : Fin H → EReal) (x : Fin K → EReal) : Fin H → EReal :=
  layer W3 b3 (layer W2 b2 (layer W1 b1 x))

/-- An edge's dot score. -/
def score {B E H : ℕ} (M : Fin B → Fin E → EReal) (fi : Fin B → Fin H → EReal) (fu : Fin E → Fin H → EReal)
    (e : Fin E) : EReal :=
  ∑ h, (∑ b, M b e * fi b h) * fu e h

/-- An edge's unnormalised weight. -/
def weight {B E H : ℕ} (M : Fin B → Fin E → EReal) (fi : Fin B → Fin H → EReal) (fu : Fin E → Fin H → EReal)
    (e : Fin E) : EReal :=
  Ideal.exp (score M fi fu e)

/-- The mass of a batch item: its edges' weights, weighted by the incidence. -/
def massA {B E : ℕ} (M : Fin B → Fin E → EReal) (Z : Fin E → EReal) (b : Fin B) : EReal := ∑ e, M b e * Z e

/-- The mass seen from an edge. -/
def massS {B E : ℕ} (M : Fin B → Fin E → EReal) (A : Fin B → EReal) (e : Fin E) : EReal := ∑ b, M b e * A b

/-- The normalised aggregate. -/
def agg {B E H : ℕ} (M : Fin B → Fin E → EReal) (Z S : Fin E → EReal) (fu : Fin E → Fin H → EReal)
    (b : Fin B) (h : Fin H) : EReal :=
  ∑ e, M b e * (Ideal.div (Z e) (S e) * fu e h)

/-- The whole computation's first result, from the rows of the edges `U`, of the batch items `I` and the incidence. -/
def out {B E K H : ℕ} (U : Fin E → Fin K → EReal) (I : Fin B → Fin K → EReal) (M : Fin B → Fin E → EReal)
    (W1 : Fin K → Fin H → EReal) (b1 : Fin H → EReal) (W2 : Fin H → Fin H → EReal) (b2 : Fin H → EReal)
    (W3 : Fin H → Fin H → EReal) (b3 : Fin H → EReal) : Fin B → Fin H → EReal :=
  let fi := fun b => mlp W1 b1 W2 b2 W3 b3 (I b)
  let fu := fun e => mlp W1 b1 W2 b2 W3 b3 (U e)
  let Z := weight M fi fu
  agg M Z (massS M (massA M Z)) fu

/-! ## Zero padding of the hidden width -/

/-- A vector padded with zeros. -/
def padV {H H' : ℕ} (b : Fin H → EReal) : Fin H' → EReal := fun j => if h : j.val < H then b ⟨j.val, h⟩ else 0

/-- A matrix padded with zero columns. -/
def pad {K H H' : ℕ} (W : Fin K → Fin H → EReal) : Fin K → Fin H' → EReal :=
  fun k j => if h : j.val < H then W k ⟨j.val, h⟩ else 0

/-- A square matrix padded with zero rows and zero columns. -/
def padSq {H H' : ℕ} (W : Fin H → Fin H → EReal) : Fin H' → Fin H' → EReal :=
  fun k j => if hk : k.val < H then (if hj : j.val < H then W ⟨k.val, hk⟩ ⟨j.val, hj⟩ else 0) else 0

/-! ## Arrays as functions of row and column -/

/-- A rank-2 array as a function of row and column. -/
def cur2 {a b : ℕ} (x : (⟨2, ![a, b]⟩ : Shape).Idx → EReal) : Fin a → Fin b → EReal := fun p q => x (ix2 p q)

/-- A rank-1 array as a function of position. -/
def cur1 {a : ℕ} (x : (⟨1, ![a]⟩ : Shape).Idx → EReal) : Fin a → EReal := fun p => x (ix1 p)

/-! ## The edge at a position of the tile walk -/

/-- Edge number `(c · nt + t) · len + l`: position `l` of tile `t` of half `c`, among `N = nc · nt · len` edges. -/
def tile {nc nt len N : ℕ} (hN : nc * nt * len = N) (c : Fin nc) (t : Fin nt) (l : Fin len) : Fin N :=
  ⟨(c.val * nt + t.val) * len + l.val, by
    have hc := c.isLt; have ht := t.isLt; have hl := l.isLt
    rw [← hN]
    calc (c.val * nt + t.val) * len + l.val < (c.val * nt + t.val) * len + len := by omega
      _ = (c.val * nt + t.val + 1) * len := by ring
      _ ≤ (nc * nt) * len := Nat.mul_le_mul_right _ (by
          calc c.val * nt + t.val + 1 ≤ c.val * nt + nt := by omega
            _ = (c.val + 1) * nt := by ring
            _ ≤ nc * nt := Nat.mul_le_mul_right _ hc)⟩

theorem tile_val {nc nt len N : ℕ} (hN : nc * nt * len = N) (c : Fin nc) (t : Fin nt) (l : Fin len) :
    (tile hN c t l).val = (c.val * nt + t.val) * len + l.val := rfl

/-- The part of a batch item's mass that the tiles of half `c` contribute, tile after tile. -/
def halfMassA {B nc nt len N : ℕ} (hN : nc * nt * len = N) (M : Fin B → Fin N → EReal) (Z : Fin N → EReal)
    (c : Fin nc) (b : Fin B) : EReal :=
  ∑ t : Fin nt, ∑ l : Fin len, M b (tile hN c t l) * Z (tile hN c t l)

/-- The part of the aggregate that the tiles of half `c` contribute, tile after tile. -/
def halfAgg {B H nc nt len N : ℕ} (hN : nc * nt * len = N) (M : Fin B → Fin N → EReal) (Z S : Fin N → EReal)
    (fu : Fin N → Fin H → EReal) (c : Fin nc) (b : Fin B) (h : Fin H) : EReal :=
  ∑ t : Fin nt, ∑ l : Fin len,
    M b (tile hN c t l) * (Ideal.div (Z (tile hN c t l)) (S (tile hN c t l)) * fu (tile hN c t l) h)

/-! ## The kernel's arrangement of the same computation -/

/-- The network with its hidden width padded from `H` to `H'` by zero columns, rows and bias entries. -/
def kNet {K H H' : ℕ} (W1 : Fin K → Fin H → EReal) (b1 : Fin H → EReal) (W2 : Fin H → Fin H → EReal) (b2 : Fin H → EReal)
    (W3 : Fin H → Fin H → EReal) (b3 : Fin H → EReal) (x : Fin K → EReal) : Fin H' → EReal :=
  mlp (pad W1) (padV b1) (padSq W2) (padV b2) (padSq W3) (padV b3) x

/-- The kernel's first result before its last slice: the padded network's rows, the edges' weights from them, each
    batch item's mass as the sum of the two halves' contributions, and the aggregate as the sum of the two halves'. -/
def kOut {B E K H H' nt len : ℕ} (hN : 2 * nt * len = E) (U : Fin E → Fin K → EReal) (I : Fin B → Fin K → EReal)
    (M : Fin B → Fin E → EReal) (W1 : Fin K → Fin H → EReal) (b1 : Fin H → EReal) (W2 : Fin H → Fin H → EReal)
    (b2 : Fin H → EReal) (W3 : Fin H → Fin H → EReal) (b3 : Fin H → EReal) : Fin B → Fin H' → EReal :=
  let fi : Fin B → Fin H' → EReal := fun b => kNet W1 b1 W2 b2 W3 b3 (I b)
  let fu : Fin E → Fin H' → EReal := fun e => kNet W1 b1 W2 b2 W3 b3 (U e)
  let Z := weight M fi fu
  let A : Fin B → EReal := fun b => halfMassA hN M Z 0 b + halfMassA hN M Z 1 b
  fun b j => halfAgg hN M Z (massS M A) fu 0 b j + halfAgg hN M Z (massS M A) fu 1 b j

end Cert.Spec

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.RefSpec.lean ====
/-
  The reference program's two results, read index by index, are the computation of Spec.lean applied to the argument
  arrays: the second result is the three-layer network's rows of the batch items, the first the normalised aggregate.

  The reading goes one named intermediate at a time. A dense layer is a matrix product, the bias spread along the rows, a
  sum and a tanh; read at (row, column) it is `layer`, and three of them are `mlp`, once on the rows of the edges and
  once on the rows of the batch items. With fᵢ and fᵤ those two families of rows and M the incidence, the remaining
  stages are, at an edge e, a batch item b and a hidden position h:

      (Mᵀ · fᵢ)(e, h) = ∑_b M(b, e) · fᵢ(b, h),        its product with fᵤ(e, h),        the sum over h from zero: score(e),
      Z(e) = exp(score(e)) kept as a column,   A = M · Z,   S = Mᵀ · A,   Z / S spread along the rows,
      its product with fᵤ,   and M times that: the aggregate.

  Every matrix product is read as the sum over its one contracted position, every layout step (a spread, a transpose, a
  vector kept as a column) as its operand at the position it copies from; the first block of lemmas names those positions.
-/
import proofs.«130200_j43044162240998_2_alg».proof.Proof.Gen.ReferenceIdeal.Read
import proofs.«130200_j43044162240998_2_alg».proof.Proof.Spec
import proofs.«130200_j43044162240998_2_alg».proof.Proof.LibPlainDot

noncomputable section

open scoped BigOperators

namespace Cert.RefSpec

open Cert.ReferenceIdeal Cert.ReferenceIdeal.Read Idealize.ShloMosaic Idealize.ShloMosaic.ValueIdx Cert.Spec

/-! ## The positions each stage reads

  Entry (r, j) of a product L · R reads L at (r, k) and R at (k, j); a bias spread along the rows is read at j; a
  transpose at (e, b) reads (b, e); a vector kept as a column is read at its row; a column spread along the rows is read
  at (row, 0). -/

section positions

variable (p : Fin 2048) (e : Fin 102400) (j : Fin 100) (u : Fin 1)

/-! The three layers on the rows of the edges. -/

theorem edge1_left (k : Fin 512) : lidx_main_v0 (ix2 e j) k = ix2 e k := funext fun a => Fin.ext (by match a with | ⟨0, _⟩ => rfl | ⟨1, _⟩ => rfl)
theorem edge1_right (k : Fin 512) : ridx_main_v0 (ix2 e j) k = ix2 k j := funext fun a => Fin.ext (by match a with | ⟨0, _⟩ => rfl | ⟨1, _⟩ => rfl)
theorem edge1_bias : idx_main_v1 (idx_main_v2 (ix2 e j)) = ix1 j := funext fun a => Fin.ext (by match a with | ⟨0, _⟩ => rfl)
theorem edge2_left (k : Fin 100) : lidx_main_v5 (ix2 e j) k = ix2 e k := funext fun a => Fin.ext (by match a with | ⟨0, _⟩ => rfl | ⟨1, _⟩ => rfl)
theorem edge2_right (k : Fin 100) : ridx_main_v5 (ix2 e j) k = ix2 k j := funext fun a => Fin.ext (by match a with | ⟨0, _⟩ => rfl | ⟨1, _⟩ => rfl)
theorem edge2_bias : idx_main_v6 (idx_main_v7 (ix2 e j)) = ix1 j := funext fun a => Fin.ext (by match a with | ⟨0, _⟩ => rfl)
theorem edge3_left (k : Fin 100) : lidx_main_v10 (ix2 e j) k = ix2 e k := funext fun a => Fin.ext (by match a with | ⟨0, _⟩ => rfl | ⟨1, _⟩ => rfl)
theorem edge3_right (k : Fin 100) : ridx_main_v10 (ix2 e j) k = ix2 k j := funext fun a => Fin.ext (by match a with | ⟨0, _⟩ => rfl | ⟨1, _⟩ => rfl)
theorem edge3_bias : idx_main_v11 (idx_main_v12 (ix2 e j)) = ix1 j := funext fun a => Fin.ext (by match a with | ⟨0, _⟩ => rfl)

/-! The three layers on the rows of the batch items. -/

theorem batch1_left (k : Fin 512) : lidx_main_v15 (ix2 p j) k = ix2 p k := funext fun a => Fin.ext (by match a with | ⟨0, _⟩ => rfl | ⟨1, _⟩ => rfl)
theorem batch1_right (k : Fin 512) : ridx_main_v15 (ix2 p j) k = ix2 k j := funext fun a => Fin.ext (by match a with | ⟨0, _⟩ => rfl | ⟨1, _⟩ => rfl)
theorem batch1_bias : idx_main_v16 (idx_main_v17 (ix2 p j)) = ix1 j := funext fun a => Fin.ext (by match a with | ⟨0, _⟩ => rfl)
theorem batch2_left (k : Fin 100) : lidx_main_v20 (ix2 p j) k = ix2 p k := funext fun a => Fin.ext (by match a with | ⟨0, _⟩ => rfl | ⟨1, _⟩ => rfl)
theorem batch2_right (k : Fin 100) : ridx_main_v20 (ix2 p j) k = ix2 k j := funext fun a => Fin.ext (by match a with | ⟨0, _⟩ => rfl | ⟨1, _⟩ => rfl)
theorem batch2_bias : idx_main_v21 (idx_main_v22 (ix2 p j)) = ix1 j := funext fun a => Fin.ext (by match a with | ⟨0, _⟩ => rfl)
theorem batch3_left (k : Fin 100) : lidx_main_v25 (ix2 p j) k = ix2 p k := funext fun a => Fin.ext (by match a with | ⟨0, _⟩ => rfl | ⟨1, _⟩ => rfl)
theorem batch3_right (k : Fin 100) : ridx_main_v25 (ix2 p j) k = ix2 k j := funext fun a => Fin.ext (by match a with | ⟨0, _⟩ => rfl | ⟨1, _⟩ => rfl)
theorem batch3_bias : idx_main_v26 (idx_main_v27 (ix2 p j)) = ix1 j := funext fun a => Fin.ext (by match a with | ⟨0, _⟩ => rfl)

/-! The score, the masses and the aggregate. -/

theorem incidenceT_pos (b : Fin 2048) : idx_main_v30 (ix2 e b) = ix2 b e := funext fun a => Fin.ext (by match a with | ⟨0, _⟩ => rfl | ⟨1, _⟩ => rfl)
theorem edgeSum_left (b : Fin 2048) : lidx_main_v31 (ix2 e j) b = ix2 e b := funext fun a => Fin.ext (by match a with | ⟨0, _⟩ => rfl | ⟨1, _⟩ => rfl)
theorem edgeSum_right (b : Fin 2048) : ridx_main_v31 (ix2 e j) b = ix2 b j := funext fun a => Fin.ext (by match a with | ⟨0, _⟩ => rfl | ⟨1, _⟩ => rfl)
theorem score_pos (k : Fin 100) : idx_main_v33 (ix1 e) k = ix2 e k := funext fun a => Fin.ext (by match a with | ⟨0, _⟩ => rfl | ⟨1, _⟩ => rfl)
theorem column_pos : idx_main_v34 (ix2 e u) = ix1 e := funext fun a => Fin.ext (by match a with | ⟨0, _⟩ => rfl)
theorem massA_left (k : Fin 102400) : lidx_main_v36 (ix2 p u) k = ix2 p k := funext fun a => Fin.ext (by match a with | ⟨0, _⟩ => rfl | ⟨1, _⟩ => rfl)
theorem massA_right (k : Fin 102400) : ridx_main_v36 (ix2 p u) k = ix2 k u := funext fun a => Fin.ext (by match a with | ⟨0, _⟩ => rfl | ⟨1, _⟩ => rfl)
theorem incidenceT_pos' (b : Fin 2048) : idx_main_v37 (ix2 e b) = ix2 b e := funext fun a => Fin.ext (by match a with | ⟨0, _⟩ => rfl | ⟨1, _⟩ => rfl)
theorem massS_left (b : Fin 2048) : lidx_main_v38 (ix2 e u) b = ix2 e b := funext fun a => Fin.ext (by match a with | ⟨0, _⟩ => rfl | ⟨1, _⟩ => rfl)
theorem massS_right (b : Fin 2048) : ridx_main_v38 (ix2 e u) b = ix2 b u := funext fun a => Fin.ext (by match a with | ⟨0, _⟩ => rfl | ⟨1, _⟩ => rfl)
theorem spread_pos : idx_main_v40 (ix2 e j) = ix2 e (0 : Fin 1) := funext fun a => Fin.ext (by match a with | ⟨0, _⟩ => rfl | ⟨1, _⟩ => rfl)
theorem agg_left (k : Fin 102400) : lidx_main_v42 (ix2 p j) k = ix2 p k := funext fun a => Fin.ext (by match a with | ⟨0, _⟩ => rfl | ⟨1, _⟩ => rfl)
theorem agg_right (k : Fin 102400) : ridx_main_v42 (ix2 p j) k = ix2 k j := funext fun a => Fin.ext (by match a with | ⟨0, _⟩ => rfl | ⟨1, _⟩ => rfl)

end positions

/-! ## The stages, one named intermediate at a time -/

section stages

variable (x0 : (⟨S102400x512, .f32⟩ : BufTy).Contents (Elt Ideal)) (x1 : (⟨S2048x512, .f32⟩ : BufTy).Contents (Elt Ideal))
  (x2 : (⟨S2048x102400, .f32⟩ : BufTy).Contents (Elt Ideal)) (x3 : (⟨S512x100, .f32⟩ : BufTy).Contents (Elt Ideal))
  (x4 : (⟨S100, .f32⟩ : BufTy).Contents (Elt Ideal)) (x5 : (⟨S100x100, .f32⟩ : BufTy).Contents (Elt Ideal))
  (x6 : (⟨S100, .f32⟩ : BufTy).Contents (Elt Ideal)) (x7 : (⟨S100x100, .f32⟩ : BufTy).Contents (Elt Ideal))
  (x8 : (⟨S100, .f32⟩ : BufTy).Contents (Elt Ideal))

/-- The rows of the edges after the first layer. -/
theorem edge_layer1 (e : Fin 102400) (j : Fin 100) :
    val_main_v4 (F := Ideal) x0 x3 x4 (ix2 e j) = layer (cur2 x3) (cur1 x4) (cur2 x0 e) j := by
  rw [val_main_v4_apply, val_main_v3_apply, val_main_v0_apply, val_main_v2_apply, val_main_v1_apply]
  simp only [edge1_left, edge1_right, edge1_bias, Ideal.hostUnary_tanh_def, Ideal.addf_def]
  rfl

/-- The rows of the edges after the second layer. -/
theorem edge_layer2 (e : Fin 102400) (j : Fin 100) :
    val_main_v9 (F := Ideal) x0 x3 x4 x5 x6 (ix2 e j)
      = layer (cur2 x5) (cur1 x6) (layer (cur2 x3) (cur1 x4) (cur2 x0 e)) j := by
  rw [val_main_v9_apply, val_main_v8_apply, val_main_v5_apply, val_main_v7_apply, val_main_v6_apply]
  simp only [edge2_left, edge2_right, edge2_bias, edge_layer1, Ideal.hostUnary_tanh_def, Ideal.addf_def]
  rfl

/-- The network's rows of the edges. -/
theorem edge_net (e : Fin 102400) (j : Fin 100) :
    val_main_v14 (F := Ideal) x0 x3 x4 x5 x6 x7 x8 (ix2 e j) = mlp (cur2 x3) (cur1 x4) (cur2 x5) (cur1 x6) (cur2 x7) (cur1 x8) (cur2 x0 e) j := by
  rw [val_main_v14_apply, val_main_v13_apply, val_main_v10_apply, val_main_v12_apply, val_main_v11_apply]
  simp only [edge3_left, edge3_right, edge3_bias, edge_layer2, Ideal.hostUnary_tanh_def, Ideal.addf_def]
  rfl

/-- The rows of the batch items after the first layer. -/
theorem batch_layer1 (p : Fin 2048) (j : Fin 100) :
    val_main_v19 (F := Ideal) x1 x3 x4 (ix2 p j) = layer (cur2 x3) (cur1 x4) (cur2 x1 p) j := by
  rw [val_main_v19_apply, val_main_v18_apply, val_main_v15_apply, val_main_v17_apply, val_main_v16_apply]
  simp only [batch1_left, batch1_right, batch1_bias, Ideal.hostUnary_tanh_def, Ideal.addf_def]
  rfl

/-- The rows of the batch items after the second layer. -/
theorem batch_layer2 (p : Fin 2048) (j : Fin 100) :
    val_main_v24 (F := Ideal) x1 x3 x4 x5 x6 (ix2 p j)
      = layer (cur2 x5) (cur1 x6) (layer (cur2 x3) (cur1 x4) (cur2 x1 p)) j := by
  rw [val_main_v24_apply, val_main_v23_apply, val_main_v20_apply, val_main_v22_apply, val_main_v21_apply]
  simp only [batch2_left, batch2_right, batch2_bias, batch_layer1, Ideal.hostUnary_tanh_def, Ideal.addf_def]
  rfl

/-- The network's rows of the batch items. -/
theorem batch_net (p : Fin 2048) (j : Fin 100) :
    val_main_v29 (F := Ideal) x1 x3 x4 x5 x6 x7 x8 (ix2 p j) = mlp (cur2 x3) (cur1 x4) (cur2 x5) (cur1 x6) (cur2 x7) (cur1 x8) (cur2 x1 p) j := by
  rw [val_main_v29_apply, val_main_v28_apply, val_main_v25_apply, val_main_v27_apply, val_main_v26_apply]
  simp only [batch3_left, batch3_right, batch3_bias, batch_layer2, Ideal.hostUnary_tanh_def, Ideal.addf_def]
  rfl

/-- The incidence's transpose times the batch items' rows: at edge e, the incidence-weighted sum of the batch items' rows. -/
theorem edge_sum (e : Fin 102400) (h : Fin 100) :
    val_main_v31 (F := Ideal) x1 x2 x3 x4 x5 x6 x7 x8 (ix2 e h)
      = ∑ b : Fin 2048, cur2 x2 b e * mlp (cur2 x3) (cur1 x4) (cur2 x5) (cur1 x6) (cur2 x7) (cur1 x8) (cur2 x1 b) h := by
  rw [val_main_v31_apply]
  simp only [edgeSum_left, edgeSum_right, val_main_v30_apply, incidenceT_pos, batch_net]
  rfl

/-- The summand of an edge's score. -/
theorem score_term (e : Fin 102400) (h : Fin 100) :
    val_main_v32 (F := Ideal) x0 x1 x2 x3 x4 x5 x6 x7 x8 (ix2 e h)
      = (∑ b : Fin 2048, cur2 x2 b e * mlp (cur2 x3) (cur1 x4) (cur2 x5) (cur1 x6) (cur2 x7) (cur1 x8) (cur2 x1 b) h) * mlp (cur2 x3) (cur1 x4) (cur2 x5) (cur1 x6) (cur2 x7) (cur1 x8) (cur2 x0 e) h := by
  rw [val_main_v32_apply, edge_sum, edge_net]
  rfl

/-- An edge's score: the sum over the hidden positions, started from zero. -/
theorem score_eq (e : Fin 102400) :
    val_main_v33 (F := Ideal) x0 x1 x2 x3 x4 x5 x6 x7 x8 (ix1 e) = score (cur2 x2) (fun b => mlp (cur2 x3) (cur1 x4) (cur2 x5) (cur1 x6) (cur2 x7) (cur1 x8) (cur2 x1 b)) (fun e => mlp (cur2 x3) (cur1 x4) (cur2 x5) (cur1 x6) (cur2 x7) (cur1 x8) (cur2 x0 e)) e := by
  rw [val_main_v33_apply, val_main_cst_apply]
  simp only [score_pos, score_term, Ideal.ofBits_def, Ideal.ofBits_zero_f32, zero_add]
  rfl

/-- An edge's weight, kept as a column. -/
theorem weight_eq (e : Fin 102400) (u : Fin 1) :
    val_main_v35 (F := Ideal) x0 x1 x2 x3 x4 x5 x6 x7 x8 (ix2 e u) = weight (cur2 x2) (fun b => mlp (cur2 x3) (cur1 x4) (cur2 x5) (cur1 x6) (cur2 x7) (cur1 x8) (cur2 x1 b)) (fun e => mlp (cur2 x3) (cur1 x4) (cur2 x5) (cur1 x6) (cur2 x7) (cur1 x8) (cur2 x0 e)) e := by
  rw [val_main_v35_apply, val_main_v34_apply, column_pos, score_eq]
  rfl

/-- A batch item's mass: the incidence times the column of weights. -/
theorem massA_eq (b : Fin 2048) (u : Fin 1) :
    val_main_v36 (F := Ideal) x0 x1 x2 x3 x4 x5 x6 x7 x8 (ix2 b u) = massA (cur2 x2) (weight (cur2 x2) (fun b => mlp (cur2 x3) (cur1 x4) (cur2 x5) (cur1 x6) (cur2 x7) (cur1 x8) (cur2 x1 b)) (fun e => mlp (cur2 x3) (cur1 x4) (cur2 x5) (cur1 x6) (cur2 x7) (cur1 x8) (cur2 x0 e))) b := by
  rw [val_main_v36_apply]
  simp only [massA_left, massA_right, weight_eq]
  rfl

/-- The mass seen from an edge: the incidence's transpose times the column of masses. -/
theorem massS_eq (e : Fin 102400) (u : Fin 1) :
    val_main_v38 (F := Ideal) x0 x1 x2 x3 x4 x5 x6 x7 x8 (ix2 e u) = massS (cur2 x2) (massA (cur2 x2) (weight (cur2 x2) (fun b => mlp (cur2 x3) (cur1 x4) (cur2 x5) (cur1 x6) (cur2 x7) (cur1 x8) (cur2 x1 b)) (fun e => mlp (cur2 x3) (cur1 x4) (cur2 x5) (cur1 x6) (cur2 x7) (cur1 x8) (cur2 x0 e)))) e := by
  rw [val_main_v38_apply]
  simp only [massS_left, massS_right, val_main_v37_apply, incidenceT_pos', massA_eq]
  rfl

/-- An edge's normalised weight. -/
theorem ratio_eq (e : Fin 102400) (u : Fin 1) :
    val_main_v39 (F := Ideal) x0 x1 x2 x3 x4 x5 x6 x7 x8 (ix2 e u) = Ideal.div ((weight (cur2 x2) (fun b => mlp (cur2 x3) (cur1 x4) (cur2 x5) (cur1 x6) (cur2 x7) (cur1 x8) (cur2 x1 b)) (fun e => mlp (cur2 x3) (cur1 x4) (cur2 x5) (cur1 x6) (cur2 x7) (cur1 x8) (cur2 x0 e))) e) ((massS (cur2 x2) (massA (cur2 x2) (weight (cur2 x2) (fun b => mlp (cur2 x3) (cur1 x4) (cur2 x5) (cur1 x6) (cur2 x7) (cur1 x8) (cur2 x1 b)) (fun e => mlp (cur2 x3) (cur1 x4) (cur2 x5) (cur1 x6) (cur2 x7) (cur1 x8) (cur2 x0 e))))) e) := by
  rw [val_main_v39_apply, weight_eq, massS_eq]
  rfl

/-- The normalised weight spread along the edge's row, times the edge's row of the network. -/
theorem scaled_eq (e : Fin 102400) (h : Fin 100) :
    val_main_v41 (F := Ideal) x0 x1 x2 x3 x4 x5 x6 x7 x8 (ix2 e h)
      = Ideal.div ((weight (cur2 x2) (fun b => mlp (cur2 x3) (cur1 x4) (cur2 x5) (cur1 x6) (cur2 x7) (cur1 x8) (cur2 x1 b)) (fun e => mlp (cur2 x3) (cur1 x4) (cur2 x5) (cur1 x6) (cur2 x7) (cur1 x8) (cur2 x0 e))) e) ((massS (cur2 x2) (massA (cur2 x2) (weight (cur2 x2) (fun b => mlp (cur2 x3) (cur1 x4) (cur2 x5) (cur1 x6) (cur2 x7) (cur1 x8) (cur2 x1 b)) (fun e => mlp (cur2 x3) (cur1 x4) (cur2 x5) (cur1 x6) (cur2 x7) (cur1 x8) (cur2 x0 e))))) e) * mlp (cur2 x3) (cur1 x4) (cur2 x5) (cur1 x6) (cur2 x7) (cur1 x8) (cur2 x0 e) h := by
  rw [val_main_v41_apply, val_main_v40_apply, spread_pos, ratio_eq, edge_net]
  rfl

/-- The incidence times the scaled rows: the normalised aggregate. -/
theorem aggregate_eq (p : Fin 2048) (o : Fin 100) :
    val_main_v42 (F := Ideal) x0 x1 x2 x3 x4 x5 x6 x7 x8 (ix2 p o)
      = out (cur2 x0) (cur2 x1) (cur2 x2) (cur2 x3) (cur1 x4) (cur2 x5) (cur1 x6) (cur2 x7) (cur1 x8) p o := by
  rw [val_main_v42_apply]
  simp only [agg_left, agg_right, scaled_eq]
  rfl

end stages

/-- The reference's second result: the network's rows of the batch items. -/
theorem val_v29_spec (x1 : (⟨S2048x512, .f32⟩ : BufTy).Contents (Elt Ideal)) (x3 : (⟨S512x100, .f32⟩ : BufTy).Contents (Elt Ideal))
    (x4 : (⟨S100, .f32⟩ : BufTy).Contents (Elt Ideal)) (x5 : (⟨S100x100, .f32⟩ : BufTy).Contents (Elt Ideal))
    (x6 : (⟨S100, .f32⟩ : BufTy).Contents (Elt Ideal)) (x7 : (⟨S100x100, .f32⟩ : BufTy).Contents (Elt Ideal))
    (x8 : (⟨S100, .f32⟩ : BufTy).Contents (Elt Ideal)) (p : Fin 2048) (o : Fin 100) :
    val_main_v29 (F := Ideal) x1 x3 x4 x5 x6 x7 x8 (ix2 p o)
      = mlp (cur2 x3) (cur1 x4) (cur2 x5) (cur1 x6) (cur2 x7) (cur1 x8) (cur2 x1 p) o :=
  batch_net x1 x3 x4 x5 x6 x7 x8 p o

/-- The reference's first result: the normalised aggregate. -/
theorem val_v42_spec (x0 : (⟨S102400x512, .f32⟩ : BufTy).Contents (Elt Ideal)) (x1 : (⟨S2048x512, .f32⟩ : BufTy).Contents (Elt Ideal))
    (x2 : (⟨S2048x102400, .f32⟩ : BufTy).Contents (Elt Ideal)) (x3 : (⟨S512x100, .f32⟩ : BufTy).Contents (Elt Ideal))
    (x4 : (⟨S100, .f32⟩ : BufTy).Contents (Elt Ideal)) (x5 : (⟨S100x100, .f32⟩ : BufTy).Contents (Elt Ideal))
    (x6 : (⟨S100, .f32⟩ : BufTy).Contents (Elt Ideal)) (x7 : (⟨S100x100, .f32⟩ : BufTy).Contents (Elt Ideal))
    (x8 : (⟨S100, .f32⟩ : BufTy).Contents (Elt Ideal)) (p : Fin 2048) (o : Fin 100) :
    val_main_v42 (F := Ideal) x0 x1 x2 x3 x4 x5 x6 x7 x8 (ix2 p o)
      = out (cur2 x0) (cur2 x1) (cur2 x2) (cur2 x3) (cur1 x4) (cur2 x5) (cur1 x6) (cur2 x7) (cur1 x8) p o :=
  aggregate_eq x0 x1 x2 x3 x4 x5 x6 x7 x8 p o

end Cert.RefSpec

end
-- ==== Proof.LibKeepDims.lean ====
/-
  Two keep-dimension layout steps read at an index, for any extents.

  A reduction that keeps its reduced axis (a row sum kept as a column) is printed as a vector [a] viewed as a column
  [a, 1], and its result is spread back along the rows by a broadcast [a, 1] → [a, b]. A row-major view keeps an
  element's position, and position i of the vector is position i · 1 + 0 of the column, so the column reads the vector's
  entry i at (i, 0); the broadcast repeats the column's entry of row p at every (p, c).
-/
import Idealize.ShloMosaic.Lib.ValueIdx
import Idealize.ShloMosaic.Lib.Pipeline.Value

namespace Cert.Lib.KeepDims

open Idealize.ShloMosaic Idealize.ShloMosaic.ValueIdx

/-- A vector `[a]` viewed as a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepDims
-- ==== Proof.Cur3.lean ====
/-
  A rank-3 array as a function of its three coordinates.
-/
import Idealize.ShloMosaic.Lib.ValueIdx

namespace Cert.Spec

open Idealize.ShloMosaic Idealize.ShloMosaic.ValueIdx

/-- A rank-3 array as a function of slab, row and column. -/
def cur3 {a b c : ℕ} (x : (⟨3, ![a, b, c]⟩ : Shape).Idx → EReal) : Fin a → Fin b → Fin c → EReal :=
  fun p q r => x (ix3 p q r)

end Cert.Spec
-- ==== Proof.Algebra.lean ====
/-
  The kernel's arrangement computes the same numbers: zero padding of the hidden width changes nothing on the first
  lanes, and a sum over all edges is the sum over the two halves of the sums over their tiles.

  Everything here is algebra in the extended reals that holds at the infinities too: a product with a zero factor is
  zero, sums may be regrouped and re-indexed freely, and tanh 0 = 0. No distributivity and no cancellation is used.
-/
import proofs.«130200_j43044162240998_2_alg».proof.Proof.Spec

noncomputable section

open scoped BigOperators

namespace Cert.Spec

open Idealize.ShloMosaic

/-! ## Zero padding -/

/-- tanh 0 = 0 in the extended reals: zero is the real zero, and the real tanh vanishes there. -/
theorem tanh_zero : Ideal.tanh (0 : EReal) = 0 := by
  have h0 : (0 : EReal) = ((0 : ℝ) : EReal) := rfl
  rw [h0, Ideal.tanh_coe, Real.tanh_zero]

/-- A padded vector read at one of the first lanes. -/
theorem padV_of_lt {H H' : ℕ} (v : Fin H → EReal) (j : Fin H') (h : j.val < H) :
    padV (H' := H') v j = v ⟨j.val, h⟩ := by
  unfold padV; rw [dif_pos h]

/-- A padded vector read beyond the first lanes. -/
theorem padV_of_not_lt {H H' : ℕ} (v : Fin H → EReal) (j : Fin H') (h : ¬ j.val < H) :
    padV (H' := H') v j = 0 := by
  unfold padV; rw [dif_neg h]

/-- A padded vector read at the image of a lane. -/
theorem padV_castLE {H H' : ℕ} (hH : H ≤ H') (v : Fin H → EReal) (k : Fin H) :
    padV (H' := H') v (Fin.castLE hH k) = v k := by
  rw [padV_of_lt v (Fin.castLE hH k) (by simp)]
  congr 1

/-- A sum over the padded lanes of terms that vanish beyond the first H lanes is the sum over the first H lanes. -/
theorem sum_padded {H H' : ℕ} (hH : H ≤ H') (f : Fin H' → EReal) (hf : ∀ k : Fin H', ¬ k.val < H → f k = 0) :
    ∑ k : Fin H', f k = ∑ k : Fin H, f (Fin.castLE hH k) := by
  symm
  refine Fintype.sum_of_injective (Fin.castLE hH) (Fin.castLE_injective hH) _ f ?_ (fun _ => rfl)
  intro k hk
  apply hf
  intro hlt
  exact hk ⟨⟨k.val, hlt⟩, Fin.ext rfl⟩

/-- A first layer with zero-padded columns and bias gives the zero-padded row of the layer. -/
theorem layer_pad {K H H' : ℕ} (W : Fin K → Fin H → EReal) (b : Fin H → EReal) (x : Fin K → EReal) :
    layer (pad (H' := H') W) (padV b) x = padV (layer W b x) := by
  funext j
  by_cases h : j.val < H
  · rw [padV_of_lt _ j h]
    unfold layer pad
    rw [padV_of_lt b j h]
    simp only [dif_pos h]
  · rw [padV_of_not_lt _ j h]
    unfold layer pad
    rw [padV_of_not_lt b j h]
    simp only [dif_neg h, mul_zero, Finset.sum_const_zero, add_zero, tanh_zero]

/-- An inner layer with zero-padded rows, columns and bias, applied to a zero-padded row, gives the zero-padded row
    of the layer: the padded positions of the contraction contribute products with a zero factor. -/
theorem layer_padSq {H H' : ℕ} (hH : H ≤ H') (W : Fin H → Fin H → EReal) (b : Fin H → EReal) (y : Fin H → EReal) :
    layer (padSq (H' := H') W) (padV b) (padV y) = padV (layer W b y) := by
  funext j
  by_cases h : j.val < H
  · rw [padV_of_lt _ j h]
    unfold layer
    rw [padV_of_lt b j h]
    rw [sum_padded hH (fun k => padV (H' := H') y k * padSq W k j)
      (fun k hk => by rw [padV_of_not_lt y k hk, zero_mul])]
    congr 2
    refine Finset.sum_congr rfl fun k _ => ?_
    rw [padV_castLE hH y k]
    unfold padSq
    have hk : (Fin.castLE hH k).val < H := by simp
    rw [dif_pos hk, dif_pos h]
    congr 2
  · rw [padV_of_not_lt _ j h]
    unfold layer
    rw [padV_of_not_lt b j h]
    have hz : ∀ k : Fin H', padV (H' := H') y k * padSq W k j = 0 := by
      intro k
      unfold padSq
      by_cases hk : k.val < H
      · rw [dif_pos hk, dif_neg h, mul_zero]
      · rw [dif_neg hk, mul_zero]
    simp only [hz, Finset.sum_const_zero, add_zero, tanh_zero]

/-- The padded network gives the zero-padded row of the network. -/
theorem kNet_eq_padV {K H H' : ℕ} (hH : H ≤ H') (W1 : Fin K → Fin H → EReal) (b1 : Fin H → EReal)
    (W2 : Fin H → Fin H → EReal) (b2 : Fin H → EReal) (W3 : Fin H → Fin H → EReal) (b3 : Fin H → EReal)
    (x : Fin K → EReal) :
    kNet (H' := H') W1 b1 W2 b2 W3 b3 x = padV (mlp W1 b1 W2 b2 W3 b3 x) := by
  unfold kNet mlp
  rw [layer_pad, layer_padSq hH, layer_padSq hH]

/-- The padded network agrees with the network on the first `H` lanes. -/
theorem kNet_eq {K H H' : ℕ} (hH : H ≤ H') (W1 : Fin K → Fin H → EReal) (b1 : Fin H → EReal) (W2 : Fin H → Fin H → EReal)
    (b2 : Fin H → EReal) (W3 : Fin H → Fin H → EReal) (b3 : Fin H → EReal) (x : Fin K → EReal) (j : Fin H')
    (hj : j.val < H) :
    kNet (H' := H') W1 b1 W2 b2 W3 b3 x j = mlp W1 b1 W2 b2 W3 b3 x ⟨j.val, hj⟩ := by
  rw [kNet_eq_padV hH, padV_of_lt _ j hj]

/-! ## The edges' scores and weights do not see the padding -/

/-- The dot score over the padded lanes is the dot score over the first H lanes: the padded lanes contribute
    products with a zero factor. -/
theorem score_pad {B E H H' : ℕ} (hH : H ≤ H') (M : Fin B → Fin E → EReal) (fi : Fin B → Fin H → EReal)
    (fu : Fin E → Fin H → EReal) (e : Fin E) :
    score M (fun b => padV (H' := H') (fi b)) (fun e => padV (H' := H') (fu e)) e = score M fi fu e := by
  unfold score
  rw [sum_padded hH (fun h => (∑ b, M b e * padV (H' := H') (fi b) h) * padV (H' := H') (fu e) h)
    (fun k hk => by rw [padV_of_not_lt (fu e) k hk, mul_zero])]
  refine Finset.sum_congr rfl fun k _ => ?_
  rw [padV_castLE hH (fu e) k]
  congr 1
  refine Finset.sum_congr rfl fun b _ => ?_
  rw [padV_castLE hH (fi b) k]

/-- Hence the edges' weights agree. -/
theorem weight_pad {B E H H' : ℕ} (hH : H ≤ H') (M : Fin B → Fin E → EReal) (fi : Fin B → Fin H → EReal)
    (fu : Fin E → Fin H → EReal) :
    weight M (fun b => padV (H' := H') (fi b)) (fun e => padV (H' := H') (fu e)) = weight M fi fu := by
  funext e
  unfold weight
  rw [score_pad hH]

/-! ## The tile walk visits every edge once -/

/-- A sum over all N = nc · nt · len edges is the sum over the halves, the tiles of a half and the positions in a
    tile: (c, t, l) ↦ (c · nt + t) · len + l is a bijection onto the edges. -/
theorem sum_tile {nc nt len N : ℕ} (hN : nc * nt * len = N) (f : Fin N → EReal) :
    ∑ e, f e = ∑ c : Fin nc, ∑ t : Fin nt, ∑ l : Fin len, f (tile hN c t l) := by
  let σ : (Fin nc × Fin nt) × Fin len ≃ Fin N :=
    ((finProdFinEquiv.prodCongr (Equiv.refl (Fin len))).trans finProdFinEquiv).trans (finCongr hN)
  rw [← Equiv.sum_comp σ f, Fintype.sum_prod_type, Fintype.sum_prod_type]
  refine Finset.sum_congr rfl fun c _ => Finset.sum_congr rfl fun t _ => Finset.sum_congr rfl fun l _ => ?_
  congr 1
  apply Fin.ext
  rw [tile_val]
  simp only [σ, Equiv.trans_apply, Equiv.prodCongr_apply, Prod.map_apply, Equiv.refl_apply, finCongr_apply,
    Fin.coe_cast, finProdFinEquiv_apply_val]
  ring

/-- With two halves: the sum over all edges is the first half's tiles' sum plus the second half's. -/
theorem sum_tile_two {nt len N : ℕ} (hN : 2 * nt * len = N) (f : Fin N → EReal) :
    ∑ e, f e = (∑ t : Fin nt, ∑ l : Fin len, f (tile hN 0 t l)) + (∑ t : Fin nt, ∑ l : Fin len, f (tile hN 1 t l)) := by
  rw [sum_tile hN f, Fin.sum_univ_two]

/-- A batch item's mass is the sum of the two halves' contributions. -/
theorem massA_eq_halves {B nt len N : ℕ} (hN : 2 * nt * len = N) (M : Fin B → Fin N → EReal) (Z : Fin N → EReal)
    (b : Fin B) :
    halfMassA hN M Z 0 b + halfMassA hN M Z 1 b = massA M Z b := by
  unfold halfMassA massA
  exact (sum_tile_two hN (fun e => M b e * Z e)).symm

/-- The aggregate is the sum of the two halves' contributions. -/
theorem agg_eq_halves {B H nt len N : ℕ} (hN : 2 * nt * len = N) (M : Fin B → Fin N → EReal) (Z S : Fin N → EReal)
    (fu : Fin N → Fin H → EReal) (b : Fin B) (h : Fin H) :
    halfAgg hN M Z S fu 0 b h + halfAgg hN M Z S fu 1 b h = agg M Z S fu b h := by
  unfold halfAgg agg
  exact (sum_tile_two hN (fun e => M b e * (Ideal.div (Z e) (S e) * fu e h))).symm

/-- The aggregate read at one of the first lanes of zero-padded rows is the aggregate of the rows at that lane. -/
theorem agg_padV {B E H H' : ℕ} (M : Fin B → Fin E → EReal) (Z S : Fin E → EReal) (fu : Fin E → Fin H → EReal)
    (b : Fin B) (j : Fin H') (hj : j.val < H) :
    agg M Z S (fun e => padV (H' := H') (fu e)) b j = agg M Z S fu b ⟨j.val, hj⟩ := by
  unfold agg
  refine Finset.sum_congr rfl fun e _ => ?_
  exact congrArg (fun v => M b e * (Ideal.div (Z e) (S e) * v)) (padV_of_lt (fu e) j hj)

/-! ## The kernel's arrangement -/

/-- The kernel's arrangement of the first result agrees with the computation on the first `H` lanes. -/
theorem kOut_eq {B E K H H' nt len : ℕ} (hH : H ≤ H') (hN : 2 * nt * len = E) (U : Fin E → Fin K → EReal)
    (I : Fin B → Fin K → EReal) (M : Fin B → Fin E → EReal) (W1 : Fin K → Fin H → EReal) (b1 : Fin H → EReal)
    (W2 : Fin H → Fin H → EReal) (b2 : Fin H → EReal) (W3 : Fin H → Fin H → EReal) (b3 : Fin H → EReal)
    (b : Fin B) (j : Fin H') (hj : j.val < H) :
    kOut (H' := H') hN U I M W1 b1 W2 b2 W3 b3 b j = out U I M W1 b1 W2 b2 W3 b3 b ⟨j.val, hj⟩ := by
  unfold kOut out
  have hfi : (fun b => kNet (H' := H') W1 b1 W2 b2 W3 b3 (I b))
      = fun b => padV (H' := H') (mlp W1 b1 W2 b2 W3 b3 (I b)) := by
    funext b; exact kNet_eq_padV hH W1 b1 W2 b2 W3 b3 (I b)
  have hfu : (fun e => kNet (H' := H') W1 b1 W2 b2 W3 b3 (U e))
      = fun e => padV (H' := H') (mlp W1 b1 W2 b2 W3 b3 (U e)) := by
    funext e; exact kNet_eq_padV hH W1 b1 W2 b2 W3 b3 (U e)
  rw [hfi, hfu, weight_pad hH, agg_eq_halves hN]
  have hA : (fun b => halfMassA hN M (weight M (fun b => mlp W1 b1 W2 b2 W3 b3 (I b))
        (fun e => mlp W1 b1 W2 b2 W3 b3 (U e))) 0 b
      + halfMassA hN M (weight M (fun b => mlp W1 b1 W2 b2 W3 b3 (I b))
        (fun e => mlp W1 b1 W2 b2 W3 b3 (U e))) 1 b)
      = massA M (weight M (fun b => mlp W1 b1 W2 b2 W3 b3 (I b)) (fun e => mlp W1 b1 W2 b2 W3 b3 (U e))) := by
    funext b; exact massA_eq_halves hN M _ b
  rw [hA]
  exact agg_padV M _ _ _ b j hj

end Cert.Spec

end
-- ==== Proof.LibScatterSet.lean ====
/-
  A host scatter that writes ONE update window at one start position (an array overwritten, on a rectangle at the
  origin, by a smaller array), read at an entry of the result.
-/
import Idealize.ShloMosaic.PureOps.ShapeOps
import Idealize.ShloMosaic.Lib.ValueIdx

noncomputable section

namespace Cert.Lib.ScatterSet

open Idealize.ShloMosaic Idealize.ShloMosaic.ValueIdx

/-! ## A left fold of overwrites, read at one position -/

/-- A left fold of steps, each of which leaves every position but the one it names alone, read at a position that no
    element of the list names: the starting value there. -/
theorem foldl_overwrite_miss {ι β N : Type} (g : N → Option ι) (step : (ι → β) → N → (ι → β))
    (hmiss : ∀ r n i, g n ≠ some i → step r n i = r i)
    (l : List N) (x : ι → β) (i : ι) (h : ∀ n ∈ l, g n ≠ some i) :
    l.foldl step x i = x i := by
  induction l generalizing x with
  | nil => rfl
  | cons a l ih =>
    rw [List.foldl_cons, ih (step x a) (fun n hn => h n (List.mem_cons_of_mem _ hn)),
      hmiss x a i (h a (List.mem_cons.2 (Or.inl rfl)))]

/-- A left fold of overwrites over a list without repeats, read at a position that exactly one element `n` of the list
    names: the value that element writes. (Every later step leaves the position alone.) -/
theorem foldl_overwrite_hit {ι β N : Type} (g : N → Option ι) (v : N → β) (step : (ι → β) → N → (ι → β))
    (hhit : ∀ r n i, g n = some i → step r n i = v n)
    (hmiss : ∀ r n i, g n ≠ some i → step r n i = r i)
    (l : List N) (hl : l.Nodup) (x : ι → β) (i : ι) (n : N) (hn : n ∈ l) (hg : g n = some i)
    (huniq : ∀ n' ∈ l, g n' = some i → n' = n) :
    l.foldl step x i = v n := by
  induction l generalizing x with
  | nil => exact absurd hn (List.not_mem_nil)
  | cons a l ih =>
    rw [List.foldl_cons]
    rw [List.nodup_cons] at hl
    by_cases ha : a = n
    · subst ha
      rw [foldl_overwrite_miss g step hmiss l _ i ?_, hhit _ _ _ hg]
      intro n' hn' h'
      have e : n' = a := huniq n' (List.mem_cons_of_mem _ hn') h'
      exact hl.1 (e ▸ hn')
    · have hn' : n ∈ l := by
        rcases List.mem_cons.1 hn with h | h
        · exact absurd h.symm ha
        · exact h
      exact ih hl.2 (step x a) hn' (fun n' h' => huniq n' (List.mem_cons_of_mem _ h'))

/-! ## The scatter whose body returns the update, read at one position -/

section Scatter
variable {s si u : Shape} {w : Nat} {α : Type}

/-- One step of the scatter's fold, at a position the update element lands on: the update element. -/
private theorem step_hit (d : ScatterDims s si u) (idx : IVec si w) (upd : u.Idx → α) (r : s.Idx → α) (n : Fin u.numel)
    (i : s.Idx) (h : d.resultIdx? (u.rowMajor.symm n) idx = some i) :
    (match d.resultIdx? (u.rowMajor.symm n) idx with
      | some i0 => fun i' => if i' = i0 then (fun (_ b : α) => b) (r i0) (upd (u.rowMajor.symm n)) else r i'
      | none => r) i = upd (u.rowMajor.symm n) := by
  rw [h]; exact if_pos rfl

/-- One step of the scatter's fold, at a position the update element does not land on: unchanged. -/
private theorem step_miss (d : ScatterDims s si u) (idx : IVec si w) (upd : u.Idx → α) (r : s.Idx → α) (n : Fin u.numel)
    (i : s.Idx) (h : d.resultIdx? (u.rowMajor.symm n) idx ≠ some i) :
    (match d.resultIdx? (u.rowMajor.symm n) idx with
      | some i0 => fun i' => if i' = i0 then (fun (_ b : α) => b) (r i0) (upd (u.rowMajor.symm n)) else r i'
      | none => r) i = r i := by
  cases hr : d.resultIdx? (u.rowMajor.symm n) idx with
  | none => rfl
  | some i0 =>
    rw [hr] at h
    exact if_neg (fun e => h (congrArg some e.symm))

/-- A scatter whose body returns the update, read at a position on which exactly one update element `j` lands: that
    element of the update. -/
theorem scatter_set_hit (d : ScatterDims s si u) (x : s.Idx → α) (idx : IVec si w) (upd : u.Idx → α) (i : s.Idx)
    (j : u.Idx) (hj : d.resultIdx? j idx = some i) (huniq : ∀ j', d.resultIdx? j' idx = some i → j' = j) :
    Host.scatter d (fun _ b => b) x idx upd i = upd j := by
  unfold Host.scatter
  refine (foldl_overwrite_hit (fun n => d.resultIdx? (u.rowMajor.symm n) idx) (fun n => upd (u.rowMajor.symm n)) _
    (fun r n i h => step_hit d idx upd r n i h) (fun r n i h => step_miss d idx upd r n i h)
    (List.finRange u.numel) (List.nodup_finRange _) x i (u.rowMajor j) (List.mem_finRange _) ?_ ?_).trans ?_
  · show d.resultIdx? (u.rowMajor.symm (u.rowMajor j)) idx = some i
    rw [Equiv.symm_apply_apply]; exact hj
  · intro n' _ h'
    have := huniq _ h'
    rw [← this, Equiv.apply_symm_apply]
  · show upd (u.rowMajor.symm (u.rowMajor j)) = upd j
    rw [Equiv.symm_apply_apply]

/-- A scatter whose body returns the update, read at a position on which no update element lands: the operand there. -/
theorem scatter_set_miss (d : ScatterDims s si u) (x : s.Idx → α) (idx : IVec si w) (upd : u.Idx → α) (i : s.Idx)
    (hi : ∀ j, d.resultIdx? j idx ≠ some i) :
    Host.scatter d (fun _ b => b) x idx upd i = x i := by
  unfold Host.scatter
  exact foldl_overwrite_miss (fun n => d.resultIdx? (u.rowMajor.symm n) idx) _
    (fun r n i h => step_miss d idx upd r n i h) (List.finRange u.numel) x i (fun n _ => hi _)

end Scatter

/-! ## Where an update element lands -/

section Lands
variable {s si u : Shape} {w : Nat}

/-- An update element lands on the position `i` exactly when, on every axis, its window's start plus its window
    coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      have := h a
      rw [← e']
      show _ = ((Int.toNat _ : Nat) : Int)
      omega
    · intro e
      refine congrArg some (funext fun a => Fin.ext ?_)
      show Int.toNat _ = _
      rw [e a]; exact Int.toNat_natCast _
  · rename_i h
    constructor
    · intro e; exact absurd e (by simp)
    · intro e
      exact absurd (fun a => by rw [e a]; exact ⟨Int.natCast_nonneg _, by exact_mod_cast (i a).isLt⟩) h

/-- Where the scatter indices are all zero, every window starts at the origin. -/
theorem start_eq_zero (d : ScatterDims s si u) (j : u.Idx) (idx : IVec si w) (h0 : ∀ k, idx k = 0#w) (a : Fin s.rank) :
    d.start j idx a = 0 := by
  unfold ScatterDims.start
  split
  · rw [h0]; exact BitVec.toInt_zero
  · rfl

end Lands

/-- With no inserted axis and the update's two axes, in order, as the window axes, the window coordinate on an axis is
    the update element's coordinate on that axis. -/
theorem window_id2 {a0 a1 b0 b1 : ℕ} {si : Shape} (d : ScatterDims ⟨2, ![a0, a1]⟩ si ⟨2, ![b0, b1]⟩)
    (hw : d.updateWindowDims = [0, 1]) (hi : d.insertedWindowDims = []) (j : (⟨2, ![b0, b1]⟩ : Shape).Idx) (a : Fin 2) :
    d.window j a = (j a).val := by
  obtain ⟨uw, iw, sd, iv, wf⟩ := d
  dsimp only at hw hi
  subst hw hi
  fin_cases a <;> rfl

/-- The same for one axis. -/
theorem window_id1 {a0 b0 : ℕ} {si : Shape} (d : ScatterDims ⟨1, ![a0]⟩ si ⟨1, ![b0]⟩)
    (hw : d.updateWindowDims = [0]) (hi : d.insertedWindowDims = []) (j : (⟨1, ![b0]⟩ : Shape).Idx) (a : Fin 1) :
    d.window j a = (j a).val := by
  obtain ⟨uw, iw, sd, iv, wf⟩ := d
  dsimp only at hw hi
  subst hw hi
  fin_cases a <;> rfl

/-! ## One window written at the origin -/

/-- One axis, the window at the origin: an update element lands on a position exactly when their coordinates agree. -/
theorem lands_iff1 {H H' : ℕ} {si : Shape} {w : Nat} (d : ScatterDims ⟨1, ![H']⟩ si ⟨1, ![H]⟩)
    (hw : d.updateWindowDims = [0]) (hi : d.insertedWindowDims = []) (idx : IVec si w) (h0 : ∀ k, idx k = 0#w)
    (j' : (⟨1, ![H]⟩ : Shape).Idx) (i : (⟨1, ![H']⟩ : Shape).Idx) :
    d.resultIdx? j' idx = some i ↔ (j' 0).val = (i 0).val := by
  rw [resultIdx?_eq_some_iff]
  constructor
  · intro e
    have e0 := e 0
    rw [start_eq_zero d j' idx h0, window_id1 d hw hi, Int.zero_add] at e0
    exact_mod_cast e0
  · intro e a
    rw [start_eq_zero d j' idx h0, window_id1 d hw hi, Int.zero_add]
    match a with
    | ⟨0, _⟩ => exact_mod_cast e

/-- Two axes, the window at the origin: an update element lands on a position exactly when their coordinates agree. -/
theorem lands_iff2 {K K' H H' : ℕ} {si : Shape} {w : Nat} (d : ScatterDims ⟨2, ![K', H']⟩ si ⟨2, ![K, H]⟩)
    (hw : d.updateWindowDims = [0, 1]) (hi : d.insertedWindowDims = []) (idx : IVec si w) (h0 : ∀ k, idx k = 0#w)
    (j' : (⟨2, ![K, H]⟩ : Shape).Idx) (i : (⟨2, ![K', H']⟩ : Shape).Idx) :
    d.resultIdx? j' idx = some i ↔ (j' 0).val = (i 0).val ∧ (j' 1).val = (i 1).val := by
  rw [resultIdx?_eq_some_iff]
  constructor
  · intro e
    have e0 := e 0
    have e1 := e 1
    rw [start_eq_zero d j' idx h0, window_id2 d hw hi, Int.zero_add] at e0 e1
    exact ⟨by exact_mod_cast e0, by exact_mod_cast e1⟩
  · intro e a
    rw [start_eq_zero d j' idx h0, window_id2 d hw hi, Int.zero_add]
    match a with
    | ⟨0, _⟩ => exact_mod_cast e.1
    | ⟨1, _⟩ => exact_mod_cast e.2

/-- A vector written at the origin of a longer one: the update inside its extent, the operand outside. -/
theorem set_vec {H H' : ℕ} {si : Shape} {w : Nat} (d : ScatterDims ⟨1, ![H']⟩ si ⟨1, ![H]⟩)
    (hw : d.updateWindowDims = [0]) (hi : d.insertedWindowDims = []) {α : Type}
    (x : (⟨1, ![H']⟩ : Shape).Idx → α) (idx : IVec si w) (h0 : ∀ k, idx k = 0#w)
    (u : (⟨1, ![H]⟩ : Shape).Idx → α) (j : Fin H') :
    Host.scatter d (fun _ b => b) x idx u (ix1 j) = if h : j.val < H then u (ix1 ⟨j.val, h⟩) else x (ix1 j) := by
  split
  · rename_i h
    refine scatter_set_hit d x idx u (ix1 j) (ix1 ⟨j.val, h⟩) ((lands_iff1 d hw hi idx h0 _ _).2 rfl) ?_
    intro j' hj'
    have e : (j' 0).val = j.val := (lands_iff1 d hw hi idx h0 _ _).1 hj'
    rw [eq_ix1 j']
    exact congrArg ix1 (Fin.ext e)
  · rename_i h
    refine scatter_set_miss d x idx u (ix1 j) ?_
    intro j' hj'
    have e : (j' 0).val = j.val := (lands_iff1 d hw hi idx h0 _ _).1 hj'
    have lt : (j' 0).val < H := (j' 0).isLt
    exact h (e ▸ lt)

/-- A matrix written at the origin of a larger one: the update inside its extents, the operand outside. -/
theorem set_rect {K K' H H' : ℕ} {si : Shape} {w : Nat} (d : ScatterDims ⟨2, ![K', H']⟩ si ⟨2, ![K, H]⟩)
    (hw : d.updateWindowDims = [0, 1]) (hi : d.insertedWindowDims = []) {α : Type}
    (x : (⟨2, ![K', H']⟩ : Shape).Idx → α) (idx : IVec si w) (h0 : ∀ k, idx k = 0#w)
    (u : (⟨2, ![K, H]⟩ : Shape).Idx → α) (k : Fin K') (j : Fin H') :
    Host.scatter d (fun _ b => b) x idx u (ix2 k j)
      = if hk : k.val < K then (if hj : j.val < H then u (ix2 ⟨k.val, hk⟩ ⟨j.val, hj⟩) else x (ix2 k j)) else x (ix2 k j) := by
  have miss : (¬ (k.val < K ∧ j.val < H)) → Host.scatter d (fun _ b => b) x idx u (ix2 k j) = x (ix2 k j) := by
    intro h
    refine scatter_set_miss d x idx u (ix2 k j) ?_
    intro j' hj'
    have e := (lands_iff2 d hw hi idx h0 _ _).1 hj'
    have e0 : (j' 0).val = k.val := e.1
    have e1 : (j' 1).val = j.val := e.2
    have lt0 : (j' 0).val < K := (j' 0).isLt
    have lt1 : (j' 1).val < H := (j' 1).isLt
    exact h ⟨e0 ▸ lt0, e1 ▸ lt1⟩
  split
  · rename_i hk
    split
    · rename_i hj
      refine scatter_set_hit d x idx u (ix2 k j) (ix2 ⟨k.val, hk⟩ ⟨j.val, hj⟩)
        ((lands_iff2 d hw hi idx h0 _ _).2 ⟨rfl, rfl⟩) ?_
      intro j' hj'
      have e := (lands_iff2 d hw hi idx h0 _ _).1 hj'
      have e0 : (j' 0).val = k.val := e.1
      have e1 : (j' 1).val = j.val := e.2
      rw [eq_ix2 j']
      exact congrArg₂ ix2 (Fin.ext e0) (Fin.ext e1)
    · rename_i hj
      exact miss (fun h => hj h.2)
  · rename_i hk
    exact miss (fun h => hk h.1)

/-- A matrix written into one with more columns and as many rows: the update in the first `H` columns, the operand in
    the others. -/
theorem set_cols {K H H' : ℕ} {si : Shape} {w : Nat} (d : ScatterDims ⟨2, ![K, H']⟩ si ⟨2, ![K, H]⟩)
    (hw : d.updateWindowDims = [0, 1]) (hi : d.insertedWindowDims = []) {α : Type}
    (x : (⟨2, ![K, H']⟩ : Shape).Idx → α) (idx : IVec si w) (h0 : ∀ k, idx k = 0#w)
    (u : (⟨2, ![K, H]⟩ : Shape).Idx → α) (k : Fin K) (j : Fin H') :
    Host.scatter d (fun _ b => b) x idx u (ix2 k j) = if h : j.val < H then u (ix2 k ⟨j.val, h⟩) else x (ix2 k j) := by
  rw [set_rect d hw hi x idx h0 u k j, dif_pos k.isLt]

/-- A square matrix written at the origin of a larger square one. -/
theorem set_sq {H H' : ℕ} {si : Shape} {w : Nat} (d : ScatterDims ⟨2, ![H', H']⟩ si ⟨2, ![H, H]⟩)
    (hw : d.updateWindowDims = [0, 1]) (hi : d.insertedWindowDims = []) {α : Type}
    (x : (⟨2, ![H', H']⟩ : Shape).Idx → α) (idx : IVec si w) (h0 : ∀ k, idx k = 0#w)
    (u : (⟨2, ![H, H]⟩ : Shape).Idx → α) (k j : Fin H') :
    Host.scatter d (fun _ b => b) x idx u (ix2 k j)
      = if hk : k.val < H then (if hj : j.val < H then u (ix2 ⟨k.val, hk⟩ ⟨j.val, hj⟩) else x (ix2 k j)) else x (ix2 k j) :=
  set_rect d hw hi x idx h0 u k j

end Cert.Lib.ScatterSet

end
-- ==== Proof.Pads.lean ====
/-
  The arrays the first region is entered with. Before any region runs, the host pads the hidden width of the three
  weight matrices and the three bias vectors from 100 to 128: each is a zero array into which the argument is written
  at the origin. Read at an entry, the padded array is the argument inside the argument's extents and zero outside;
  the other arguments are untouched.
-/
import proofs.«130200_j43044162240998_2_alg».proof.Proof.Gen.KernelIdeal.Frame
import proofs.«130200_j43044162240998_2_alg».proof.Proof.Spec
import proofs.«130200_j43044162240998_2_alg».proof.Proof.LibPlainDot
import proofs.«130200_j43044162240998_2_alg».proof.Proof.LibKeepDims
import proofs.«130200_j43044162240998_2_alg».proof.Proof.LibScatterSet
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Pads

open Cert.KernelIdeal Cert.KernelIdeal.Gen Cert.Spec

variable (m : (ℓ : Loc nD τ sig) → Buf (Elt Ideal) ℓ) (ρ : Dev nD → PrngReg)

/-! ## The operands of the writes -/

/-- The zero constant broadcast to any shape reads zero everywhere. -/
theorem zeros_apply {T : Shape} (h : S_.BroadcastsInDim T ![]) (i : T.Idx) :
    (broadcastInDim T ![] h (constant (F := Ideal) S_ .f32 0x00000000#32) : T.Idx → EReal) i = 0 :=
  Ideal.ofBits_zero_f32

/-- The start position of a write along one axis: the zero word. -/
theorem zero_index (k : S1.Idx) : (broadcastInDim S1 ![] bcast_S_S1 (constantI S_ 32 0#32) : IVec S1 32) k = 0#32 := rfl

/-- The start position of a write along two axes, the two zero words side by side: zero at both places. -/
theorem zero_index_pair (k : S2.Idx) :
    (concatenate S2 0 [⟨S1, broadcastInDim S1 ![] bcast_S_S1 (constantI S_ 32 0#32)⟩,
      ⟨S1, broadcastInDim S1 ![] bcast_S_S1 (constantI S_ 32 0#32)⟩] concatenates_S1_S1_S2_d0 : IVec S2 32) k = 0#32 := by
  obtain ⟨p, rfl⟩ : ∃ p : Fin 2, k = ix1 p := ⟨k 0, eq_ix1 k⟩
  match p with
  | ⟨0, _⟩ => rfl
  | ⟨1, _⟩ => rfl

/-! ## The padded arrays -/

/-- The first weight matrix, padded by zero columns. -/
theorem V1_v2 (c : Dev nD) (k : Fin 512) (j : Fin 128) :
    (V1 m ρ c main_v2 : S512x128.Idx → EReal) (ix2 k j)
      = pad (cur2 (m ((c : Thread nD τ).loc main_arg3) : S512x100.Idx → EReal)) k j := by
  have e : (V1 m ρ c main_v2 : S512x128.Idx → EReal) =
      Host.scatter scatter_S512x128_S1_S512x100_01_n_1_0 (fun _ b => b)
        (broadcastInDim S512x128 ![] bcast_S_S512x128 (constant (F := Ideal) S_ .f32 0x00000000#32))
        (broadcastInDim S1 ![] bcast_S_S1 (constantI S_ 32 0#32))
        (m ((c : Thread nD τ).loc main_arg3)) := by
    dsimp only [V1, W1, hostOps0]; after_results
  rw [e, Cert.Lib.ScatterSet.set_cols scatter_S512x128_S1_S512x100_01_n_1_0 rfl rfl _ _ zero_index]
  unfold Cert.Spec.pad Cert.Spec.cur2
  split
  · rfl
  · exact zeros_apply _ _

/-- The first bias vector, padded by zeros. -/
theorem V1_v5 (c : Dev nD) (j : Fin 128) :
    (V1 m ρ c main_v5 : S128.Idx → EReal) (ix1 j) = padV (cur1 (m ((c : Thread nD τ).loc main_arg4) : S100.Idx → EReal)) j := by
  have e : (V1 m ρ c main_v5 : S128.Idx → EReal) =
      Host.scatter scatter_S128_S1_S100_0_n_0_0 (fun _ b => b)
        (broadcastInDim S128 ![] bcast_S_S128 (constant (F := Ideal) S_ .f32 0x00000000#32))
        (broadcastInDim S1 ![] bcast_S_S1 (constantI S_ 32 0#32))
        (m ((c : Thread nD τ).loc main_arg4)) := by
    dsimp only [V1, W1, hostOps0]; after_results
  rw [e, Cert.Lib.ScatterSet.set_vec scatter_S128_S1_S100_0_n_0_0 rfl rfl _ _ zero_index]
  unfold Cert.Spec.padV Cert.Spec.cur1
  split
  · rfl
  · exact zeros_apply _ _

/-- The second weight matrix, padded by zero rows and columns. -/
theorem V1_v10 (c : Dev nD) (k j : Fin 128) :
    (V1 m ρ c main_v10 : S128x128.Idx → EReal) (ix2 k j)
      = padSq (cur2 (m ((c : Thread nD τ).loc main_arg5) : S100x100.Idx → EReal)) k j := by
  have e : (V1 m ρ c main_v10 : S128x128.Idx → EReal) =
      Host.scatter scatter_S128x128_S2_S100x100_01_n_01_0 (fun _ b => b)
        (broadcastInDim S128x128 ![] bcast_S_S128x128 (constant (F := Ideal) S_ .f32 0x00000000#32))
        (concatenate S2 0 [⟨S1, broadcastInDim S1 ![] bcast_S_S1 (constantI S_ 32 0#32)⟩,
          ⟨S1, broadcastInDim S1 ![] bcast_S_S1 (constantI S_ 32 0#32)⟩] concatenates_S1_S1_S2_d0)
        (m ((c : Thread nD τ).loc main_arg5)) := by
    dsimp only [V1, W1, hostOps0]; after_results
  rw [e, Cert.Lib.ScatterSet.set_sq scatter_S128x128_S2_S100x100_01_n_01_0 rfl rfl _ _ zero_index_pair]
  unfold Cert.Spec.padSq Cert.Spec.cur2
  split
  · split
    · rfl
    · exact zeros_apply _ _
  · exact zeros_apply _ _

/-- The second bias vector, padded by zeros. -/
theorem V1_v13 (c : Dev nD) (j : Fin 128) :
    (V1 m ρ c main_v13 : S128.Idx → EReal) (ix1 j) = padV (cur1 (m ((c : Thread nD τ).loc main_arg6) : S100.Idx → EReal)) j := by
  have e : (V1 m ρ c main_v13 : S128.Idx → EReal) =
      Host.scatter scatter_S128_S1_S100_0_n_0_0 (fun _ b => b)
        (broadcastInDim S128 ![] bcast_S_S128 (constant (F := Ideal) S_ .f32 0x00000000#32))
        (broadcastInDim S1 ![] bcast_S_S1 (constantI S_ 32 0#32))
        (m ((c : Thread nD τ).loc main_arg6)) := by
    dsimp only [V1, W1, hostOps0]; after_results
  rw [e, Cert.Lib.ScatterSet.set_vec scatter_S128_S1_S100_0_n_0_0 rfl rfl _ _ zero_index]
  unfold Cert.Spec.padV Cert.Spec.cur1
  split
  · rfl
  · exact zeros_apply _ _

/-- The third weight matrix, padded by zero rows and columns. -/
theorem V1_v18 (c : Dev nD) (k j : Fin 128) :
    (V1 m ρ c main_v18 : S128x128.Idx → EReal) (ix2 k j)
      = padSq (cur2 (m ((c : Thread nD τ).loc main_arg7) : S100x100.Idx → EReal)) k j := by
  have e : (V1 m ρ c main_v18 : S128x128.Idx → EReal) =
      Host.scatter scatter_S128x128_S2_S100x100_01_n_01_0 (fun _ b => b)
        (broadcastInDim S128x128 ![] bcast_S_S128x128 (constant (F := Ideal) S_ .f32 0x00000000#32))
        (concatenate S2 0 [⟨S1, broadcastInDim S1 ![] bcast_S_S1 (constantI S_ 32 0#32)⟩,
          ⟨S1, broadcastInDim S1 ![] bcast_S_S1 (constantI S_ 32 0#32)⟩] concatenates_S1_S1_S2_d0)
        (m ((c : Thread nD τ).loc main_arg7)) := by
    dsimp only [V1, W1, hostOps0]; after_results
  rw [e, Cert.Lib.ScatterSet.set_sq scatter_S128x128_S2_S100x100_01_n_01_0 rfl rfl _ _ zero_index_pair]
  unfold Cert.Spec.padSq Cert.Spec.cur2
  split
  · split
    · rfl
    · exact zeros_apply _ _
  · exact zeros_apply _ _

/-- The third bias vector, padded by zeros. -/
theorem V1_v21 (c : Dev nD) (j : Fin 128) :
    (V1 m ρ c main_v21 : S128.Idx → EReal) (ix1 j) = padV (cur1 (m ((c : Thread nD τ).loc main_arg8) : S100.Idx → EReal)) j := by
  have e : (V1 m ρ c main_v21 : S128.Idx → EReal) =
      Host.scatter scatter_S128_S1_S100_0_n_0_0 (fun _ b => b)
        (broadcastInDim S128 ![] bcast_S_S128 (constant (F := Ideal) S_ .f32 0x00000000#32))
        (broadcastInDim S1 ![] bcast_S_S1 (constantI S_ 32 0#32))
        (m ((c : Thread nD τ).loc main_arg8)) := by
    dsimp only [V1, W1, hostOps0]; after_results
  rw [e, Cert.Lib.ScatterSet.set_vec scatter_S128_S1_S100_0_n_0_0 rfl rfl _ _ zero_index]
  unfold Cert.Spec.padV Cert.Spec.cur1
  split
  · rfl
  · exact zeros_apply _ _

/-! ## The arguments no host operation writes

  None of the operations before the first region writes the edges' rows, the batch items' rows or the incidence, so
  each still holds what it was launched with. -/

/-- The edges' rows, the batch items' rows and the incidence are as launched. -/
theorem V1_arg0 (c : Dev nD) : V1 m ρ c main_arg0 = m ((c : Thread nD τ).loc main_arg0) :=
  calc V1 m ρ c main_arg0
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem V1_arg1 (c : Dev nD) : V1 m ρ c main_arg1 = m ((c : Thread nD τ).loc main_arg1) :=
  calc V1 m ρ c main_arg1
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem V1_arg2 (c : Dev nD) : V1 m ρ c main_arg2 = m ((c : Thread nD τ).loc main_arg2) :=
  calc V1 m ρ c main_arg2
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

end Cert.KernelIdeal.Pads

end
-- ==== Proof.Glue.lean ====
/-
  The buffers' contents at the boundaries between the program's segments. A region changes only its own result
  arrays; the host operations between the second and third regions add the two halves' partial masses; the host
  operations after the third region add the two halves' partial aggregates and cut both results to the first 100 lanes.
-/
import proofs.«130200_j43044162240998_2_alg».proof.Proof.Gen.KernelIdeal.Frame
import proofs.«130200_j43044162240998_2_alg».proof.Proof.Spec
import proofs.«130200_j43044162240998_2_alg».proof.Proof.Cur3
import proofs.«130200_j43044162240998_2_alg».proof.Proof.LibPlainDot
import proofs.«130200_j43044162240998_2_alg».proof.Proof.LibKeepDims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Glue

open Cert.KernelIdeal Cert.KernelIdeal.Gen Cert.Spec

variable (m : (ℓ : Loc nD τ sig) → Buf (Elt Ideal) ℓ) (ρ : Dev nD → PrngReg)

/-! ## A slab of a stack of matrices, read as a matrix -/

/-- Slab k of a stack of n matrices — the slice [k : k+1] along the first axis with its unit axis dropped — read
    at (i, j) is the stack at (k, i, j). -/
theorem slab_apply {n a b : ℕ} (k : ℕ) (X : (⟨3, ![n, a, b]⟩ : Shape).Idx → EReal)
    (hs : (⟨3, ![n, a, b]⟩ : Shape).Slices ![k, 0, 0] ⟨3, ![1, a, b]⟩)
    (hc : (⟨3, ![1, a, b]⟩ : Shape).ShapeCasts ⟨2, ![a, b]⟩) (kk : Fin n) (hk : kk.val = k) (i : Fin a) (j : Fin b) :
    shapeCast ⟨2, ![a, b]⟩ (extractStridedSlice ⟨3, ![1, a, b]⟩ ![k, 0, 0] X hs) hc (ix2 i j) = X (ix3 kk i j) := by
  rw [ValueIdx.shapeCast_1ab_ab_apply]
  exact extractStridedSlice_apply _ _ _ _ _ (fun ax => by
    match ax with
    | ⟨0, _⟩ => exact hk
    | ⟨1, _⟩ => exact (Nat.zero_add _).symm
    | ⟨2, _⟩ => exact (Nat.zero_add _).symm)

/-- A matrix cut to its first m columns — the slice [0 : a, 0 : m] — read at (i, j) is the matrix at (i, j). -/
theorem firstCols_apply {a n m : ℕ} (hm : m ≤ n) (X : (⟨2, ![a, n]⟩ : Shape).Idx → EReal)
    (h : (⟨2, ![a, n]⟩ : Shape).Slices ![0, 0] ⟨2, ![a, m]⟩) (i : Fin a) (j : Fin m) :
    extractStridedSlice ⟨2, ![a, m]⟩ ![0, 0] X h (ix2 i j) = X (ix2 i ⟨j.val, lt_of_lt_of_le j.isLt hm⟩) :=
  slice2_axis1_apply 0 X h i j _ (Nat.zero_add _).symm

/-! ## What the first region leaves -/

theorem V2_v22 (c : Dev nD) : V2 m ρ c main_v22 = (dat0 (F := Ideal) (V1 m ρ) c).arrAt 7 cfg0.N :=
  W2_arr m ρ c 7
theorem V2_arg0 (c : Dev nD) : V2 m ρ c main_arg0 = V1 m ρ c main_arg0 :=
  W2_of_ne m ρ c main_arg0 (by decide)
theorem V2_arg2 (c : Dev nD) : V2 m ρ c main_arg2 = V1 m ρ c main_arg2 :=
  W2_of_ne m ρ c main_arg2 (by decide)
theorem V2_v2 (c : Dev nD) : V2 m ρ c main_v2 = V1 m ρ c main_v2 :=
  (W2_arr m ρ c 1).trans (((dat0 (V1 m ρ) c).arrAt_in 1 rfl _).trans (A_eq0 (V1 m ρ) c 1))
theorem V2_v5 (c : Dev nD) : V2 m ρ c main_v5 = V1 m ρ c main_v5 :=
  (W2_arr m ρ c 2).trans (((dat0 (V1 m ρ) c).arrAt_in 2 rfl _).trans (A_eq0 (V1 m ρ) c 2))
theorem V2_v10 (c : Dev nD) : V2 m ρ c main_v10 = V1 m ρ c main_v10 :=
  (W2_arr m ρ c 3).trans (((dat0 (V1 m ρ) c).arrAt_in 3 rfl _).trans (A_eq0 (V1 m ρ) c 3))
theorem V2_v13 (c : Dev nD) : V2 m ρ c main_v13 = V1 m ρ c main_v13 :=
  (W2_arr m ρ c 4).trans (((dat0 (V1 m ρ) c).arrAt_in 4 rfl _).trans (A_eq0 (V1 m ρ) c 4))
theorem V2_v18 (c : Dev nD) : V2 m ρ c main_v18 = V1 m ρ c main_v18 :=
  (W2_arr m ρ c 5).trans (((dat0 (V1 m ρ) c).arrAt_in 5 rfl _).trans (A_eq0 (V1 m ρ) c 5))
theorem V2_v21 (c : Dev nD) : V2 m ρ c main_v21 = V1 m ρ c main_v21 :=
  (W2_arr m ρ c 6).trans (((dat0 (V1 m ρ) c).arrAt_in 6 rfl _).trans (A_eq0 (V1 m ρ) c 6))

/-! ## What the second region leaves -/

theorem V3_v23_0 (c : Dev nD) : V3 m ρ c main_v23_0 = (dat1 (F := Ideal) (V2 m ρ) c).arrAt 9 cfg1.N :=
  W3_arr m ρ c 9
theorem V3_v23_1 (c : Dev nD) : V3 m ρ c main_v23_1 = (dat1 (F := Ideal) (V2 m ρ) c).arrAt 10 cfg1.N :=
  W3_arr m ρ c 10
theorem V3_v23_2 (c : Dev nD) : V3 m ρ c main_v23_2 = (dat1 (F := Ideal) (V2 m ρ) c).arrAt 11 cfg1.N :=
  W3_arr m ρ c 11
theorem V3_arg2 (c : Dev nD) : V3 m ρ c main_arg2 = V2 m ρ c main_arg2 :=
  (W3_arr m ρ c 1).trans (((dat1 (V2 m ρ) c).arrAt_in 1 rfl _).trans (A_eq1 (V2 m ρ) c 1))
theorem V3_v22 (c : Dev nD) : V3 m ρ c main_v22 = V2 m ρ c main_v22 :=
  (W3_arr m ρ c 2).trans (((dat1 (V2 m ρ) c).arrAt_in 2 rfl _).trans (A_eq1 (V2 m ρ) c 2))

/-! ## The host operations between the second and the third region -/

/-- The batch items' masses: the two halves' partial masses added. -/
theorem V4_v28 (c : Dev nD) (b : Fin 2048) (u : Fin 1) :
    cur2 (V4 m ρ c main_v28) b u
      = cur3 (V3 m ρ c main_v23_2) (0 : Fin 2) b (0 : Fin 1) + cur3 (V3 m ρ c main_v23_2) (1 : Fin 2) b (0 : Fin 1) := by
  obtain rfl : u = 0 := Subsingleton.elim _ _
  unfold cur2 cur3
  dsimp only [V4, W4, hostOps2]
  after_results
  refine (addf_apply _ _ _).trans ?_
  congr 1
  · exact slab_apply 0 (V3 m ρ c main_v23_2) _ _ 0 rfl b 0
  · exact slab_apply 1 (V3 m ρ c main_v23_2) _ _ 1 rfl b 0
theorem V4_arg2 (c : Dev nD) : V4 m ρ c main_arg2 = V3 m ρ c main_arg2 :=
  StableHlo.after_of_forall_not_mem (b := Proc.devRef .tc main_arg2) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
theorem V4_v23_0 (c : Dev nD) : V4 m ρ c main_v23_0 = V3 m ρ c main_v23_0 :=
  StableHlo.after_of_forall_not_mem (b := Proc.devRef .tc main_v23_0) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
theorem V4_v23_1 (c : Dev nD) : V4 m ρ c main_v23_1 = V3 m ρ c main_v23_1 :=
  StableHlo.after_of_forall_not_mem (b := Proc.devRef .tc main_v23_1) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
theorem V4_v22 (c : Dev nD) : V4 m ρ c main_v22 = V3 m ρ c main_v22 :=
  StableHlo.after_of_forall_not_mem (b := Proc.devRef .tc main_v22) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## What the third region leaves -/

theorem V5_v29 (c : Dev nD) : V5 m ρ c main_v29 = (dat2 (F := Ideal) (V4 m ρ) c).arrAt 4 cfg2.N :=
  W5_arr m ρ c 4
theorem V5_v22 (c : Dev nD) : V5 m ρ c main_v22 = V4 m ρ c main_v22 :=
  W5_of_ne m ρ c main_v22 (by decide)

/-! ## The host operations after the third region -/

/-- The first result: the two halves' partial aggregates added, first 100 lanes. -/
theorem W6_v35 (c : Dev nD) (b : Fin 2048) (o : Fin 100) :
    cur2 (W6 m ρ c (Proc.devRef .tc main_v35)) b o
      = cur3 (V5 m ρ c main_v29) (0 : Fin 2) b (⟨o.val, by have := o.isLt; omega⟩ : Fin 128)
        + cur3 (V5 m ρ c main_v29) (1 : Fin 2) b (⟨o.val, by have := o.isLt; omega⟩ : Fin 128) := by
  unfold cur2 cur3
  dsimp only [W6, hostOps3]
  after_results
  rw [firstCols_apply (by decide : 100 ≤ 128) _ _ b o]
  refine (addf_apply _ _ _).trans ?_
  congr 1
  · exact slab_apply 0 (V5 m ρ c main_v29) _ _ 0 rfl b _
  · exact slab_apply 1 (V5 m ρ c main_v29) _ _ 1 rfl b _

/-- The second result: the first region's result array, first 100 lanes. -/
theorem W6_v36 (c : Dev nD) (b : Fin 2048) (o : Fin 100) :
    cur2 (W6 m ρ c (Proc.devRef .tc main_v36)) b o
      = cur2 (V5 m ρ c main_v22) b (⟨o.val, by have := o.isLt; omega⟩ : Fin 128) := by
  unfold cur2
  dsimp only [W6, hostOps3]
  after_results
  exact firstCols_apply (by decide : 100 ≤ 128) _ _ b o

end Cert.KernelIdeal.Glue

end
-- ==== Proof.Layer.lean ====
/-
  One dense layer as the kernel computes it, read at an entry, at the ideal values, for any extents.

  The kernel rounds both matmul operands to bf16 (the identity at the ideal values), multiplies the R×K block of rows
  by the K×J weight matrix into a zero accumulator, adds the bias — a vector [J] viewed as one row [1, J] and repeated
  along the rows — and applies tanh. At entry (r, j) that is tanh(∑ₖ x(r, k) · W(k, j) + bⱼ): the layer of Spec.lean
  applied to row r.
-/
import proofs.«130200_j43044162240998_2_alg».proof.Proof.Spec
import proofs.«130200_j43044162240998_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Layer

open Idealize.ShloMosaic Idealize.ShloMosaic.ValueIdx Cert.Spec

/-- The kernel's dense layer on a block of rows, at entry `(r, j)`. -/
theorem layer_at {R K J : ℕ} (d : DotDims ⟨2, ![R, K]⟩ ⟨2, ![K, J]⟩ ⟨2, ![R, J]⟩) (hd : d = DotDims.plain R K J)
    (x : FVec Ideal ⟨2, ![R, K]⟩ .f32) (W : FVec Ideal ⟨2, ![K, J]⟩ .f32) (b : FVec Ideal ⟨1, ![J]⟩ .f32)
    (hlt : FTy.bf16.bits < FTy.f32.bits)
    (hc : (⟨1, ![J]⟩ : Shape).ShapeCasts ⟨2, ![1, J]⟩) (hb : (⟨2, ![1, J]⟩ : Shape).Broadcasts ⟨2, ![R, J]⟩)
    (r : Fin R) (j : Fin J) :
    tanh (addf (matmul d none (truncf .bf16 x hlt) (truncf .bf16 W hlt) (constant ⟨2, ![R, J]⟩ .f32 0x00000000#32))
        (broadcastTo ⟨2, ![R, J]⟩ (shapeCast ⟨2, ![1, J]⟩ b hc) hb)) (ix2 r j)
      = layer (cur2 W) (cur1 b) (cur2 x r) j := by
  subst hd
  show Ideal.tanh (matmul (DotDims.plain R K J) none (truncf .bf16 x hlt) (truncf .bf16 W hlt)
        (constant ⟨2, ![R, J]⟩ .f32 0x00000000#32) (ix2 r j)
      + broadcastTo ⟨2, ![R, J]⟩ (shapeCast ⟨2, ![1, J]⟩ b hc) hb (ix2 r j)) = _
  unfold layer
  refine congrArg Ideal.tanh ?_
  refine congrArg₂ (· + ·) ?_ ?_
  · refine (Ideal.matmul_constant_zero_apply (DotDims.plain R K J) none (truncf .bf16 x hlt) (truncf .bf16 W hlt)
      (ix2 r j)).trans ?_
    exact Cert.LibPlainDot.sum_contr (n := R) (a := K) (b := J) x W r j
  · rw [broadcastTo_1b_ab_apply, shapeCast_a_1a_apply]
    rfl

end Cert.Layer

end
-- ==== Proof.R0.lean ====
/-
  The first region (the batch items' pass): what its result array holds when the region ends. The grid has one point
  and every window's block is its whole array, so the one write-back puts into the result the body's value of the
  whole arrays: the three dense layers, one after the other, of the batch items' rows.
-/
import proofs.«130200_j43044162240998_2_alg».proof.Proof.Gen.KernelIdeal.Frame
import proofs.«130200_j43044162240998_2_alg».proof.Proof.Spec
import proofs.«130200_j43044162240998_2_alg».proof.Proof.LibPlainDot
import proofs.«130200_j43044162240998_2_alg».proof.Proof.LibKeepDims
import proofs.«130200_j43044162240998_2_alg».proof.Proof.Layer
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen Cert.Spec

theorem hz1 : (![0] : Fin 1 → Nat) = fun _ => 0 := funext fun a => by fin_cases a; rfl
theorem hz2 : (![0, 0] : Fin 2 → Nat) = fun _ => 0 := funext fun a => by fin_cases a <;> rfl

/-- The body's value at entry (r, j): the network applied to row r. -/
theorem pay_at (v0 : Vec Ideal S2048x512 .f32) (v1 : Vec Ideal S512x128 .f32) (v3 : Vec Ideal S128 .f32)
    (v5 : Vec Ideal S128x128 .f32) (v7 : Vec Ideal S128 .f32) (v9 : Vec Ideal S128x128 .f32) (v11 : Vec Ideal S128 .f32)
    (r : Fin 2048) (j : Fin 128) :
    k0_pay1 v0 v1 v3 v5 v7 v9 v11 (ix2 r j)
      = mlp (cur2 v1) (cur1 v3) (cur2 v5) (cur1 v7) (cur2 v9) (cur1 v11) (cur2 v0 r) j := by
  unfold k0_pay1 mlp
  simp only [shapeCast_self]
  refine (Cert.Layer.layer_at _ rfl _ v9 v11 _ _ _ r j).trans ?_
  refine congrArg (fun y => layer (cur2 v9) (cur1 v11) y j) (funext fun k2 => ?_)
  refine (Cert.Layer.layer_at _ rfl _ v5 v7 _ _ _ r k2).trans ?_
  refine congrArg (fun y => layer (cur2 v5) (cur1 v7) y k2) (funext fun k1 => ?_)
  exact Cert.Layer.layer_at _ rfl v0 v1 v3 _ _ _ r k1

variable (V : (c : Dev nD) → (b : Ref sig .tc) → Buf (Elt Ideal) ((c : Thread nD τ).loc b))

/-- Every window's block index is zero at the grid's one point. -/
theorem idx_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0 :=
  (by decide +kernel : ∀ t : Fin grid0.N, _)

/-- The whole-array value the one write-back writes. -/
def G (c : Dev nD) : S2048x128.Idx → EReal :=
  k0_pay1 (F := Ideal) (V c main_arg1) (V c main_v2) (V c main_v5) (V c main_v10) (V c main_v13) (V c main_v18) (V c main_v21)

theorem blk0 (c : Dev nD) (t : Fin cfg0.N) : (iblk0 V c 0 t : S2048x512.Idx → EReal) = V c main_arg1 := by
  obtain ⟨e0, e1, -⟩ := idx_zero t
  funext j
  show V c main_arg1 (((cfg0.win 0).blk t).view.emb j) = V c main_arg1 j
  refine congrArg (V c main_arg1) (funext fun a => Fin.ext ?_)
  match a with
  | ⟨0, _⟩ => show win0_0.index t (0 : Fin 2) * 2048 + 1 * (j 0).val = (j 0).val; omega
  | ⟨1, _⟩ => show win0_0.index t (1 : Fin 2) * 512 + 1 * (j 1).val = (j 1).val; omega

theorem blk1 (c : Dev nD) (t : Fin cfg0.N) : (iblk0 V c 1 t : S512x128.Idx → EReal) = V c main_v2 := by
  obtain ⟨-, -, e0, e1, -⟩ := idx_zero t
  funext j
  show V c main_v2 (((cfg0.win 1).blk t).view.emb j) = V c main_v2 j
  refine congrArg (V c main_v2) (funext fun a => Fin.ext ?_)
  match a with
  | ⟨0, _⟩ => show win0_1.index t (0 : Fin 2) * 512 + 1 * (j 0).val = (j 0).val; omega
  | ⟨1, _⟩ => show win0_1.index t (1 : Fin 2) * 128 + 1 * (j 1).val = (j 1).val; omega

theorem blk2 (c : Dev nD) (t : Fin cfg0.N) : (iblk0 V c 2 t : S128.Idx → EReal) = V c main_v5 := by
  obtain ⟨-, -, -, -, e0, -⟩ := idx_zero t
  funext j
  show V c main_v5 (((cfg0.win 2).blk t).view.emb j) = V c main_v5 j
  refine congrArg (V c main_v5) (funext fun a => Fin.ext ?_)
  match a with
  | ⟨0, _⟩ => show win0_2.index t (0 : Fin 1) * 128 + 1 * (j 0).val = (j 0).val; omega

theorem blk3 (c : Dev nD) (t : Fin cfg0.N) : (iblk0 V c 3 t : S128x128.Idx → EReal) = V c main_v10 := by
  obtain ⟨-, -, -, -, -, e0, e1, -⟩ := idx_zero t
  funext j
  show V c main_v10 (((cfg0.win 3).blk t).view.emb j) = V c main_v10 j
  refine congrArg (V c main_v10) (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega

theorem blk4 (c : Dev nD) (t : Fin cfg0.N) : (iblk0 V c 4 t : S128.Idx → EReal) = V c main_v13 := by
  obtain ⟨-, -, -, -, -, -, -, e0, -⟩ := idx_zero t
  funext j
  show V c main_v13 (((cfg0.win 4).blk t).view.emb j) = V c main_v13 j
  refine congrArg (V c main_v13) (funext fun a => Fin.ext ?_)
  match a with
  | ⟨0, _⟩ => show win0_4.index t (0 : Fin 1) * 128 + 1 * (j 0).val = (j 0).val; omega

theorem blk5 (c : Dev nD) (t : Fin cfg0.N) : (iblk0 V c 5 t : S128x128.Idx → EReal) = V c main_v18 := by
  obtain ⟨-, -, -, -, -, -, -, -, e0, e1, -⟩ := idx_zero t
  funext j
  show V c main_v18 (((cfg0.win 5).blk t).view.emb j) = V c main_v18 j
  refine congrArg (V c main_v18) (funext fun a => Fin.ext ?_)
  match a with
  | ⟨0, _⟩ => show win0_5.index t (0 : Fin 2) * 128 + 1 * (j 0).val = (j 0).val; omega
  | ⟨1, _⟩ => show win0_5.index t (1 : Fin 2) * 128 + 1 * (j 1).val = (j 1).val; omega

theorem blk6 (c : Dev nD) (t : Fin cfg0.N) : (iblk0 V c 6 t : S128.Idx → EReal) = V c main_v21 := by
  obtain ⟨-, -, -, -, -, -, -, -, -, -, e0, -⟩ := idx_zero t
  funext j
  show V c main_v21 (((cfg0.win 6).blk t).view.emb j) = V c main_v21 j
  refine congrArg (V c main_v21) (funext fun a => Fin.ext ?_)
  match a with
  | ⟨0, _⟩ => show win0_6.index t (0 : Fin 1) * 128 + 1 * (j 0).val = (j 0).val; omega

/-- What the one point writes back is the whole-array value read through its block. -/
theorem flushed_eq (c : Dev nD) (t : Fin cfg0.N) :
    (dat0 (F := Ideal) V c).flushed 7 t = ((cfg0.win 7).blk t).view.read (Elt Ideal) (G V c) := by
  show (cfg0.win 7).cut (grid0.coords t) ((dat0 (F := Ideal) V c).after 7 t) = _
  rw [after0_7]
  unfold out0_7
  rw [View.canon_unit_zero hz2]
  simp only [View.ld_unit_zero (S := S2048x512) hz2, View.ld_unit_zero (S := S512x128) hz2,
    View.ld_unit_zero (S := S128) hz1, View.ld_unit_zero (S := S128x128) hz2]
  rw [blk0, blk1, blk2, blk3, blk4, blk5, blk6]
  obtain ⟨-, -, -, -, -, -, -, -, -, -, -, e0, e1⟩ := idx_zero t
  funext j
  show G V c j = G V c (((cfg0.win 7).blk t).view.emb j)
  refine congrArg (G V c) (funext fun a => Fin.ext ?_)
  match a with
  | ⟨0, _⟩ => show (j 0).val = win0_7.index t (0 : Fin 2) * 2048 + 1 * (j 0).val; omega
  | ⟨1, _⟩ => show (j 1).val = win0_7.index t (1 : Fin 2) * 128 + 1 * (j 1).val; omega

theorem mem_blk (t : Fin cfg0.N) (i : S2048x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v22).slice (win0_7.rect t)).set ↔ _
  rw [View.set_slice_whole, Rect.mem_set_unit]
  exact Iff.rfl

/-- The result array of the first region is the whole-array value. -/
theorem arr0_7_eq (c : Dev nD) : (dat0 (F := Ideal) V c).arrAt 7 cfg0.N = G V c :=
  (dat0 (F := Ideal) V c).arrAt_eq_of_cover 7 (G V c) (fun t _ => flushed_eq V c t) fun i => by
    have hN : cfg0.N = 1 := N_0
    refine ⟨⟨0, by rw [hN]; exact Nat.one_pos⟩, flush0_7 _, ?_⟩
    rw [mem_blk]
    obtain ⟨-, -, -, -, -, -, -, -, -, -, -, e0, e1⟩ := idx_zero ⟨0, by rw [hN]; exact Nat.one_pos⟩
    have h0 : (i 0).val < 2048 := (i 0).isLt
    have h1 : (i 1).val < 128 := (i 1).isLt
    intro a
    match a with
    | ⟨0, _⟩ => show win0_7.index _ (0 : Fin 2) * 2048 ≤ (i 0).val ∧ (i 0).val < win0_7.index _ (0 : Fin 2) * 2048 + 2048; omega
    | ⟨1, _⟩ => show win0_7.index _ (1 : Fin 2) * 128 ≤ (i 1).val ∧ (i 1).val < win0_7.index _ (1 : Fin 2) * 128 + 128; omega

/-- The result array of the first region, entry (batch item, lane): the padded network's row. -/
theorem arr0_7 (c : Dev nD) (r : Fin 2048) (j : Fin 128) :
    (dat0 (F := Ideal) V c).arrAt 7 cfg0.N (ix2 r j)
      = mlp (cur2 (V c main_v2 : S512x128.Idx → EReal)) (cur1 (V c main_v5 : S128.Idx → EReal))
          (cur2 (V c main_v10 : S128x128.Idx → EReal)) (cur1 (V c main_v13 : S128.Idx → EReal))
          (cur2 (V c main_v18 : S128x128.Idx → EReal)) (cur1 (V c main_v21 : S128.Idx → EReal))
          (cur2 (V c main_arg1 : S2048x512.Idx → EReal) r) j := by
  rw [arr0_7_eq]
  exact pay_at _ _ _ _ _ _ _ r j

end Cert.KernelIdeal.R0

end
-- ==== Proof.R1Case.lean ====
/-
  The second region (the edges' pass): what the body leaves in its three output buffers at one tile, in each of its
  two cases — at a half's first tile the running masses are first reset to zero, at every later tile they are read as
  the tile before left them. In both cases the rows buffer ends at the network's rows of the tile, the weights buffer
  at the tile's weights, and the masses buffer at the masses so far plus the tile's contribution.
-/
import proofs.«130200_j43044162240998_2_alg».proof.Proof.Gen.KernelIdeal.Frame
import proofs.«130200_j43044162240998_2_alg».proof.Proof.Spec
import proofs.«130200_j43044162240998_2_alg».proof.Proof.LibPlainDot
import proofs.«130200_j43044162240998_2_alg».proof.Proof.LibKeepDims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen Cert.Spec

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-- A later tile: the rows buffer holds the network's rows of the tile. -/
theorem rows_later (c : Dev nD) (i : grid1.Coords) (a2 : Memref sig .tc .vmem S1024x512 .f32) (h2 : a2.IsWhole) (a3 : Memref sig .tc .vmem S2048x1024 .f32) (h3 : a3.IsWhole) (a4 : Memref sig .tc .vmem S2048x128 .f32) (h4 : a4.IsWhole) (a5 : Memref sig .tc .vmem S512x128 .f32) (h5 : a5.IsWhole) (a6 : Memref sig .tc .vmem S128 .f32) (h6 : a6.IsWhole) (a7 : Memref sig .tc .vmem S128x128 .f32) (h7 : a7.IsWhole) (a8 : Memref sig .tc .vmem S128 .f32) (h8 : a8.IsWhole) (a9 : Memref sig .tc .vmem S128x128 .f32) (h9 : a9.IsWhole) (a10 : Memref sig .tc .vmem S128 .f32) (h10 : a10.IsWhole) (a11 : Memref sig .tc .vmem S1024x128 .f32) (h11 : a11.IsWhole) (a12 : Memref sig .tc .vmem S1024x1 .f32) (h12 : a12.IsWhole) (a13 : Memref sig .tc .vmem S1x2048x1 .f32) (h13 : a13.IsWhole) (hc : ¬cond1_0 i) (x0 : Vec F S1024x512 .f32) (x1 : Vec F S2048x1024 .f32) (x2 : Vec F S2048x128 .f32) (x3 : Vec F S512x128 .f32) (x4 : Vec F S128 .f32) (x5 : Vec F S128x128 .f32) (x6 : Vec F S128 .f32) (x7 : Vec F S128x128 .f32) (x8 : Vec F S128 .f32) (xo : Vec F S1x2048x1 .f32) :
    out1_B_9 c i a2 h2 a3 h3 a4 h4 a5 h5 a6 h6 a7 h7 a8 h8 a9 h9 a10 h10 a11 h11 a12 h12 a13 h13 hc x0 x1 x2 x3 x4 x5 x6 x7 x8 xo = k1_pay4 x0 x3 x4 x5 x6 x7 x8 := by
  unfold out1_B_9
  rw [View.read_writes_eq_canon _ _ _ (cover1_B_9 c i a2 h2 a3 h3 a4 h4 a5 h5 a6 h6 a7 h7 a8 h8 a9 h9 a10 h10 a11 h11 a12 h12 a13 h13 hc x0 x1 x2 x3 x4 x5 x6 x7 x8 xo)]
  unfold kernelRun1_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h13.read_unread, View.ld_unit_zero (S := S1024x512) hz2, View.ld_unit_zero (S := S2048x1024) hz2, View.ld_unit_zero (S := S2048x128) hz2, View.ld_unit_zero (S := S512x128) hz2, View.ld_unit_zero (S := S128x128) hz2, View.ld_unit_zero (S := S128) hz1, View.ld_unit_zero (S := S1x2048x1) hz3]

/-- A later tile: the weights buffer holds the tile's weights. -/
theorem weights_later (c : Dev nD) (i : grid1.Coords) (a2 : Memref sig .tc .vmem S1024x512 .f32) (h2 : a2.IsWhole) (a3 : Memref sig .tc .vmem S2048x1024 .f32) (h3 : a3.IsWhole) (a4 : Memref sig .tc .vmem S2048x128 .f32) (h4 : a4.IsWhole) (a5 : Memref sig .tc .vmem S512x128 .f32) (h5 : a5.IsWhole) (a6 : Memref sig .tc .vmem S128 .f32) (h6 : a6.IsWhole) (a7 : Memref sig .tc .vmem S128x128 .f32) (h7 : a7.IsWhole) (a8 : Memref sig .tc .vmem S128 .f32) (h8 : a8.IsWhole) (a9 : Memref sig .tc .vmem S128x128 .f32) (h9 : a9.IsWhole) (a10 : Memref sig .tc .vmem S128 .f32) (h10 : a10.IsWhole) (a11 : Memref sig .tc .vmem S1024x128 .f32) (h11 : a11.IsWhole) (a12 : Memref sig .tc .vmem S1024x1 .f32) (h12 : a12.IsWhole) (a13 : Memref sig .tc .vmem S1x2048x1 .f32) (h13 : a13.IsWhole) (hc : ¬cond1_0 i) (x0 : Vec F S1024x512 .f32) (x1 : Vec F S2048x1024 .f32) (x2 : Vec F S2048x128 .f32) (x3 : Vec F S512x128 .f32) (x4 : Vec F S128 .f32) (x5 : Vec F S128x128 .f32) (x6 : Vec F S128 .f32) (x7 : Vec F S128x128 .f32) (x8 : Vec F S128 .f32) (xo : Vec F S1x2048x1 .f32) :
    out1_B_10 c i a2 h2 a3 h3 a4 h4 a5 h5 a6 h6 a7 h7 a8 h8 a9 h9 a10 h10 a11 h11 a12 h12 a13 h13 hc x0 x1 x2 x3 x4 x5 x6 x7 x8 xo = k1_pay1 (k1_pay4 x0 x3 x4 x5 x6 x7 x8) x1 x2 := by
  unfold out1_B_10
  rw [View.read_writes_eq_canon _ _ _ (cover1_B_10 c i a2 h2 a3 h3 a4 h4 a5 h5 a6 h6 a7 h7 a8 h8 a9 h9 a10 h10 a11 h11 a12 h12 a13 h13 hc x0 x1 x2 x3 x4 x5 x6 x7 x8 xo)]
  unfold kernelRun1_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h13.read_unread, View.ld_unit_zero (S := S1024x512) hz2, View.ld_unit_zero (S := S2048x1024) hz2, View.ld_unit_zero (S := S2048x128) hz2, View.ld_unit_zero (S := S512x128) hz2, View.ld_unit_zero (S := S128x128) hz2, View.ld_unit_zero (S := S128) hz1, View.ld_unit_zero (S := S1x2048x1) hz3]

/-- A later tile: the masses buffer holds what the tile before left plus the tile's contribution. -/
theorem masses_later (c : Dev nD) (i : grid1.Coords) (a2 : Memref sig .tc .vmem S1024x512 .f32) (h2 : a2.IsWhole) (a3 : Memref sig .tc .vmem S2048x1024 .f32) (h3 : a3.IsWhole) (a4 : Memref sig .tc .vmem S2048x128 .f32) (h4 : a4.IsWhole) (a5 : Memref sig .tc .vmem S512x128 .f32) (h5 : a5.IsWhole) (a6 : Memref sig .tc .vmem S128 .f32) (h6 : a6.IsWhole) (a7 : Memref sig .tc .vmem S128x128 .f32) (h7 : a7.IsWhole) (a8 : Memref sig .tc .vmem S128 .f32) (h8 : a8.IsWhole) (a9 : Memref sig .tc .vmem S128x128 .f32) (h9 : a9.IsWhole) (a10 : Memref sig .tc .vmem S128 .f32) (h10 : a10.IsWhole) (a11 : Memref sig .tc .vmem S1024x128 .f32) (h11 : a11.IsWhole) (a12 : Memref sig .tc .vmem S1024x1 .f32) (h12 : a12.IsWhole) (a13 : Memref sig .tc .vmem S1x2048x1 .f32) (h13 : a13.IsWhole) (hc : ¬cond1_0 i) (x0 : Vec F S1024x512 .f32) (x1 : Vec F S2048x1024 .f32) (x2 : Vec F S2048x128 .f32) (x3 : Vec F S512x128 .f32) (x4 : Vec F S128 .f32) (x5 : Vec F S128x128 .f32) (x6 : Vec F S128 .f32) (x7 : Vec F S128x128 .f32) (x8 : Vec F S128 .f32) (xo : Vec F S1x2048x1 .f32) :
    out1_B_11 c i a2 h2 a3 h3 a4 h4 a5 h5 a6 h6 a7 h7 a8 h8 a9 h9 a10 h10 a11 h11 a12 h12 a13 h13 hc x0 x1 x2 x3 x4 x5 x6 x7 x8 xo = k1_pay2 (k1_pay4 x0 x3 x4 x5 x6 x7 x8) x1 x2 xo := by
  unfold out1_B_11
  rw [View.read_writes_eq_canon _ _ _ (cover1_B_11 c i a2 h2 a3 h3 a4 h4 a5 h5 a6 h6 a7 h7 a8 h8 a9 h9 a10 h10 a11 h11 a12 h12 a13 h13 hc x0 x1 x2 x3 x4 x5 x6 x7 x8 xo)]
  unfold kernelRun1_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h13.read_unread, View.ld_unit_zero (S := S1024x512) hz2, View.ld_unit_zero (S := S2048x1024) hz2, View.ld_unit_zero (S := S2048x128) hz2, View.ld_unit_zero (S := S512x128) hz2, View.ld_unit_zero (S := S128x128) hz2, View.ld_unit_zero (S := S128) hz1, View.ld_unit_zero (S := S1x2048x1) hz3]

/-- A half's first tile: the rows buffer holds the network's rows of the tile. -/
theorem rows_first (c : Dev nD) (i : grid1.Coords) (a2 : Memref sig .tc .vmem S1024x512 .f32) (h2 : a2.IsWhole) (a3 : Memref sig .tc .vmem S2048x1024 .f32) (h3 : a3.IsWhole) (a4 : Memref sig .tc .vmem S2048x128 .f32) (h4 : a4.IsWhole) (a5 : Memref sig .tc .vmem S512x128 .f32) (h5 : a5.IsWhole) (a6 : Memref sig .tc .vmem S128 .f32) (h6 : a6.IsWhole) (a7 : Memref sig .tc .vmem S128x128 .f32) (h7 : a7.IsWhole) (a8 : Memref sig .tc .vmem S128 .f32) (h8 : a8.IsWhole) (a9 : Memref sig .tc .vmem S128x128 .f32) (h9 : a9.IsWhole) (a10 : Memref sig .tc .vmem S128 .f32) (h10 : a10.IsWhole) (a11 : Memref sig .tc .vmem S1024x128 .f32) (h11 : a11.IsWhole) (a12 : Memref sig .tc .vmem S1024x1 .f32) (h12 : a12.IsWhole) (a13 : Memref sig .tc .vmem S1x2048x1 .f32) (h13 : a13.IsWhole) (hc : cond1_0 i) (x0 : Vec F S1024x512 .f32) (x1 : Vec F S2048x1024 .f32) (x2 : Vec F S2048x128 .f32) (x3 : Vec F S512x128 .f32) (x4 : Vec F S128 .f32) (x5 : Vec F S128x128 .f32) (x6 : Vec F S128 .f32) (x7 : Vec F S128x128 .f32) (x8 : Vec F S128 .f32) :
    out1_A_9 c i a2 h2 a3 h3 a4 h4 a5 h5 a6 h6 a7 h7 a8 h8 a9 h9 a10 h10 a11 h11 a12 h12 a13 h13 hc x0 x1 x2 x3 x4 x5 x6 x7 x8 = k1_pay4 x0 x3 x4 x5 x6 x7 x8 := by
  unfold out1_A_9
  rw [View.read_writes_eq_canon _ _ _ (cover1_A_9 c i a2 h2 a3 h3 a4 h4 a5 h5 a6 h6 a7 h7 a8 h8 a9 h9 a10 h10 a11 h11 a12 h12 a13 h13 hc x0 x1 x2 x3 x4 x5 x6 x7 x8)]
  unfold kernelRun1_A
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h13.read_unread, View.ld_unit_zero (S := S1024x512) hz2, View.ld_unit_zero (S := S2048x1024) hz2, View.ld_unit_zero (S := S2048x128) hz2, View.ld_unit_zero (S := S512x128) hz2, View.ld_unit_zero (S := S128x128) hz2, View.ld_unit_zero (S := S128) hz1, View.ld_unit_zero (S := S1x2048x1) hz3]

/-- A half's first tile: the weights buffer holds the tile's weights. -/
theorem weights_first (c : Dev nD) (i : grid1.Coords) (a2 : Memref sig .tc .vmem S1024x512 .f32) (h2 : a2.IsWhole) (a3 : Memref sig .tc .vmem S2048x1024 .f32) (h3 : a3.IsWhole) (a4 : Memref sig .tc .vmem S2048x128 .f32) (h4 : a4.IsWhole) (a5 : Memref sig .tc .vmem S512x128 .f32) (h5 : a5.IsWhole) (a6 : Memref sig .tc .vmem S128 .f32) (h6 : a6.IsWhole) (a7 : Memref sig .tc .vmem S128x128 .f32) (h7 : a7.IsWhole) (a8 : Memref sig .tc .vmem S128 .f32) (h8 : a8.IsWhole) (a9 : Memref sig .tc .vmem S128x128 .f32) (h9 : a9.IsWhole) (a10 : Memref sig .tc .vmem S128 .f32) (h10 : a10.IsWhole) (a11 : Memref sig .tc .vmem S1024x128 .f32) (h11 : a11.IsWhole) (a12 : Memref sig .tc .vmem S1024x1 .f32) (h12 : a12.IsWhole) (a13 : Memref sig .tc .vmem S1x2048x1 .f32) (h13 : a13.IsWhole) (hc : cond1_0 i) (x0 : Vec F S1024x512 .f32) (x1 : Vec F S2048x1024 .f32) (x2 : Vec F S2048x128 .f32) (x3 : Vec F S512x128 .f32) (x4 : Vec F S128 .f32) (x5 : Vec F S128x128 .f32) (x6 : Vec F S128 .f32) (x7 : Vec F S128x128 .f32) (x8 : Vec F S128 .f32) :
    out1_A_10 c i a2 h2 a3 h3 a4 h4 a5 h5 a6 h6 a7 h7 a8 h8 a9 h9 a10 h10 a11 h11 a12 h12 a13 h13 hc x0 x1 x2 x3 x4 x5 x6 x7 x8 = k1_pay1 (k1_pay4 x0 x3 x4 x5 x6 x7 x8) x1 x2 := by
  unfold out1_A_10
  rw [View.read_writes_eq_canon _ _ _ (cover1_A_10 c i a2 h2 a3 h3 a4 h4 a5 h5 a6 h6 a7 h7 a8 h8 a9 h9 a10 h10 a11 h11 a12 h12 a13 h13 hc x0 x1 x2 x3 x4 x5 x6 x7 x8)]
  unfold kernelRun1_A
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h13.read_unread, View.ld_unit_zero (S := S1024x512) hz2, View.ld_unit_zero (S := S2048x1024) hz2, View.ld_unit_zero (S := S2048x128) hz2, View.ld_unit_zero (S := S512x128) hz2, View.ld_unit_zero (S := S128x128) hz2, View.ld_unit_zero (S := S128) hz1, View.ld_unit_zero (S := S1x2048x1) hz3]

/-- A half's first tile: the masses are reset to zero, read back, and the tile's contribution added. -/
theorem masses_first (c : Dev nD) (i : grid1.Coords) (a2 : Memref sig .tc .vmem S1024x512 .f32) (h2 : a2.IsWhole) (a3 : Memref sig .tc .vmem S2048x1024 .f32) (h3 : a3.IsWhole) (a4 : Memref sig .tc .vmem S2048x128 .f32) (h4 : a4.IsWhole) (a5 : Memref sig .tc .vmem S512x128 .f32) (h5 : a5.IsWhole) (a6 : Memref sig .tc .vmem S128 .f32) (h6 : a6.IsWhole) (a7 : Memref sig .tc .vmem S128x128 .f32) (h7 : a7.IsWhole) (a8 : Memref sig .tc .vmem S128 .f32) (h8 : a8.IsWhole) (a9 : Memref sig .tc .vmem S128x128 .f32) (h9 : a9.IsWhole) (a10 : Memref sig .tc .vmem S128 .f32) (h10 : a10.IsWhole) (a11 : Memref sig .tc .vmem S1024x128 .f32) (h11 : a11.IsWhole) (a12 : Memref sig .tc .vmem S1024x1 .f32) (h12 : a12.IsWhole) (a13 : Memref sig .tc .vmem S1x2048x1 .f32) (h13 : a13.IsWhole) (hc : cond1_0 i) (x0 : Vec F S1024x512 .f32) (x1 : Vec F S2048x1024 .f32) (x2 : Vec F S2048x128 .f32) (x3 : Vec F S512x128 .f32) (x4 : Vec F S128 .f32) (x5 : Vec F S128x128 .f32) (x6 : Vec F S128 .f32) (x7 : Vec F S128x128 .f32) (x8 : Vec F S128 .f32) :
    out1_A_11 c i a2 h2 a3 h3 a4 h4 a5 h5 a6 h6 a7 h7 a8 h8 a9 h9 a10 h10 a11 h11 a12 h12 a13 h13 hc x0 x1 x2 x3 x4 x5 x6 x7 x8 = k1_pay2 (k1_pay4 x0 x3 x4 x5 x6 x7 x8) x1 x2 k1_pay3 := by
  unfold out1_A_11
  rw [View.read_writes_eq_canon _ _ _ (cover1_A_11 c i a2 h2 a3 h3 a4 h4 a5 h5 a6 h6 a7 h7 a8 h8 a9 h9 a10 h10 a11 h11 a12 h12 a13 h13 hc x0 x1 x2 x3 x4 x5 x6 x7 x8)]
  unfold kernelRun1_A
  dsimp only
  sl_unfold_words
  rw [View.canon_cons_unit_zero (S := S1x2048x1) hz3, View.readCov_unit_zero (S := S1x2048x1) _ hz3]
  simp only [View.readAt_eq_ld, h2.read_unread, h3.read_unread, h4.read_unread, h5.read_unread, h6.read_unread, h7.read_unread, h8.read_unread, h9.read_unread, h10.read_unread, h13.read_unread, View.ld_unit_zero (S := S1024x512) hz2, View.ld_unit_zero (S := S2048x1024) hz2, View.ld_unit_zero (S := S2048x128) hz2, View.ld_unit_zero (S := S512x128) hz2, View.ld_unit_zero (S := S128x128) hz2, View.ld_unit_zero (S := S128) hz1, View.ld_unit_zero (S := S1x2048x1) hz3]

end Cert.KernelIdeal.R1

end
-- ==== Proof.R1Blk.lean ====
/-
  The second region (the edges' pass): which part of its array each window's block is, at a point of the grid.
  Point t (0 ≤ t < 100) works on tile t of the edges: rows 1024·t … 1024·t + 1023 of the edges' arrays and the same
  columns of the incidence; the batch items' rows and the padded weights are read whole; the masses' block is slab t / 50.
-/
import proofs.«130200_j43044162240998_2_alg».proof.Proof.Gen.KernelIdeal.Frame
import proofs.«130200_j43044162240998_2_alg».proof.Proof.Spec
import proofs.«130200_j43044162240998_2_alg».proof.Proof.LibPlainDot
import proofs.«130200_j43044162240998_2_alg».proof.Proof.LibKeepDims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen Cert.Spec

/-- The windows' block indices, decided over the grid. -/
theorem idx_tile : ∀ t : Fin cfg1.N,
    win1_0.index t (0 : Fin 2) = t.val ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0
    ∧ win1_10.index t (0 : Fin 2) = t.val ∧ win1_10.index t (1 : Fin 2) = 0
    ∧ win1_11.index t (0 : Fin 3) = t.val / 50 ∧ win1_11.index t (1 : Fin 3) = 0 ∧ win1_11.index t (2 : Fin 3) = 0 :=
  (by decide +kernel : ∀ t : Fin grid1.N, _)

/-- Edge number `1024 · t + l`: position `l` of tile `t`. -/
def edge (t : Fin cfg1.N) (l : Fin 1024) : Fin 102400 :=
  ⟨t.val * 1024 + l.val, by
    have hN : t.val < 100 := lt_of_lt_of_eq t.isLt (show cfg1.N = 100 from N_1)
    have := l.isLt; omega⟩

theorem edge_val (t : Fin cfg1.N) (l : Fin 1024) : (edge t l).val = t.val * 1024 + l.val := rfl

variable (V : (c : Dev nD) → (b : Ref sig .tc) → Buf (Elt Ideal) ((c : Thread nD τ).loc b))

/-- The edges' rows block at point t is rows 1024·t … of the edges' rows. -/
theorem blk0 (c : Dev nD) (t : Fin cfg1.N) (l : Fin 1024) (k : Fin 512) :
    (iblk1 V c 0 t : S1024x512.Idx → EReal) (ix2 l k) = (V c main_arg0 : S102400x512.Idx → EReal) (ix2 (edge t l) k) := by
  have e := idx_tile t
  show V c main_arg0 (((cfg1.win 0).blk t).view.emb (ix2 l k)) = V c main_arg0 (ix2 (edge t l) k)
  refine congrArg (V c main_arg0) (funext fun a => Fin.ext ?_)
  match a with
  | ⟨0, _⟩ => show win1_0.index t (0 : Fin 2) * 1024 + 1 * l.val = t.val * 1024 + l.val; omega
  | ⟨1, _⟩ => show win1_0.index t (1 : Fin 2) * 512 + 1 * k.val = k.val; omega

/-- The incidence block at point t is columns 1024·t … of the incidence. -/
theorem blk1 (c : Dev nD) (t : Fin cfg1.N) (b : Fin 2048) (l : Fin 1024) :
    (iblk1 V c 1 t : S2048x1024.Idx → EReal) (ix2 b l) = (V c main_arg2 : S2048x102400.Idx → EReal) (ix2 b (edge t l)) := by
  have e := idx_tile t
  show V c main_arg2 (((cfg1.win 1).blk t).view.emb (ix2 b l)) = V c main_arg2 (ix2 b (edge t l))
  refine congrArg (V c main_arg2) (funext fun a => Fin.ext ?_)
  match a with
  | ⟨0, _⟩ => show win1_1.index t (0 : Fin 2) * 2048 + 1 * b.val = b.val; omega
  | ⟨1, _⟩ => show win1_1.index t (1 : Fin 2) * 1024 + 1 * l.val = t.val * 1024 + l.val; omega

theorem blk2 (c : Dev nD) (t : Fin cfg1.N) : (iblk1 V c 2 t : S2048x128.Idx → EReal) = V c main_v22 := by
  have e := idx_tile t
  funext j
  show V c main_v22 (((cfg1.win 2).blk t).view.emb j) = V c main_v22 j
  refine congrArg (V c main_v22) (funext fun a => Fin.ext ?_)
  match a with
  | ⟨0, _⟩ => show win1_2.index t (0 : Fin 2) * 2048 + 1 * (j 0).val = (j 0).val; omega
  | ⟨1, _⟩ => show win1_2.index t (1 : Fin 2) * 128 + 1 * (j 1).val = (j 1).val; omega

theorem blk3 (c : Dev nD) (t : Fin cfg1.N) : (iblk1 V c 3 t : S512x128.Idx → EReal) = V c main_v2 := by
  have e := idx_tile t
  funext j
  show V c main_v2 (((cfg1.win 3).blk t).view.emb j) = V c main_v2 j
  refine congrArg (V c main_v2) (funext fun a => Fin.ext ?_)
  match a with
  | ⟨0, _⟩ => show win1_3.index t (0 : Fin 2) * 512 + 1 * (j 0).val = (j 0).val; omega
  | ⟨1, _⟩ => show win1_3.index t (1 : Fin 2) * 128 + 1 * (j 1).val = (j 1).val; omega

theorem blk4 (c : Dev nD) (t : Fin cfg1.N) : (iblk1 V c 4 t : S128.Idx → EReal) = V c main_v5 := by
  have e := idx_tile t
  funext j
  show V c main_v5 (((cfg1.win 4).blk t).view.emb j) = V c main_v5 j
  refine congrArg (V c main_v5) (funext fun a => Fin.ext ?_)
  match a with
  | ⟨0, _⟩ => show win1_4.index t (0 : Fin 1) * 128 + 1 * (j 0).val = (j 0).val; omega

theorem blk5 (c : Dev nD) (t : Fin cfg1.N) : (iblk1 V c 5 t : S128x128.Idx → EReal) = V c main_v10 := by
  have e := idx_tile t
  funext j
  show V c main_v10 (((cfg1.win 5).blk t).view.emb j) = V c main_v10 j
  refine congrArg (V c main_v10) (funext fun a => Fin.ext ?_)
  match a with
  | ⟨0, _⟩ => show win1_5.index t (0 : Fin 2) * 128 + 1 * (j 0).val = (j 0).val; omega
  | ⟨1, _⟩ => show win1_5.index t (1 : Fin 2) * 128 + 1 * (j 1).val = (j 1).val; omega

theorem blk6 (c : Dev nD) (t : Fin cfg1.N) : (iblk1 V c 6 t : S128.Idx → EReal) = V c main_v13 := by
  have e := idx_tile t
  funext j
  show V c main_v13 (((cfg1.win 6).blk t).view.emb j) = V c main_v13 j
  refine congrArg (V c main_v13) (funext fun a => Fin.ext ?_)
  match a with
  | ⟨0, _⟩ => show win1_6.index t (0 : Fin 1) * 128 + 1 * (j 0).val = (j 0).val; omega

theorem blk7 (c : Dev nD) (t : Fin cfg1.N) : (iblk1 V c 7 t : S128x128.Idx → EReal) = V c main_v18 := by
  have e := idx_tile t
  funext j
  show V c main_v18 (((cfg1.win 7).blk t).view.emb j) = V c main_v18 j
  refine congrArg (V c main_v18) (funext fun a => Fin.ext ?_)
  match a with
  | ⟨0, _⟩ => show win1_7.index t (0 : Fin 2) * 128 + 1 * (j 0).val = (j 0).val; omega
  | ⟨1, _⟩ => show win1_7.index t (1 : Fin 2) * 128 + 1 * (j 1).val = (j 1).val; omega

theorem blk8 (c : Dev nD) (t : Fin cfg1.N) : (iblk1 V c 8 t : S128.Idx → EReal) = V c main_v21 := by
  have e := idx_tile t
  funext j
  show V c main_v21 (((cfg1.win 8).blk t).view.emb j) = V c main_v21 j
  refine congrArg (V c main_v21) (funext fun a => Fin.ext ?_)
  match a with
  | ⟨0, _⟩ => show win1_8.index t (0 : Fin 1) * 128 + 1 * (j 0).val = (j 0).val; omega

end Cert.KernelIdeal.R1

end
-- ==== Proof.R1Pay.lean ====
/-
  The arithmetic of the second region's body (the edges' pass), read at an entry, at the ideal values.

  On one tile of 1024 edges the body computes the network's rows of the tile (three dense layers); from them, the
  incidence block Mₜ [2048, 1024] and the batch items' rows fᵢ [2048, 128], each edge's weight
  exp(∑ₕ (∑_b Mₜ(b, l) · fᵢ(b, h)) · fᵤ(l, h)); and it adds to each batch item's running mass the tile's contribution
  ∑ₗ Mₜ(b, l) · Z(l).
-/
import proofs.«130200_j43044162240998_2_alg».proof.Proof.Gen.KernelIdeal.Skeleton
import proofs.«130200_j43044162240998_2_alg».proof.Proof.Spec
import proofs.«130200_j43044162240998_2_alg».proof.Proof.Layer
import proofs.«130200_j43044162240998_2_alg».proof.Proof.LibPlainDot
import proofs.«130200_j43044162240998_2_alg».proof.Proof.LibKeepDims
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.R1Pay

open Cert.KernelIdeal Cert.KernelIdeal.Gen Cert.Spec

/-! ## Three readings at an entry, for any extents -/

/-- A lane sum of an [a, b] array over its second axis, from zero: at row i, the sum over the columns. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src _ h hφ hacc (ix1 i)).trans ?_
  refine Finset.sum_congr rfl fun k _ => congrArg src ?_
  exact funext fun c => Fin.ext (by match c with | ⟨0, _⟩ => rfl | ⟨1, _⟩ => rfl)

/-- The exponential of an array, at an entry. -/
theorem exp_at {s : Shape} (x : FVec Ideal s .f32) (i : s.Idx) : exp x i = Ideal.exp (x i) := rfl

/-! ## The product Mₜᵀ · fᵢ

  Both operands are contracted over their first axis, the batch items: entry (l, h) of the product reads the left
  operand at (b, l) and the right at (b, h), b the contracted position. -/

theorem lhs_row (i : S1024x128.Idx) (q : dot_S2048x1024_S2048x128_S1024x128_0_0_1_1_n_n.contr.Idx) :
    (dot_S2048x1024_S2048x128_S1024x128_0_0_1_1_n_n.lhsIdx i q 0).val = (q ⟨0, by decide⟩).val :=
  dot_S2048x1024_S2048x128_S1024x128_0_0_1_1_n_n.lhsIdx_val_of_single rfl i q

theorem lhs_col (i : S1024x128.Idx) (q : dot_S2048x1024_S2048x128_S1024x128_0_0_1_1_n_n.contr.Idx) :
    (dot_S2048x1024_S2048x128_S1024x128_0_0_1_1_n_n.lhsIdx i q 1).val = (i 0).val := by
  unfold DotDims.lhsIdx
  rw [dif_neg (show ¬(1 : Fin S2048x1024.rank) ∈ dot_S2048x1024_S2048x128_S1024x128_0_0_1_1_n_n.lhsBatch by decide), dif_pos (show (1 : Fin S2048x1024.rank) ∈ dot_S2048x1024_S2048x128_S1024x128_0_0_1_1_n_n.lhsNonContracting by decide)]
  rfl

theorem rhs_row (i : S1024x128.Idx) (q : dot_S2048x1024_S2048x128_S1024x128_0_0_1_1_n_n.contr.Idx) :
    (dot_S2048x1024_S2048x128_S1024x128_0_0_1_1_n_n.rhsIdx i q 0).val = (q ⟨0, by decide⟩).val :=
  dot_S2048x1024_S2048x128_S1024x128_0_0_1_1_n_n.rhsIdx_val_of_single rfl i q

theorem rhs_col (i : S1024x128.Idx) (q : dot_S2048x1024_S2048x128_S1024x128_0_0_1_1_n_n.contr.Idx) :
    (dot_S2048x1024_S2048x128_S1024x128_0_0_1_1_n_n.rhsIdx i q 1).val = (i 1).val := by
  unfold DotDims.rhsIdx
  rw [dif_neg (show ¬(1 : Fin S2048x128.rank) ∈ dot_S2048x1024_S2048x128_S1024x128_0_0_1_1_n_n.rhsBatch by decide), dif_pos (show (1 : Fin S2048x128.rank) ∈ dot_S2048x1024_S2048x128_S1024x128_0_0_1_1_n_n.rhsNonContracting by decide)]
  rfl

/-- The sum over the contracted position, re-indexed by the batch item. -/
theorem sum_contrT (L : S2048x1024.Idx → EReal) (R : S2048x128.Idx → EReal) (l : Fin 1024) (h : Fin 128) :
    (∑ q : dot_S2048x1024_S2048x128_S1024x128_0_0_1_1_n_n.contr.Idx, L (dot_S2048x1024_S2048x128_S1024x128_0_0_1_1_n_n.lhsIdx (ix2 l h) q) * R (dot_S2048x1024_S2048x128_S1024x128_0_0_1_1_n_n.rhsIdx (ix2 l h) q))
      = ∑ b : Fin 2048, L (ix2 b l) * R (ix2 b h) := by
  rw [← Equiv.sum_comp (contrEquiv1 dot_S2048x1024_S2048x128_S1024x128_0_0_1_1_n_n 2048 rfl rfl).symm]
  refine Finset.sum_congr rfl fun k _ => ?_
  have hk := contrEquiv1_symm_val dot_S2048x1024_S2048x128_S1024x128_0_0_1_1_n_n 2048 rfl rfl k
  have el : dot_S2048x1024_S2048x128_S1024x128_0_0_1_1_n_n.lhsIdx (ix2 l h) ((contrEquiv1 dot_S2048x1024_S2048x128_S1024x128_0_0_1_1_n_n 2048 rfl rfl).symm k) = ix2 k l := funext fun c => Fin.ext (by
    match c with
    | ⟨0, _⟩ => exact (lhs_row _ _).trans hk
    | ⟨1, _⟩ => exact lhs_col _ _)
  have er : dot_S2048x1024_S2048x128_S1024x128_0_0_1_1_n_n.rhsIdx (ix2 l h) ((contrEquiv1 dot_S2048x1024_S2048x128_S1024x128_0_0_1_1_n_n 2048 rfl rfl).symm k) = ix2 k h := funext fun c => Fin.ext (by
    match c with
    | ⟨0, _⟩ => exact (rhs_row _ _).trans hk
    | ⟨1, _⟩ => exact rhs_col _ _)
  rw [el, er]

/-! ## The four values -/

/-- The tile's rows of the network, entry (l, j). -/
theorem net_at (v3 : Vec Ideal S1024x512 .f32) (v4 : Vec Ideal S512x128 .f32) (v6 : Vec Ideal S128 .f32)
    (v8 : Vec Ideal S128x128 .f32) (v10 : Vec Ideal S128 .f32) (v12 : Vec Ideal S128x128 .f32) (v14 : Vec Ideal S128 .f32)
    (l : Fin 1024) (j : Fin 128) :
    k1_pay4 v3 v4 v6 v8 v10 v12 v14 (ix2 l j)
      = mlp (cur2 v4) (cur1 v6) (cur2 v8) (cur1 v10) (cur2 v12) (cur1 v14) (cur2 v3 l) j := by
  unfold k1_pay4 mlp
  simp only [shapeCast_self]
  refine (Cert.Layer.layer_at _ rfl _ v12 v14 _ _ _ l j).trans ?_
  refine congrArg (fun y => layer (cur2 v12) (cur1 v14) y j) (funext fun k2 => ?_)
  refine (Cert.Layer.layer_at _ rfl _ v8 v10 _ _ _ l k2).trans ?_
  refine congrArg (fun y => layer (cur2 v8) (cur1 v10) y k2) (funext fun k1 => ?_)
  exact Cert.Layer.layer_at _ rfl v3 v4 v6 _ _ _ l k1

/-- The tile's weights, entry (l, ·). -/
theorem weight_at (fu : FVec Ideal S1024x128 .f32) (Mt : Vec Ideal S2048x1024 .f32) (fi : Vec Ideal S2048x128 .f32)
    (l : Fin 1024) (u : Fin 1) :
    k1_pay1 fu Mt fi (ix2 l u)
      = Ideal.exp (∑ h : Fin 128, (∑ b : Fin 2048, Mt (ix2 b l) * fi (ix2 b h)) * fu (ix2 l h)) := by
  unfold k1_pay1
  simp only [shapeCast_self]
  refine (exp_at _ _).trans (congrArg Ideal.exp ?_)
  refine (Cert.Lib.KeepDims.shapeCast_a_a1_apply _ _ l u).trans ?_
  refine (rowSum_apply _ _ _ _ l).trans ?_
  refine Finset.sum_congr rfl fun h _ => ?_
  refine (mulf_apply _ _ _).trans (congrArg (· * fu (ix2 l h)) ?_)
  refine (Ideal.matmul_constant_zero_apply dot_S2048x1024_S2048x128_S1024x128_0_0_1_1_n_n none _ _ (ix2 l h)).trans ?_
  exact sum_contrT Mt fi l h

/-- The running masses after the tile, entry (·, b, ·): what was there plus the tile's contribution. -/
theorem mass_at (fu : FVec Ideal S1024x128 .f32) (Mt : Vec Ideal S2048x1024 .f32) (fi : Vec Ideal S2048x128 .f32)
    (acc : Vec Ideal S1x2048x1 .f32) (s : Fin 1) (b : Fin 2048) (u : Fin 1) :
    k1_pay2 fu Mt fi acc (ix3 s b u)
      = acc (ix3 (0 : Fin 1) b (0 : Fin 1)) + ∑ l : Fin 1024, Mt (ix2 b l) * k1_pay1 fu Mt fi (ix2 l (0 : Fin 1)) := by
  have hu : u = (0 : Fin 1) := Subsingleton.elim _ _
  subst hu
  unfold k1_pay2
  dsimp only
  refine (shapeCast_ab_1ab_apply _ _ s b (0 : Fin 1)).trans ?_
  refine (addf_apply _ _ _).trans (congrArg₂ (· + ·) ?_ ?_)
  · exact shapeCast_1ab_ab_apply _ _ b (0 : Fin 1)
  · refine (Cert.Lib.KeepDims.shapeCast_a_a1_apply _ _ b (0 : Fin 1)).trans ?_
    refine (rowSum_apply _ _ _ _ b).trans ?_
    refine Finset.sum_congr rfl fun l _ => ?_
    refine (mulf_apply _ _ _).trans (congrArg (Mt (ix2 b l) * ·) ?_)
    refine (broadcastTo_1b_ab_apply _ _ b l).trans ?_
    exact transpose_ix2_apply _ _ (0 : Fin 1) l

/-- The masses' reset value. -/
theorem zero_at (s : Fin 1) (b : Fin 2048) (u : Fin 1) : k1_pay3 (F := Ideal) (ix3 s b u) = 0 := by
  unfold k1_pay3
  refine (shapeCast_ab_1ab_apply _ _ s b u).trans ?_
  exact Ideal.ofBits_zero_f32

end Cert.KernelIdeal.R1Pay

end
-- ==== Proof.R1.lean ====
/-
  The second region (the edges' pass): what its three result arrays hold when the region ends.

  Tile t's point leaves in the rows buffer the padded network's rows of the tile's edges and in the weights buffer
  their weights; both are written back at every point, and the tiles cover the arrays, so the edges' rows array ends
  at every edge's row and the weights array at every edge's weight. The masses buffer of a half is reset at the half's
  first tile, every tile adds ∑ₗ M(b, e) · Z(e) over its own edges e, and it is written back after the half's last
  tile: slab c of the masses array ends at the sum over the half's tiles.
-/
import proofs.«130200_j43044162240998_2_alg».proof.Proof.Gen.KernelIdeal.Frame
import proofs.«130200_j43044162240998_2_alg».proof.Proof.Spec
import proofs.«130200_j43044162240998_2_alg».proof.Proof.LibPlainDot
import proofs.«130200_j43044162240998_2_alg».proof.Proof.LibKeepDims
import proofs.«130200_j43044162240998_2_alg».proof.Proof.R1Case
import proofs.«130200_j43044162240998_2_alg».proof.Proof.R1Blk
import proofs.«130200_j43044162240998_2_alg».proof.Proof.R1Pay
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen Cert.Spec

variable (V : (c : Dev nD) → (b : Ref sig .tc) → Buf (Elt Ideal) ((c : Thread nD τ).loc b))

/-- The padded network's row of edge `e`, from the arrays the region is entered with. -/
def rowsOf (c : Dev nD) (e : Fin 102400) : Fin 128 → EReal :=
  mlp (cur2 (V c main_v2 : S512x128.Idx → EReal)) (cur1 (V c main_v5 : S128.Idx → EReal))
    (cur2 (V c main_v10 : S128x128.Idx → EReal)) (cur1 (V c main_v13 : S128.Idx → EReal))
    (cur2 (V c main_v18 : S128x128.Idx → EReal)) (cur1 (V c main_v21 : S128.Idx → EReal))
    (cur2 (V c main_arg0 : S102400x512.Idx → EReal) e)

/-- Edge `e`'s weight. -/
def wtOf (c : Dev nD) : Fin 102400 → EReal :=
  weight (cur2 (V c main_arg2 : S2048x102400.Idx → EReal)) (cur2 (V c main_v22 : S2048x128.Idx → EReal)) (rowsOf V c)

/-- The rows the body computes at point `t`. -/
def rowsAt (c : Dev nD) (t : Fin cfg1.N) : FVec Ideal S1024x128 .f32 :=
  k1_pay4 (F := Ideal) (iblk1 V c 0 t) (iblk1 V c 3 t) (iblk1 V c 4 t) (iblk1 V c 5 t) (iblk1 V c 6 t) (iblk1 V c 7 t) (iblk1 V c 8 t)

/-- The weights the body computes at point `t`. -/
def wtsAt (c : Dev nD) (t : Fin cfg1.N) : FVec Ideal S1024x1 .f32 :=
  k1_pay1 (F := Ideal) (rowsAt V c t) (iblk1 V c 1 t) (iblk1 V c 2 t)

theorem rowsAt_apply (c : Dev nD) (t : Fin cfg1.N) (l : Fin 1024) (j : Fin 128) :
    rowsAt V c t (ix2 l j) = rowsOf V c (edge t l) j := by
  unfold rowsAt rowsOf
  rw [blk3, blk4, blk5, blk6, blk7, blk8]
  refine (R1Pay.net_at _ _ _ _ _ _ _ l j).trans ?_
  refine congrArg (fun x => mlp _ _ _ _ _ _ x j) (funext fun k => ?_)
  exact blk0 V c t l k

theorem wtsAt_apply (c : Dev nD) (t : Fin cfg1.N) (l : Fin 1024) (u : Fin 1) :
    wtsAt V c t (ix2 l u) = wtOf V c (edge t l) := by
  unfold wtsAt wtOf weight score
  refine (R1Pay.weight_at _ _ _ l u).trans ?_
  refine congrArg Ideal.exp (Finset.sum_congr rfl fun h _ => ?_)
  refine congrArg₂ (· * ·) (Finset.sum_congr rfl fun b _ => ?_) (rowsAt_apply V c t l h)
  exact congrArg₂ (· * ·) (blk1 V c t b l) (congrFun (blk2 V c t) (ix2 b h))

/-! ## What the output buffers hold after a point -/

set_option maxHeartbeats 1000000 in
theorem outs_rows (c : Dev nD) (t : Fin cfg1.N) : (outsAt1 V c t.val t.isLt).1 = rowsAt V c t := by
  unfold rowsAt
  by_cases h0 : t.val % 50 = 0
  · rw [outsAt1_A V c t h0]
    dsimp only
    exact rows_first (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)
  · rw [outsAt1_B V c t h0]
    dsimp only
    exact rows_later (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) ((outsAt1 V c (t.val - 1) (Nat.lt_of_le_of_lt (Nat.sub_le _ _) t.isLt)).2.2)

set_option maxHeartbeats 1000000 in
theorem outs_wts (c : Dev nD) (t : Fin cfg1.N) : (outsAt1 V c t.val t.isLt).2.1 = wtsAt V c t := by
  unfold wtsAt rowsAt
  by_cases h0 : t.val % 50 = 0
  · rw [outsAt1_A V c t h0]
    dsimp only
    exact weights_first (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)
  · rw [outsAt1_B V c t h0]
    dsimp only
    exact weights_later (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) ((outsAt1 V c (t.val - 1) (Nat.lt_of_le_of_lt (Nat.sub_le _ _) t.isLt)).2.2)

set_option maxHeartbeats 1000000 in
theorem outs_masses_first (c : Dev nD) (t : Fin cfg1.N) (h0 : t.val % 50 = 0) :
    (outsAt1 V c t.val t.isLt).2.2
      = k1_pay2 (F := Ideal) (rowsAt V c t) (iblk1 V c 1 t) (iblk1 V c 2 t) (k1_pay3 (F := Ideal)) := by
  unfold rowsAt
  rw [outsAt1_A V c t h0]
  dsimp only
  exact masses_first (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)

set_option maxHeartbeats 1000000 in
theorem outs_masses_later (c : Dev nD) (t : Fin cfg1.N) (h0 : ¬t.val % 50 = 0) :
    (outsAt1 V c t.val t.isLt).2.2
      = k1_pay2 (F := Ideal) (rowsAt V c t) (iblk1 V c 1 t) (iblk1 V c 2 t) ((outsAt1 V c (t.val - 1) (Nat.lt_of_le_of_lt (Nat.sub_le _ _) t.isLt)).2.2) := by
  unfold rowsAt
  rw [outsAt1_B V c t h0]
  dsimp only
  exact masses_later (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) ((outsAt1 V c (t.val - 1) (Nat.lt_of_le_of_lt (Nat.sub_le _ _) t.isLt)).2.2)

/-! ## The edges' rows array -/

theorem mem_blk9 (t : Fin cfg1.N) (i : S102400x128.Idx) :
    i ∈ ((cfg1.win 9).blk t).view.set ↔ ∀ a : Fin 2, win1_9.index t a * win1_9.size a ≤ (i a).val ∧ (i a).val < win1_9.index t a * win1_9.size a + win1_9.size a := by
  show i ∈ ((View.whole main_v23_0).slice (win1_9.rect t)).set ↔ _
  rw [View.set_slice_whole, Rect.mem_set_unit]
  exact Iff.rfl

/-- Every edge's padded row, as one array. -/
def G9 (c : Dev nD) : S102400x128.Idx → EReal := fun i => rowsOf V c (i 0) (i 1)

theorem flushed9 (c : Dev nD) (t : Fin cfg1.N) :
    (dat1 (F := Ideal) V c).flushed 9 t = ((cfg1.win 9).blk t).view.read (Elt Ideal) (G9 V c) := by
  show (cfg1.win 9).cut (grid1.coords t) ((dat1 (F := Ideal) V c).after 9 t) = _
  rw [after1_9, outs_rows]
  have e := idx_tile t
  refine funext fun (y : S1024x128.Idx) => ?_
  obtain ⟨l, j, rfl⟩ : ∃ (l : Fin 1024) (j : Fin 128), y = ix2 l j := ⟨y 0, y 1, eq_ix2 y⟩
  show rowsAt V c t (ix2 l j) = rowsOf V c ((((cfg1.win 9).blk t).view.emb (ix2 l j)) 0) ((((cfg1.win 9).blk t).view.emb (ix2 l j)) 1)
  rw [rowsAt_apply]
  have h0 : (((cfg1.win 9).blk t).view.emb (ix2 l j)) 0 = edge t l :=
    Fin.ext (show win1_9.index t (0 : Fin 2) * 1024 + 1 * l.val = t.val * 1024 + l.val by omega)
  have h1 : (((cfg1.win 9).blk t).view.emb (ix2 l j)) 1 = j :=
    Fin.ext (show win1_9.index t (1 : Fin 2) * 128 + 1 * j.val = j.val by omega)
  exact (congrArg₂ (rowsOf V c) h0 h1).symm

/-- The edges' rows array ends at every edge's padded row. -/
theorem arr1_9 (c : Dev nD) (e : Fin 102400) (j : Fin 128) :
    (dat1 (F := Ideal) V c).arrAt 9 cfg1.N (ix2 e j) = rowsOf V c e j := by
  have hN : cfg1.N = 100 := N_1
  have he : e.val < 102400 := e.isLt
  have hj : j.val < 128 := j.isLt
  have key : (dat1 (F := Ideal) V c).arrAt 9 cfg1.N = G9 V c :=
    (dat1 (F := Ideal) V c).arrAt_eq_of_cover 9 (G9 V c) (fun t _ => flushed9 V c t) fun i => by
      have hi0 : (i 0).val < 102400 := (i 0).isLt
      have hi1 : (i 1).val < 128 := (i 1).isLt
      refine ⟨⟨(i 0).val / 1024, by rw [hN]; omega⟩, flush1_9 _, ?_⟩
      rw [mem_blk9]
      have e' := idx_tile ⟨(i 0).val / 1024, by rw [hN]; omega⟩
      dsimp only at e'
      intro a
      match a with
      | ⟨0, _⟩ => show win1_9.index _ (0 : Fin 2) * 1024 ≤ (i 0).val ∧ (i 0).val < win1_9.index _ (0 : Fin 2) * 1024 + 1024; omega
      | ⟨1, _⟩ => show win1_9.index _ (1 : Fin 2) * 128 ≤ (i 1).val ∧ (i 1).val < win1_9.index _ (1 : Fin 2) * 128 + 128; omega
  rw [key]
  rfl

/-! ## The weights array -/

theorem mem_blk10 (t : Fin cfg1.N) (i : S102400x1.Idx) :
    i ∈ ((cfg1.win 10).blk t).view.set ↔ ∀ a : Fin 2, win1_10.index t a * win1_10.size a ≤ (i a).val ∧ (i a).val < win1_10.index t a * win1_10.size a + win1_10.size a := by
  show i ∈ ((View.whole main_v23_1).slice (win1_10.rect t)).set ↔ _
  rw [View.set_slice_whole, Rect.mem_set_unit]
  exact Iff.rfl

/-- Every edge's weight, as one array. -/
def G10 (c : Dev nD) : S102400x1.Idx → EReal := fun i => wtOf V c (i 0)

theorem flushed10 (c : Dev nD) (t : Fin cfg1.N) :
    (dat1 (F := Ideal) V c).flushed 10 t = ((cfg1.win 10).blk t).view.read (Elt Ideal) (G10 V c) := by
  show (cfg1.win 10).cut (grid1.coords t) ((dat1 (F := Ideal) V c).after 10 t) = _
  rw [after1_10, outs_wts]
  have e := idx_tile t
  refine funext fun (y : S1024x1.Idx) => ?_
  obtain ⟨l, u, rfl⟩ : ∃ (l : Fin 1024) (u : Fin 1), y = ix2 l u := ⟨y 0, y 1, eq_ix2 y⟩
  show wtsAt V c t (ix2 l u) = wtOf V c ((((cfg1.win 10).blk t).view.emb (ix2 l u)) 0)
  rw [wtsAt_apply]
  have h0 : (((cfg1.win 10).blk t).view.emb (ix2 l u)) 0 = edge t l :=
    Fin.ext (show win1_10.index t (0 : Fin 2) * 1024 + 1 * l.val = t.val * 1024 + l.val by omega)
  exact (congrArg (wtOf V c) h0).symm

/-- The weights array ends at every edge's weight. -/
theorem arr1_10 (c : Dev nD) (e : Fin 102400) (u : Fin 1) :
    (dat1 (F := Ideal) V c).arrAt 10 cfg1.N (ix2 e u) = wtOf V c e := by
  have hN : cfg1.N = 100 := N_1
  have key : (dat1 (F := Ideal) V c).arrAt 10 cfg1.N = G10 V c :=
    (dat1 (F := Ideal) V c).arrAt_eq_of_cover 10 (G10 V c) (fun t _ => flushed10 V c t) fun i => by
      have hi0 : (i 0).val < 102400 := (i 0).isLt
      have hi1 : (i 1).val < 1 := (i 1).isLt
      refine ⟨⟨(i 0).val / 1024, by rw [hN]; omega⟩, flush1_10 _, ?_⟩
      rw [mem_blk10]
      have e' := idx_tile ⟨(i 0).val / 1024, by rw [hN]; omega⟩
      dsimp only at e'
      intro a
      match a with
      | ⟨0, _⟩ => show win1_10.index _ (0 : Fin 2) * 1024 ≤ (i 0).val ∧ (i 0).val < win1_10.index _ (0 : Fin 2) * 1024 + 1024; omega
      | ⟨1, _⟩ => show win1_10.index _ (1 : Fin 2) * 1 ≤ (i 1).val ∧ (i 1).val < win1_10.index _ (1 : Fin 2) * 1 + 1; omega
  rw [key]
  rfl

end Cert.KernelIdeal.R1

end
-- ==== Proof.BridgeA.lean ====
/-
  From the launch memory to the kernel's intermediate arrays, in the vocabulary of Spec.lean: the padded weights,
  the batch items' rows (the first region's result), every edge's row and weight (the second region's), all as the
  padded network and the weights of the launch arrays; and the program's second result, which is the batch items'
  rows cut back to the first 100 lanes.
-/
import proofs.«130200_j43044162240998_2_alg».proof.Proof.Gen.KernelIdeal.Frame
import proofs.«130200_j43044162240998_2_alg».proof.Proof.Spec
import proofs.«130200_j43044162240998_2_alg».proof.Proof.LibPlainDot
import proofs.«130200_j43044162240998_2_alg».proof.Proof.LibKeepDims
import proofs.«130200_j43044162240998_2_alg».proof.Proof.Cur3
import proofs.«130200_j43044162240998_2_alg».proof.Proof.Algebra
import proofs.«130200_j43044162240998_2_alg».proof.Proof.Pads
import proofs.«130200_j43044162240998_2_alg».proof.Proof.Glue
import proofs.«130200_j43044162240998_2_alg».proof.Proof.R0
import proofs.«130200_j43044162240998_2_alg».proof.Proof.R1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen Cert.Spec

variable (m : (ℓ : Loc nD τ sig) → Buf (Elt Ideal) ℓ) (ρ : Dev nD → PrngReg) (c : Dev nD)

/-! ## The launch arrays as functions of row and column -/

/-- The edges' rows. -/
def aU : Fin 102400 → Fin 512 → EReal := cur2 (m ((c : Thread nD τ).loc main_arg0) : S102400x512.Idx → EReal)
/-- The batch items' rows. -/
def aI : Fin 2048 → Fin 512 → EReal := cur2 (m ((c : Thread nD τ).loc main_arg1) : S2048x512.Idx → EReal)
/-- The incidence. -/
def aM : Fin 2048 → Fin 102400 → EReal := cur2 (m ((c : Thread nD τ).loc main_arg2) : S2048x102400.Idx → EReal)
def aW1 : Fin 512 → Fin 100 → EReal := cur2 (m ((c : Thread nD τ).loc main_arg3) : S512x100.Idx → EReal)
def ab1 : Fin 100 → EReal := cur1 (m ((c : Thread nD τ).loc main_arg4) : S100.Idx → EReal)
def aW2 : Fin 100 → Fin 100 → EReal := cur2 (m ((c : Thread nD τ).loc main_arg5) : S100x100.Idx → EReal)
def ab2 : Fin 100 → EReal := cur1 (m ((c : Thread nD τ).loc main_arg6) : S100.Idx → EReal)
def aW3 : Fin 100 → Fin 100 → EReal := cur2 (m ((c : Thread nD τ).loc main_arg7) : S100x100.Idx → EReal)
def ab3 : Fin 100 → EReal := cur1 (m ((c : Thread nD τ).loc main_arg8) : S100.Idx → EReal)

/-- The batch items' rows of the padded network. -/
def fiK : Fin 2048 → Fin 128 → EReal :=
  fun b => kNet (aW1 m c) (ab1 m c) (aW2 m c) (ab2 m c) (aW3 m c) (ab3 m c) (aI m c b)
/-- The edges' rows of the padded network. -/
def fuK : Fin 102400 → Fin 128 → EReal :=
  fun e => kNet (aW1 m c) (ab1 m c) (aW2 m c) (ab2 m c) (aW3 m c) (ab3 m c) (aU m c e)
/-- The edges' weights from them. -/
def ZK : Fin 102400 → EReal := weight (aM m c) (fiK m c) (fuK m c)

/-! ## The padded weights the regions read -/

theorem pad_W1 : cur2 (V1 m ρ c main_v2 : S512x128.Idx → EReal) = Cert.Spec.pad (aW1 m c) := by
  funext k j
  exact Pads.V1_v2 m ρ c k j
theorem pad_b1 : cur1 (V1 m ρ c main_v5 : S128.Idx → EReal) = padV (ab1 m c) := by
  funext j
  exact Pads.V1_v5 m ρ c j
theorem pad_W2 : cur2 (V1 m ρ c main_v10 : S128x128.Idx → EReal) = padSq (aW2 m c) := by
  funext k j
  exact Pads.V1_v10 m ρ c k j
theorem pad_b2 : cur1 (V1 m ρ c main_v13 : S128.Idx → EReal) = padV (ab2 m c) := by
  funext j
  exact Pads.V1_v13 m ρ c j
theorem pad_W3 : cur2 (V1 m ρ c main_v18 : S128x128.Idx → EReal) = padSq (aW3 m c) := by
  funext k j
  exact Pads.V1_v18 m ρ c k j
theorem pad_b3 : cur1 (V1 m ρ c main_v21 : S128.Idx → EReal) = padV (ab3 m c) := by
  funext j
  exact Pads.V1_v21 m ρ c j

/-! ## The first region's result: the batch items' rows -/

theorem rows_items : cur2 (V2 m ρ c main_v22 : S2048x128.Idx → EReal) = fiK m c := by
  funext b j
  have e : (V2 m ρ c main_v22 : S2048x128.Idx → EReal) = (dat0 (F := Ideal) (V1 m ρ) c).arrAt 7 cfg0.N :=
    Glue.V2_v22 m ρ c
  show (V2 m ρ c main_v22 : S2048x128.Idx → EReal) (ix2 b j) = _
  rw [e, R0.arr0_7 (V1 m ρ) c b j, pad_W1 m ρ c, pad_b1 m ρ c, pad_W2 m ρ c, pad_b2 m ρ c, pad_W3 m ρ c,
    pad_b3 m ρ c, Pads.V1_arg1 m ρ c]
  rfl

/-! ## The second region's per-edge values -/

theorem rows_edges : R1.rowsOf (V2 m ρ) c = fuK m c := by
  funext e
  unfold R1.rowsOf
  rw [Glue.V2_v2 m ρ c, Glue.V2_v5 m ρ c, Glue.V2_v10 m ρ c, Glue.V2_v13 m ρ c, Glue.V2_v18 m ρ c,
    Glue.V2_v21 m ρ c, Glue.V2_arg0 m ρ c, pad_W1 m ρ c, pad_b1 m ρ c, pad_W2 m ρ c, pad_b2 m ρ c, pad_W3 m ρ c,
    pad_b3 m ρ c, Pads.V1_arg0 m ρ c]
  rfl

/-- The incidence as the second region finds it. -/
theorem incidence2 : cur2 (V2 m ρ c main_arg2 : S2048x102400.Idx → EReal) = aM m c := by
  rw [Glue.V2_arg2 m ρ c, Pads.V1_arg2 m ρ c]
  rfl

theorem weights_edges : R1.wtOf (V2 m ρ) c = ZK m c := by
  unfold R1.wtOf ZK
  rw [incidence2 m ρ c, rows_items m ρ c, rows_edges m ρ c]

/-! ## The second result -/

/-- The program's second result at (batch item, lane): the network's row of the batch item. -/
theorem second_result (p : Fin 2048) (o : Fin 100) :
    cur2 (W6 m ρ c (Proc.devRef .tc main_v36)) p o
      = mlp (aW1 m c) (ab1 m c) (aW2 m c) (ab2 m c) (aW3 m c) (ab3 m c) (aI m c p) o := by
  rw [Glue.W6_v36 m ρ c p o, Glue.V5_v22 m ρ c, Glue.V4_v22 m ρ c, Glue.V3_v22 m ρ c, rows_items m ρ c]
  exact kNet_eq (by decide : 100 ≤ 128) (aW1 m c) (ab1 m c) (aW2 m c) (ab2 m c) (aW3 m c) (ab3 m c) (aI m c p)
    (⟨o.val, by have := o.isLt; omega⟩ : Fin 128) o.isLt

end Cert.KernelIdeal.Bridge

end
-- ==== Proof.R1Mass.lean ====
/-
  The second region (the edges' pass), its third result: the batch items' partial masses. Each half of the edges owns
  one [2048, 1] slab; the slab is reset to zero at the half's first tile, every tile adds ∑ₗ M(b, e) · Z(e) over its
  own 1024 edges e, and the slab is written back after the half's last tile — so slab c ends, at batch item b, at the
  sum over the half's 50 tiles of the tiles' contributions.
-/
import proofs.«130200_j43044162240998_2_alg».proof.Proof.Gen.KernelIdeal.Frame
import proofs.«130200_j43044162240998_2_alg».proof.Proof.Spec
import proofs.«130200_j43044162240998_2_alg».proof.Proof.LibPlainDot
import proofs.«130200_j43044162240998_2_alg».proof.Proof.LibKeepDims
import proofs.«130200_j43044162240998_2_alg».proof.Proof.R1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen Cert.Spec

variable (V : (c : Dev nD) → (b : Ref sig .tc) → Buf (Elt Ideal) ((c : Thread nD τ).loc b))

/-! ## One tile's contribution -/

/-- Tile n's contribution to batch item b's mass: ∑ₗ M(b, e) · Z(e) over the tile's 1024 edges e; zero past the grid. -/
def tileMass (c : Dev nD) (n : ℕ) (b : Fin 2048) : EReal :=
  if hn : n < cfg1.N then
    ∑ l : Fin 1024, cur2 (V c main_arg2 : S2048x102400.Idx → EReal) b (edge ⟨n, hn⟩ l) * wtOf V c (edge ⟨n, hn⟩ l)
  else 0

/-- The body at tile t adds the tile's contribution to whatever masses it is given. -/
theorem step_apply (c : Dev nD) (t : Fin cfg1.N) (acc : Vec Ideal S1x2048x1 .f32) (b : Fin 2048) :
    k1_pay2 (F := Ideal) (rowsAt V c t) (iblk1 V c 1 t) (iblk1 V c 2 t) acc (ix3 (0 : Fin 1) b (0 : Fin 1))
      = acc (ix3 (0 : Fin 1) b (0 : Fin 1)) + tileMass V c t.val b := by
  refine (R1Pay.mass_at _ _ _ acc (0 : Fin 1) b (0 : Fin 1)).trans ?_
  refine congrArg (acc (ix3 (0 : Fin 1) b (0 : Fin 1)) + ·) ?_
  unfold tileMass
  rw [dif_pos t.isLt]
  refine Finset.sum_congr rfl fun l _ => ?_
  exact congrArg₂ (· * ·) (blk1 V c t b l) (wtsAt_apply V c t l (0 : Fin 1))

/-! ## The running masses along a half

  At a half's first tile the masses are zero plus that tile's contribution; at every later tile they are what the tile
  before left plus the tile's own. So after tile t they are the sum of the contributions of the half's tiles up to t. -/

theorem masses_reset (c : Dev nD) (n : ℕ) (h : n < cfg1.N) (h0 : n % 50 = 0) (b : Fin 2048) :
    (outsAt1 V c n h).2.2 (ix3 (0 : Fin 1) b (0 : Fin 1)) = 0 + tileMass V c n b := by
  refine (congrFun (outs_masses_first V c ⟨n, h⟩ h0) _).trans ?_
  refine (step_apply V c ⟨n, h⟩ _ b).trans ?_
  exact congrArg (· + tileMass V c n b) (R1Pay.zero_at (0 : Fin 1) b (0 : Fin 1))

theorem masses_step (c : Dev nD) (n : ℕ) (h : n + 1 < cfg1.N) (hne : ¬(n + 1) % 50 = 0) (b : Fin 2048) :
    (outsAt1 V c (n + 1) h).2.2 (ix3 (0 : Fin 1) b (0 : Fin 1))
      = (outsAt1 V c n (Nat.lt_of_succ_lt h)).2.2 (ix3 (0 : Fin 1) b (0 : Fin 1)) + tileMass V c (n + 1) b := by
  refine (congrFun (outs_masses_later V c ⟨n + 1, h⟩ hne) _).trans ?_
  exact step_apply V c ⟨n + 1, h⟩ _ b

/-- After tile t the masses are the contributions of the tiles from the half's first up to t, summed. -/
theorem masses_run (c : Dev nD) (t : ℕ) (ht : t < cfg1.N) (b : Fin 2048) :
    (outsAt1 V c t ht).2.2 (ix3 (0 : Fin 1) b (0 : Fin 1))
      = 0 + ∑ s ∈ Finset.range (t % 50 + 1), tileMass V c (50 * (t / 50) + s) b := by
  have h' : 50 * (t / 50) + t % 50 < cfg1.N := by rw [Nat.div_add_mod]; exact ht
  have key := Pipeline.eq_accAt_of_mod (N := cfg1.N)
    (fun n hn (b : Fin 2048) => (outsAt1 V c n hn).2.2 (ix3 (0 : Fin 1) b (0 : Fin 1))) 50
    (fun n _ (b : Fin 2048) => 0 + tileMass V c n b) (fun n _ acc (b : Fin 2048) => acc b + tileMass V c n b)
    (fun n h h0 => funext fun b => masses_reset V c n h h0 b)
    (fun n h hne => funext fun b => masses_step V c n h hne b)
    (by decide) t ht h'
  refine (congrFun key b).trans ?_
  exact Pipeline.accAt_add_apply _ _ (fun _ => 0) (fun n b => tileMass V c n b) (50 * (t / 50)) (t % 50)
    (fun _ _ => rfl) (fun _ _ _ _ _ _ => rfl) (t % 50) le_rfl h' b

/-- The edge at position l of tile 50·h + s is position l of tile s of half h. -/
theorem edge_eq_tile (h : Fin 2) (s : Fin 50) (l : Fin 1024) (hn : 50 * h.val + s.val < cfg1.N) :
    edge ⟨50 * h.val + s.val, hn⟩ l = tile (show 2 * 50 * 1024 = 102400 from rfl) h s l :=
  Fin.ext (show (50 * h.val + s.val) * 1024 + l.val = (h.val * 50 + s.val) * 1024 + l.val by omega)

/-- After a half's last tile the masses are the half's mass. -/
theorem masses_flush (c : Dev nD) (t : Fin cfg1.N) (hf : t.val % 50 = 49) (h : Fin 2) (hh : h.val = t.val / 50)
    (b : Fin 2048) :
    (outsAt1 V c t.val t.isLt).2.2 (ix3 (0 : Fin 1) b (0 : Fin 1))
      = halfMassA (nt := 50) (len := 1024) (show 2 * 50 * 1024 = 102400 from rfl)
      (cur2 (V c main_arg2 : S2048x102400.Idx → EReal)) (wtOf V c) h b := by
  have hN : cfg1.N = 100 := N_1
  have e1 : t.val % 50 + 1 = 50 := by omega
  rw [masses_run V c t.val t.isLt b, e1, ← hh, zero_add, Finset.sum_range]
  unfold halfMassA
  refine Finset.sum_congr rfl fun s _ => ?_
  have hn : 50 * h.val + s.val < cfg1.N := by have := h.isLt; have := s.isLt; rw [hN]; omega
  unfold tileMass
  rw [dif_pos hn]
  refine Finset.sum_congr rfl fun l _ => ?_
  rw [edge_eq_tile h s l hn]

/-! ## The masses array -/

theorem mem_blk11 (t : Fin cfg1.N) (i : S2x2048x1.Idx) :
    i ∈ ((cfg1.win 11).blk t).view.set ↔ ∀ a : Fin 3, win1_11.index t a * win1_11.size a ≤ (i a).val ∧ (i a).val < win1_11.index t a * win1_11.size a + win1_11.size a := by
  show i ∈ ((View.whole main_v23_2).slice (win1_11.rect t)).set ↔ _
  rw [View.set_slice_whole, Rect.mem_set_unit]
  exact Iff.rfl

/-- The two halves' masses, as one array. -/
def G11 (c : Dev nD) : S2x2048x1.Idx → EReal := fun i =>
  halfMassA (nt := 50) (len := 1024) (show 2 * 50 * 1024 = 102400 from rfl)
      (cur2 (V c main_arg2 : S2048x102400.Idx → EReal)) (wtOf V c) (i 0) (i 1)

/-- What a half's last tile writes back is the half's slab of that array. -/
theorem flushed11 (c : Dev nD) (t : Fin cfg1.N) (hf : (cfg1.win 11).flush t = true) :
    (dat1 (F := Ideal) V c).flushed 11 t = ((cfg1.win 11).blk t).view.read (Elt Ideal) (G11 V c) := by
  have hmod : t.val % 50 = 49 := (flush1_11 t).mp hf
  have hN : cfg1.N = 100 := N_1
  have hq : t.val / 50 < 2 := by have := t.isLt; omega
  show (cfg1.win 11).cut (grid1.coords t) ((dat1 (F := Ideal) V c).after 11 t) = _
  rw [after1_11]
  have e := idx_tile t
  refine funext fun (y : S1x2048x1.Idx) => ?_
  obtain ⟨s, b, u, rfl⟩ : ∃ (s : Fin 1) (b : Fin 2048) (u : Fin 1), y = ix3 s b u := ⟨y 0, y 1, y 2, eq_ix3 y⟩
  have hs : s = (0 : Fin 1) := Subsingleton.elim _ _
  have hu : u = (0 : Fin 1) := Subsingleton.elim _ _
  subst hs hu
  show (outsAt1 V c t.val t.isLt).2.2 (ix3 (0 : Fin 1) b (0 : Fin 1)) = G11 V c (((cfg1.win 11).blk t).view.emb (ix3 (0 : Fin 1) b (0 : Fin 1)))
  have h0 : (((cfg1.win 11).blk t).view.emb (ix3 (0 : Fin 1) b (0 : Fin 1))) 0 = (⟨t.val / 50, hq⟩ : Fin 2) :=
    Fin.ext (show win1_11.index t (0 : Fin 3) * 1 + 1 * 0 = t.val / 50 by omega)
  have h1 : (((cfg1.win 11).blk t).view.emb (ix3 (0 : Fin 1) b (0 : Fin 1))) 1 = b :=
    Fin.ext (show win1_11.index t (1 : Fin 3) * 2048 + 1 * b.val = b.val by omega)
  refine (masses_flush V c t hmod ⟨t.val / 50, hq⟩ rfl b).trans ?_
  exact (congrArg₂ (fun (x : Fin 2) (y : Fin 2048) => halfMassA (nt := 50) (len := 1024) (show 2 * 50 * 1024 = 102400 from rfl)
      (cur2 (V c main_arg2 : S2048x102400.Idx → EReal)) (wtOf V c) x y) h0 h1).symm

/-- The masses array ends, at (half, batch item), at the half's tiles' contributions summed. -/
theorem arr1_11 (c : Dev nD) (h : Fin 2) (b : Fin 2048) (u : Fin 1) :
    (dat1 (F := Ideal) V c).arrAt 11 cfg1.N (ix3 h b u)
      = halfMassA (nt := 50) (len := 1024) (show 2 * 50 * 1024 = 102400 from rfl)
          (cur2 (V c main_arg2 : S2048x102400.Idx → EReal)) (wtOf V c) h b := by
  have hN : cfg1.N = 100 := N_1
  have key : (dat1 (F := Ideal) V c).arrAt 11 cfg1.N = G11 V c :=
    (dat1 (F := Ideal) V c).arrAt_eq_of_cover 11 (G11 V c) (fun t hf => flushed11 V c t hf) fun i => by
      have hi0 : (i 0).val < 2 := (i 0).isLt
      have hi1 : (i 1).val < 2048 := (i 1).isLt
      have hi2 : (i 2).val < 1 := (i 2).isLt
      refine ⟨⟨50 * (i 0).val + 49, by rw [hN]; omega⟩,
        (flush1_11 _).mpr (show (50 * (i 0).val + 49) % 50 = 49 by omega), ?_⟩
      rw [mem_blk11]
      have e' := idx_tile ⟨50 * (i 0).val + 49, by rw [hN]; omega⟩
      dsimp only at e'
      intro a
      match a with
      | ⟨0, _⟩ => show win1_11.index _ (0 : Fin 3) * 1 ≤ (i 0).val ∧ (i 0).val < win1_11.index _ (0 : Fin 3) * 1 + 1; omega
      | ⟨1, _⟩ => show win1_11.index _ (1 : Fin 3) * 2048 ≤ (i 1).val ∧ (i 1).val < win1_11.index _ (1 : Fin 3) * 2048 + 2048; omega
      | ⟨2, _⟩ => show win1_11.index _ (2 : Fin 3) * 1 ≤ (i 2).val ∧ (i 2).val < win1_11.index _ (2 : Fin 3) * 1 + 1; omega
  rw [key]
  rfl

end Cert.KernelIdeal.R1

end
-- ==== Proof.R2Case.lean ====
/-
  The third region's body, case by case: what one run of the body leaves in the result's staging slab.

  At a tile that is not the first of its half the body reads the slab so far and stores the slab plus the tile's
  contribution; at the first tile of a half it first stores the zero slab, reads that back, and stores zero plus the
  tile's contribution. Both are the one pure term of the body's arithmetic, applied to the slab so far or to the zero
  slab.
-/
import proofs.«130200_j43044162240998_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R2

open Cert.KernelIdeal Cert.KernelIdeal.Gen

variable {F : FTy → Type} [FloatOps F]

/-- The zero offset of a rank-2 rectangle. -/
theorem zeroOffset2 : (![0, 0] : Fin 2 → Nat) = fun _ => 0 := funext fun a => by fin_cases a <;> rfl
/-- The zero offset of a rank-3 rectangle. -/
theorem zeroOffset3 : (![0, 0, 0] : Fin 3 → Nat) = fun _ => 0 := funext fun a => by fin_cases a <;> rfl

/-- A tile that is not the first of its half: the slab so far `xo` becomes the body's arithmetic applied to the
    incidence block `x0`, the masses `x3`, the weights' block `x1`, the rows' block `x2` and `xo`. -/
theorem laterTile_value (c : Dev nD) (i : grid2.Coords)
    (a2 : Memref sig .tc .vmem S2048x1024 .f32) (h2 : a2.IsWhole) (a3 : Memref sig .tc .vmem S1024x1 .f32) (h3 : a3.IsWhole)
    (a4 : Memref sig .tc .vmem S1024x128 .f32) (h4 : a4.IsWhole) (a5 : Memref sig .tc .vmem S2048x1 .f32) (h5 : a5.IsWhole)
    (a6 : Memref sig .tc .vmem S1x2048x128 .f32) (h6 : a6.IsWhole) (hc : ¬cond2_0 i)
    (x0 : Vec F S2048x1024 .f32) (x1 : Vec F S1024x1 .f32) (x2 : Vec F S1024x128 .f32) (x3 : Vec F S2048x1 .f32)
    (xo : Vec F S1x2048x128 .f32) :
    out2_B_4 c i a2 h2 a3 h3 a4 h4 a5 h5 a6 h6 hc x0 x1 x2 x3 xo = k2_pay2 x0 x3 x1 x2 xo := by
  unfold out2_B_4
  rw [View.read_writes_eq_canon _ _ _ (cover2_B_4 c i a2 h2 a3 h3 a4 h4 a5 h5 a6 h6 hc x0 x1 x2 x3 xo)]
  unfold kernelRun2_B
  dsimp only
  rw [View.canon_unit_zero zeroOffset3]
  simp only [View.readAt_eq_ld, h2.read_unread, h3.read_unread, h4.read_unread, h5.read_unread, h6.read_unread,
    View.ld_unit_zero (S := S2048x1024) zeroOffset2, View.ld_unit_zero (S := S2048x1) zeroOffset2,
    View.ld_unit_zero (S := S1024x1) zeroOffset2, View.ld_unit_zero (S := S1024x128) zeroOffset2,
    View.ld_unit_zero (S := S1x2048x128) zeroOffset3]

/-- The first tile of a half: the slab restarts from zero, so it ends at the body's arithmetic applied to the zero
    slab. -/
theorem firstTile_value (c : Dev nD) (i : grid2.Coords)
    (a2 : Memref sig .tc .vmem S2048x1024 .f32) (h2 : a2.IsWhole) (a3 : Memref sig .tc .vmem S1024x1 .f32) (h3 : a3.IsWhole)
    (a4 : Memref sig .tc .vmem S1024x128 .f32) (h4 : a4.IsWhole) (a5 : Memref sig .tc .vmem S2048x1 .f32) (h5 : a5.IsWhole)
    (a6 : Memref sig .tc .vmem S1x2048x128 .f32) (h6 : a6.IsWhole) (hc : cond2_0 i)
    (x0 : Vec F S2048x1024 .f32) (x1 : Vec F S1024x1 .f32) (x2 : Vec F S1024x128 .f32) (x3 : Vec F S2048x1 .f32) :
    out2_A_4 c i a2 h2 a3 h3 a4 h4 a5 h5 a6 h6 hc x0 x1 x2 x3 = k2_pay2 x0 x3 x1 x2 (k2_pay1 (F := F)) := by
  unfold out2_A_4
  rw [View.read_writes_eq_canon _ _ _ (cover2_A_4 c i a2 h2 a3 h3 a4 h4 a5 h5 a6 h6 hc x0 x1 x2 x3)]
  unfold kernelRun2_A
  dsimp only
  sl_unfold_words
  rw [View.canon_cons_unit_zero (S := S1x2048x128) zeroOffset3, View.readCov_unit_zero (S := S1x2048x128) _ zeroOffset3]
  simp only [View.readAt_eq_ld, h2.read_unread, h3.read_unread, h4.read_unread, h5.read_unread,
    View.ld_unit_zero (S := S2048x1024) zeroOffset2, View.ld_unit_zero (S := S2048x1) zeroOffset2,
    View.ld_unit_zero (S := S1024x1) zeroOffset2, View.ld_unit_zero (S := S1024x128) zeroOffset2]

end Cert.KernelIdeal.R2

end
-- ==== Proof.R2Pay.lean ====
/-
  The third region's arithmetic at one entry of the result slab, at the ideal values.

  With M the tile's incidence block [2048, 1024], A the batch items' masses [2048, 1], Z the tile's weights [1024, 1],
  fu the tile's rows [1024, 128] and acc the slab so far, one run of the body leaves at entry (b, j)

      acc(b, j) + ∑ l, M(b, l) · ((Z(l) / S(l)) · fu(l, j)),      S(l) = ∑ b', M(b', l) · A(b'),

  S(l) being the mass seen from the tile's edge l: the column sum of the incidence block scaled row by row by A, kept as
  a row and turned into a column before the division.
-/
import proofs.«130200_j43044162240998_2_alg».proof.Proof.Gen.KernelIdeal.Skeleton
import proofs.«130200_j43044162240998_2_alg».proof.Proof.LibPlainDot
import proofs.«130200_j43044162240998_2_alg».proof.Proof.LibKeepDims
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.R2

open Cert.KernelIdeal Cert.KernelIdeal.Gen

/-- The mass seen from the tile's edge `l`: the incidence block, each row scaled by its batch item's mass, summed
    down the column `l`. -/
theorem edgeMass_apply (x0 : FVec Ideal S2048x1024 .f32) (xA : FVec Ideal S2048x1 .f32)
    (hc : S2048x1.ShapeCasts S2048x1) (hb : S2048x1.Broadcasts S2048x1024) (hr : S2048x1024.Reduces [0] S1024)
    (hφ : FKind.Formats .f32) (hacc : (0x00000000#32 : BitVec (FTy.bits .f32)) = FKind.add.neutral .f32 hφ) (l : Fin 1024) :
    multiReduction (F := Ideal) .add [0] S1024 (mulf x0 (broadcastTo S2048x1024 (shapeCast S2048x1 xA hc) hb))
        0x00000000#32 hr hφ hacc (ix1 l)
      = ∑ b' : Fin 2048, x0 (ix2 b' l) * xA (ix2 b' (0 : Fin 1)) := by
  refine (Ideal.multiReduction_add_single _ _ hr hφ hacc (ix1 l)).trans ?_
  show ∑ k : Fin 2048, _ = _
  refine Finset.sum_congr rfl fun k _ => ?_
  have e : hr.lift (ix1 l) k = ix2 k l := funext fun a => by
    match a with
    | ⟨0, _⟩ => rfl
    | ⟨1, _⟩ => rfl
  rw [e, shapeCast_self]
  exact congrArg (x0 (ix2 k l) * ·) (Cert.Lib.KeepDims.broadcastTo_a1_ab_apply xA hb k l)

/-- The normalised weight of the tile's edge `l`: its weight over the mass seen from it. The masses, a row sum kept as
    a row [1, 1024], are turned into a column [1024, 1] before the division. -/
theorem normWeight_apply (x0 : FVec Ideal S2048x1024 .f32) (xA : FVec Ideal S2048x1 .f32) (xZ : FVec Ideal S1024x1 .f32)
    (hc : S2048x1.ShapeCasts S2048x1) (hb : S2048x1.Broadcasts S2048x1024) (hr : S2048x1024.Reduces [0] S1024)
    (hφ : FKind.Formats .f32) (hacc : (0x00000000#32 : BitVec (FTy.bits .f32)) = FKind.add.neutral .f32 hφ)
    (hrow : S1024.ShapeCasts S1x1024) (ht : S1x1024.Transposes [1, 0] S1024x1) (hz : S1024x1.ShapeCasts S1024x1)
    (l : Fin 1024) :
    divf (shapeCast S1024x1 xZ hz)
        (transpose S1024x1 [1, 0]
          (shapeCast S1x1024
            (multiReduction (F := Ideal) .add [0] S1024 (mulf x0 (broadcastTo S2048x1024 (shapeCast S2048x1 xA hc) hb))
              0x00000000#32 hr hφ hacc) hrow) ht) (ix2 l (0 : Fin 1))
      = Ideal.div (xZ (ix2 l (0 : Fin 1))) (∑ b' : Fin 2048, x0 (ix2 b' l) * xA (ix2 b' (0 : Fin 1))) := by
  refine (divf_apply _ _ _).trans ?_
  rw [shapeCast_self]
  refine congrArg (Ideal.div (xZ (ix2 l (0 : Fin 1)))) ?_
  refine (transpose_ix2_apply _ ht l (0 : Fin 1)).trans ?_
  refine (shapeCast_a_1a_apply _ hrow (0 : Fin 1) l).trans ?_
  exact edgeMass_apply x0 xA hc hb hr hφ hacc l

/-- The tile's row of edge `l`, scaled by the edge's normalised weight, at lane `j`. -/
theorem scaledRow_apply (x0 : FVec Ideal S2048x1024 .f32) (xA : FVec Ideal S2048x1 .f32) (xZ : FVec Ideal S1024x1 .f32)
    (xF : FVec Ideal S1024x128 .f32)
    (hc : S2048x1.ShapeCasts S2048x1) (hb : S2048x1.Broadcasts S2048x1024) (hr : S2048x1024.Reduces [0] S1024)
    (hφ : FKind.Formats .f32) (hacc : (0x00000000#32 : BitVec (FTy.bits .f32)) = FKind.add.neutral .f32 hφ)
    (hrow : S1024.ShapeCasts S1x1024) (ht : S1x1024.Transposes [1, 0] S1024x1) (hz : S1024x1.ShapeCasts S1024x1)
    (hf : S1024x128.ShapeCasts S1024x128) (hbf : S1024x1.Broadcasts S1024x128) (l : Fin 1024) (j : Fin 128) :
    mulf (broadcastTo S1024x128
          (divf (shapeCast S1024x1 xZ hz)
            (transpose S1024x1 [1, 0]
              (shapeCast S1x1024
                (multiReduction (F := Ideal) .add [0] S1024 (mulf x0 (broadcastTo S2048x1024 (shapeCast S2048x1 xA hc) hb))
                  0x00000000#32 hr hφ hacc) hrow) ht)) hbf)
        (shapeCast S1024x128 xF hf) (ix2 l j)
      = Ideal.div (xZ (ix2 l (0 : Fin 1))) (∑ b' : Fin 2048, x0 (ix2 b' l) * xA (ix2 b' (0 : Fin 1))) * xF (ix2 l j) := by
  refine (mulf_apply _ _ _).trans ?_
  rw [shapeCast_self xF]
  refine congrArg (· * xF (ix2 l j)) ?_
  refine (Cert.Lib.KeepDims.broadcastTo_a1_ab_apply _ hbf l j).trans ?_
  exact normWeight_apply x0 xA xZ hc hb hr hφ hacc hrow ht hz l

/-- The zero slab the first tile of a half stores. -/
theorem zeroSlab_apply (b : Fin 2048) (j : Fin 128) : k2_pay1 (F := Ideal) (ix3 (0 : Fin 1) b j) = 0 := by
  unfold k2_pay1
  refine (shapeCast_ab_1ab_apply _ _ (0 : Fin 1) b j).trans ?_
  exact Ideal.ofBits_zero_f32

/-- One run of the body at entry (b, j) of the slab: the slab so far plus the tile's contribution. -/
theorem body_apply (x0 : Vec Ideal S2048x1024 .f32) (xA : Vec Ideal S2048x1 .f32) (xZ : Vec Ideal S1024x1 .f32)
    (xF : Vec Ideal S1024x128 .f32) (acc : Vec Ideal S1x2048x128 .f32) (b : Fin 2048) (j : Fin 128) :
    k2_pay2 x0 xA xZ xF acc (ix3 (0 : Fin 1) b j)
      = acc (ix3 (0 : Fin 1) b j)
        + ∑ l : Fin 1024, x0 (ix2 b l)
            * (Ideal.div (xZ (ix2 l (0 : Fin 1))) (∑ b' : Fin 2048, x0 (ix2 b' l) * xA (ix2 b' (0 : Fin 1))) * xF (ix2 l j)) := by
  unfold k2_pay2
  refine (shapeCast_ab_1ab_apply _ _ (0 : Fin 1) b j).trans ?_
  refine (addf_apply _ _ _).trans ?_
  refine congrArg₂ (· + ·) (shapeCast_1ab_ab_apply acc _ b j) ?_
  refine (Cert.LibPlainDot.matmul_zero_apply (n := 2048) (a := 1024) (b := 128) none _ _ b j).trans ?_
  refine Finset.sum_congr rfl fun l _ => ?_
  refine congrArg₂ (· * ·) rfl ?_
  exact scaledRow_apply x0 xA xZ xF _ _ _ _ _ _ _ _ _ _ l j

end Cert.KernelIdeal.R2

end
-- ==== Proof.R2Blk.lean ====
/-
  The third region's blocks as positions in the arrays.

  Grid point n (of 100: half n / 50, tile n % 50 of the half) reads tile number n of the edges: columns
  n · 1024 … n · 1024 + 1023 of the incidence [2048, 102400], rows n · 1024 … of the weights [102400, 1] and of the
  edges' rows [102400, 128]; the batch items' masses [2048, 1] are read whole at every point. The result's block at
  point n is slab n / 50 of [2, 2048, 128].
-/
import proofs.«130200_j43044162240998_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.R2

open Cert.KernelIdeal Cert.KernelIdeal.Gen

variable (V : (c : Dev nD) → (b : Ref sig .tc) → Buf (Elt Ideal) ((c : Thread nD τ).loc b))

/-- Edge number `n · 1024 + l`: position `l` of tile `n`, for a tile number below 100. -/
def edgeOf (n : ℕ) (hn : n < 100) (l : Fin 1024) : Fin 102400 := ⟨n * 1024 + l.val, by have := l.isLt; omega⟩

/-- The grid of the third region has 100 points. -/
theorem points_lt (t : Fin cfg2.N) : t.val < 100 := lt_of_lt_of_eq t.isLt (show cfg2.N = 100 from N_2)

/-- The printed index maps, decided over the grid: point `t` reads tile `t` of the edges along the edge axis, the
    masses whole, and owns slab `t / 50` of the result. -/
theorem blockIndex : ∀ t : Fin cfg2.N,
    win2_0.index t (0 : Fin 2) = 0 ∧ win2_0.index t (1 : Fin 2) = t.val
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 3) = t.val / 50 ∧ win2_4.index t (1 : Fin 3) = 0 ∧ win2_4.index t (2 : Fin 3) = 0 :=
  (by decide +kernel : ∀ t : Fin grid2.N, _)

/-- The incidence block at point `t`, entry (b, l): the incidence at batch item `b` and edge `l` of tile `t`. -/
theorem incidenceBlock_apply (c : Dev nD) (t : Fin cfg2.N) (b : Fin 2048) (l : Fin 1024) :
    (iblk2 V c 0 t : Vec Ideal S2048x1024 .f32) (ix2 b l)
      = (V c main_arg2 : S2048x102400.Idx → EReal) (ix2 b (edgeOf t.val (points_lt t) l)) := by
  obtain ⟨e0, e1, -⟩ := blockIndex t
  unfold iblk2
  rw [View.read_apply]
  show V c main_arg2 (((cfg2.win 0).blk t).view.emb (ix2 b l)) = V c main_arg2 _
  congr 1
  funext a
  apply Fin.ext
  match a with
  | ⟨0, _⟩ => show win2_0.index t (0 : Fin 2) * 2048 + 1 * b.val = b.val; rw [e0]; omega
  | ⟨1, _⟩ => show win2_0.index t (1 : Fin 2) * 1024 + 1 * l.val = t.val * 1024 + l.val; rw [e1]; omega

/-- The weights' block at point `t`, row `l`: the weight of edge `l` of tile `t`. -/
theorem weightBlock_apply (c : Dev nD) (t : Fin cfg2.N) (l : Fin 1024) :
    (iblk2 V c 1 t : Vec Ideal S1024x1 .f32) (ix2 l (0 : Fin 1))
      = (V c main_v23_1 : S102400x1.Idx → EReal) (ix2 (edgeOf t.val (points_lt t) l) (0 : Fin 1)) := by
  obtain ⟨-, -, e0, e1, -⟩ := blockIndex t
  unfold iblk2
  rw [View.read_apply]
  show V c main_v23_1 (((cfg2.win 1).blk t).view.emb (ix2 l (0 : Fin 1))) = V c main_v23_1 _
  congr 1
  funext a
  apply Fin.ext
  match a with
  | ⟨0, _⟩ => show win2_1.index t (0 : Fin 2) * 1024 + 1 * l.val = t.val * 1024 + l.val; rw [e0]; omega
  | ⟨1, _⟩ => show win2_1.index t (1 : Fin 2) * 1 + 1 * 0 = 0; rw [e1]

/-- The rows' block at point `t`, entry (l, j): lane `j` of the row of edge `l` of tile `t`. -/
theorem rowsBlock_apply (c : Dev nD) (t : Fin cfg2.N) (l : Fin 1024) (j : Fin 128) :
    (iblk2 V c 2 t : Vec Ideal S1024x128 .f32) (ix2 l j)
      = (V c main_v23_0 : S102400x128.Idx → EReal) (ix2 (edgeOf t.val (points_lt t) l) j) := by
  obtain ⟨-, -, -, -, e0, e1, -⟩ := blockIndex t
  unfold iblk2
  rw [View.read_apply]
  show V c main_v23_0 (((cfg2.win 2).blk t).view.emb (ix2 l j)) = V c main_v23_0 _
  congr 1
  funext a
  apply Fin.ext
  match a with
  | ⟨0, _⟩ => show win2_2.index t (0 : Fin 2) * 1024 + 1 * l.val = t.val * 1024 + l.val; rw [e0]; omega
  | ⟨1, _⟩ => show win2_2.index t (1 : Fin 2) * 128 + 1 * j.val = j.val; rw [e1]; omega

/-- The masses' block at any point is the whole array. -/
theorem massBlock_apply (c : Dev nD) (t : Fin cfg2.N) (b : Fin 2048) :
    (iblk2 V c 3 t : Vec Ideal S2048x1 .f32) (ix2 b (0 : Fin 1))
      = (V c main_v28 : S2048x1.Idx → EReal) (ix2 b (0 : Fin 1)) := by
  obtain ⟨-, -, -, -, -, -, e0, e1, -⟩ := blockIndex t
  unfold iblk2
  rw [View.read_apply]
  show V c main_v28 (((cfg2.win 3).blk t).view.emb (ix2 b (0 : Fin 1))) = V c main_v28 _
  congr 1
  funext a
  apply Fin.ext
  match a with
  | ⟨0, _⟩ => show win2_3.index t (0 : Fin 2) * 2048 + 1 * b.val = b.val; rw [e0]; omega
  | ⟨1, _⟩ => show win2_3.index t (1 : Fin 2) * 1 + 1 * 0 = 0; rw [e1]

end Cert.KernelIdeal.R2

end
-- ==== Proof.R2.lean ====
/-
  The third region (the aggregation pass): what its result array holds when the region ends. Each half of the edges
  owns one [2048, 128] slab of the result; the slab starts at zero at the half's first tile and every tile adds the
  product of its incidence block with its normalised, weighted rows — so slab c ends at the sum over the half's tiles.
-/
import proofs.«130200_j43044162240998_2_alg».proof.Proof.Gen.KernelIdeal.Frame
import proofs.«130200_j43044162240998_2_alg».proof.Proof.Spec
import proofs.«130200_j43044162240998_2_alg».proof.Proof.R2Case
import proofs.«130200_j43044162240998_2_alg».proof.Proof.R2Pay
import proofs.«130200_j43044162240998_2_alg».proof.Proof.R2Blk
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.R2

open Cert.KernelIdeal Cert.KernelIdeal.Gen Cert.Spec

variable (V : (c : Dev nD) → (b : Ref sig .tc) → Buf (Elt Ideal) ((c : Thread nD τ).loc b))

/-- The incidence as the region finds it, as a function of batch item and edge. -/
abbrev incidence (c : Dev nD) : Fin 2048 → Fin 102400 → EReal := cur2 (V c main_arg2 : S2048x102400.Idx → EReal)
/-- The edges' weights as the region finds them. -/
abbrev weightOf (c : Dev nD) : Fin 102400 → EReal := fun e => (V c main_v23_1 : S102400x1.Idx → EReal) (ix2 e (0 : Fin 1))
/-- The batch items' masses as the region finds them. -/
abbrev massOf (c : Dev nD) : Fin 2048 → EReal := fun b' => (V c main_v28 : S2048x1.Idx → EReal) (ix2 b' (0 : Fin 1))
/-- The edges' rows as the region finds them. -/
abbrev rowsOf (c : Dev nD) : Fin 102400 → Fin 128 → EReal := cur2 (V c main_v23_0 : S102400x128.Idx → EReal)

/-- What tile `n` of the edges adds to entry (b, j) of its half's slab (nothing past the last tile). -/
def tileTerm (c : Dev nD) (b : Fin 2048) (j : Fin 128) (n : ℕ) : EReal :=
  if hn : n < 100 then
    ∑ l : Fin 1024, incidence V c b (edgeOf n hn l)
      * (Ideal.div (weightOf V c (edgeOf n hn l)) (massS (incidence V c) (massOf V c) (edgeOf n hn l))
          * rowsOf V c (edgeOf n hn l) j)
  else 0

/-- One run of the body at point `t` adds tile `t`'s contribution to the slab. -/
theorem bodyAt_point (c : Dev nD) (t : Fin cfg2.N) (acc : Vec Ideal S1x2048x128 .f32) (b : Fin 2048) (j : Fin 128) :
    k2_pay2 (iblk2 V c 0 t) (iblk2 V c 3 t) (iblk2 V c 1 t) (iblk2 V c 2 t) acc (ix3 (0 : Fin 1) b j)
      = acc (ix3 (0 : Fin 1) b j) + tileTerm V c b j t.val := by
  refine (body_apply (iblk2 V c 0 t) (iblk2 V c 3 t) (iblk2 V c 1 t) (iblk2 V c 2 t) acc b j).trans ?_
  refine congrArg (acc (ix3 (0 : Fin 1) b j) + ·) ?_
  unfold tileTerm
  rw [dif_pos (points_lt t)]
  refine Finset.sum_congr rfl fun l _ => ?_
  refine congrArg₂ (· * ·) (incidenceBlock_apply V c t b l) ?_
  refine congrArg₂ (· * ·) ?_ (rowsBlock_apply V c t l j)
  refine congrArg₂ Ideal.div (weightBlock_apply V c t l) ?_
  unfold massS
  refine Finset.sum_congr rfl fun b' _ => ?_
  exact congrArg₂ (· * ·) (incidenceBlock_apply V c t b' l) (massBlock_apply V c t b')

/-- At the first tile of a half the slab restarts: it holds that tile's contribution alone. -/
theorem slab_first (c : Dev nD) (b : Fin 2048) (j : Fin 128) (t : Fin cfg2.N) (h0 : t.val % 50 = 0) :
    outsAt2 V c t.val t.isLt (ix3 (0 : Fin 1) b j) = tileTerm V c b j t.val := by
  refine (congrFun ((outsAt2_A V c t h0).trans
    (firstTile_value (F := Ideal) c (grid2.coords t) (ms2_0 t) (hs2_0 t) (ms2_1 t) (hs2_1 t) (ms2_2 t) (hs2_2 t)
      (ms2_3 t) (hs2_3 t) (ms2_4 t) (hs2_4 t) ((hcond2_0 t).mpr h0)
      (iblk2 V c 0 t) (iblk2 V c 1 t) (iblk2 V c 2 t) (iblk2 V c 3 t))) (ix3 (0 : Fin 1) b j)).trans ?_
  refine (bodyAt_point V c t (k2_pay1 (F := Ideal)) b j).trans ?_
  rw [zeroSlab_apply, zero_add]

/-- At any other tile the slab holds what the tile before left plus this tile's contribution. -/
theorem slab_later (c : Dev nD) (b : Fin 2048) (j : Fin 128) (t : Fin cfg2.N) (h0 : ¬t.val % 50 = 0) :
    outsAt2 V c t.val t.isLt (ix3 (0 : Fin 1) b j)
      = outsAt2 V c (t.val - 1) (Nat.lt_of_le_of_lt (Nat.sub_le _ _) t.isLt) (ix3 (0 : Fin 1) b j)
        + tileTerm V c b j t.val := by
  refine (congrFun ((outsAt2_B V c t h0).trans
    (laterTile_value (F := Ideal) c (grid2.coords t) (ms2_0 t) (hs2_0 t) (ms2_1 t) (hs2_1 t) (ms2_2 t) (hs2_2 t)
      (ms2_3 t) (hs2_3 t) (ms2_4 t) (hs2_4 t) (fun h => h0 ((hcond2_0 t).mp h))
      (iblk2 V c 0 t) (iblk2 V c 1 t) (iblk2 V c 2 t) (iblk2 V c 3 t)
      (outsAt2 V c (t.val - 1) (Nat.lt_of_le_of_lt (Nat.sub_le _ _) t.isLt)))) (ix3 (0 : Fin 1) b j)).trans ?_
  exact bodyAt_point V c t _ b j

/-- THE ACCUMULATION: after point `n` the slab holds the contributions of the tiles of `n`'s half up to `n`. -/
theorem slab_after (c : Dev nD) (b : Fin 2048) (j : Fin 128) :
    ∀ (n : ℕ) (hn : n < cfg2.N), outsAt2 V c n hn (ix3 (0 : Fin 1) b j)
      = ∑ s ∈ Finset.range (n % 50 + 1), tileTerm V c b j (n / 50 * 50 + s)
  | 0, hn => by
    refine (slab_first V c b j ⟨0, hn⟩ rfl).trans ?_
    show tileTerm V c b j 0 = _
    simp only [Nat.zero_mod, Nat.zero_div, Nat.zero_mul, Nat.zero_add, Finset.sum_range_one]
  | n + 1, hn => by
    by_cases h0 : (n + 1) % 50 = 0
    · refine (slab_first V c b j ⟨n + 1, hn⟩ h0).trans ?_
      show tileTerm V c b j (n + 1) = _
      have e : (n + 1) / 50 * 50 = n + 1 := by omega
      rw [h0, Nat.zero_add, Finset.sum_range_one, e, Nat.add_zero]
    · refine (slab_later V c b j ⟨n + 1, hn⟩ h0).trans ?_
      show outsAt2 V c n _ (ix3 (0 : Fin 1) b j) + tileTerm V c b j (n + 1) = _
      rw [slab_after c b j n (Nat.lt_of_succ_lt hn)]
      have e1 : (n + 1) % 50 = n % 50 + 1 := by omega
      have e2 : (n + 1) / 50 = n / 50 := by omega
      have e3 : n / 50 * 50 + (n % 50 + 1) = n + 1 := by omega
      rw [e1, e2, Finset.sum_range_succ _ (n % 50 + 1), e3]

/-- The result as one function of the arrays the region finds: entry (half, batch item, lane) is the half's share of
    the normalised aggregate. -/
def slabs (c : Dev nD) : Buf (Elt Ideal) ((c : Thread nD τ).loc main_v29) :=
  fun i : S2x2048x128.Idx =>
    halfAgg (nt := 50) (len := 1024) (show 2 * 50 * 1024 = 102400 from rfl) (incidence V c) (weightOf V c)
      (massS (incidence V c) (massOf V c)) (rowsOf V c) (i 0) (i 1) (i 2)

/-- The last tile of a half writes the half's slab back: what it writes is that slab of `slabs`. -/
theorem flushed_eq (c : Dev nD) (t : Fin cfg2.N) (hf : (cfg2.win 4).flush t = true) :
    (dat2 (F := Ideal) V c).flushed 4 t = ((cfg2.win 4).blk t).view.read (Elt Ideal) (slabs V c) := by
  have h49 : t.val % 50 = 49 := (flush2_4 t).mp hf
  have hN := points_lt t
  obtain ⟨-, -, -, -, -, -, -, -, e0, e1, e2⟩ := blockIndex t
  show (cfg2.win 4).cut (grid2.coords t) ((dat2 (F := Ideal) V c).after 4 t) = _
  rw [after2_4]
  refine funext fun (y : S1x2048x128.Idx) => ?_
  obtain ⟨u, b, j, rfl⟩ : ∃ (u : Fin 1) (b : Fin 2048) (j : Fin 128), y = ix3 u b j := ⟨y 0, y 1, y 2, eq_ix3 y⟩
  obtain rfl : u = 0 := Subsingleton.elim _ _
  show outsAt2 V c t.val t.isLt (ix3 (0 : Fin 1) b j) = _
  rw [slab_after V c b j t.val t.isLt, View.read_apply]
  have hemb : ((cfg2.win 4).blk t).view.emb (ix3 (0 : Fin 1) b j)
      = (ix3 (⟨t.val / 50, by omega⟩ : Fin 2) b j : S2x2048x128.Idx) := by
    funext a
    apply Fin.ext
    match a with
    | ⟨0, _⟩ => show win2_4.index t (0 : Fin 3) * 1 + 1 * 0 = t.val / 50; rw [e0]; omega
    | ⟨1, _⟩ => show win2_4.index t (1 : Fin 3) * 2048 + 1 * b.val = b.val; rw [e1]; omega
    | ⟨2, _⟩ => show win2_4.index t (2 : Fin 3) * 128 + 1 * j.val = j.val; rw [e2]; omega
  rw [hemb]
  show _ = halfAgg (nt := 50) (len := 1024) (show 2 * 50 * 1024 = 102400 from rfl) (incidence V c) (weightOf V c)
      (massS (incidence V c) (massOf V c)) (rowsOf V c) (⟨t.val / 50, by omega⟩ : Fin 2) b j
  unfold halfAgg
  have h50 : t.val % 50 + 1 = 50 := by omega
  rw [h50, Finset.sum_range]
  refine Finset.sum_congr rfl fun s _ => ?_
  have hs := s.isLt
  unfold tileTerm
  rw [dif_pos (by omega)]
  rfl

/-- Every entry of the result lies in the slab some half's last tile writes back. -/
theorem covered (i : S2x2048x128.Idx) :
    ∃ t : Fin cfg2.N, (cfg2.win 4).flush t = true ∧ i ∈ ((cfg2.win 4).blk t).view.set := by
  have h0 : (i 0).val < 2 := (i 0).isLt
  have h1 : (i 1).val < 2048 := (i 1).isLt
  have h2 : (i 2).val < 128 := (i 2).isLt
  have hN : cfg2.N = 100 := N_2
  obtain ⟨t, ht⟩ : ∃ t : Fin cfg2.N, t.val = 50 * (i 0).val + 49 := ⟨⟨50 * (i 0).val + 49, by rw [hN]; omega⟩, rfl⟩
  obtain ⟨-, -, -, -, -, -, -, -, e0, e1, e2⟩ := blockIndex t
  refine ⟨t, (flush2_4 t).mpr (by omega), ?_⟩
  show i ∈ ((View.whole main_v29).slice (win2_4.rect t)).set
  rw [View.set_slice_whole, Rect.mem_set_unit]
  intro a
  match a with
  | ⟨0, _⟩ =>
    show win2_4.index t (0 : Fin 3) * 1 ≤ (i 0).val ∧ (i 0).val < win2_4.index t (0 : Fin 3) * 1 + 1
    rw [e0]; omega
  | ⟨1, _⟩ =>
    show win2_4.index t (1 : Fin 3) * 2048 ≤ (i 1).val ∧ (i 1).val < win2_4.index t (1 : Fin 3) * 2048 + 2048
    rw [e1]; omega
  | ⟨2, _⟩ =>
    show win2_4.index t (2 : Fin 3) * 128 ≤ (i 2).val ∧ (i 2).val < win2_4.index t (2 : Fin 3) * 128 + 128
    rw [e2]; omega

/-- So the result array ends holding `slabs`. -/
theorem result_eq (c : Dev nD) : (dat2 (F := Ideal) V c).arrAt 4 cfg2.N = slabs V c :=
  (dat2 (F := Ideal) V c).arrAt_eq_of_cover 4 (slabs V c) (flushed_eq V c) covered

/-- The result array of the third region, entry (half, batch item, lane). -/
theorem arr2_4 (c : Dev nD) (h : Fin 2) (b : Fin 2048) (j : Fin 128) :
    (dat2 (F := Ideal) V c).arrAt 4 cfg2.N (ix3 h b j)
      = halfAgg (nt := 50) (len := 1024) (show 2 * 50 * 1024 = 102400 from rfl)
          (cur2 (V c main_arg2 : S2048x102400.Idx → EReal))
          (fun e => (V c main_v23_1 : S102400x1.Idx → EReal) (ix2 e (0 : Fin 1)))
          (massS (cur2 (V c main_arg2 : S2048x102400.Idx → EReal)) (fun b' => (V c main_v28 : S2048x1.Idx → EReal) (ix2 b' (0 : Fin 1))))
          (cur2 (V c main_v23_0 : S102400x128.Idx → EReal)) h b j :=
  congrFun (result_eq V c) (ix3 h b j)

end Cert.KernelIdeal.R2

end
-- ==== Proof.BridgeB.lean ====
/-
  The program's first result in the vocabulary of Spec.lean. The third region reads the incidence, every edge's
  weight and padded row as the second region left them, and each batch item's mass as the host's addition of the two
  halves' partial masses; its two slabs, added by the host and cut to the first 100 lanes, are the kernel's
  arrangement of the normalised aggregate, which agrees with the computation on those lanes.
-/
import proofs.«130200_j43044162240998_2_alg».proof.Proof.Gen.KernelIdeal.Frame
import proofs.«130200_j43044162240998_2_alg».proof.Proof.Spec
import proofs.«130200_j43044162240998_2_alg».proof.Proof.LibPlainDot
import proofs.«130200_j43044162240998_2_alg».proof.Proof.LibKeepDims
import proofs.«130200_j43044162240998_2_alg».proof.Proof.BridgeA
import proofs.«130200_j43044162240998_2_alg».proof.Proof.R1Mass
import proofs.«130200_j43044162240998_2_alg».proof.Proof.R2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen Cert.Spec

variable (m : (ℓ : Loc nD τ sig) → Buf (Elt Ideal) ℓ) (ρ : Dev nD → PrngReg) (c : Dev nD)

/-- Each batch item's mass as the kernel forms it: the two halves' contributions added. -/
def AK : Fin 2048 → EReal :=
  fun b => halfMassA (nt := 50) (len := 1024) (show 2 * 50 * 1024 = 102400 from rfl) (aM m c) (ZK m c) 0 b
    + halfMassA (nt := 50) (len := 1024) (show 2 * 50 * 1024 = 102400 from rfl) (aM m c) (ZK m c) 1 b

/-! ## What the third region is entered with -/

theorem incidence4 : cur2 (V4 m ρ c main_arg2 : S2048x102400.Idx → EReal) = aM m c := by
  rw [Glue.V4_arg2 m ρ c, Glue.V3_arg2 m ρ c]
  exact incidence2 m ρ c

theorem weights4 : (fun e : Fin 102400 => (V4 m ρ c main_v23_1 : S102400x1.Idx → EReal) (ix2 e (0 : Fin 1))) = ZK m c := by
  funext e
  show (V4 m ρ c main_v23_1 : S102400x1.Idx → EReal) (ix2 e (0 : Fin 1)) = ZK m c e
  rw [Glue.V4_v23_1 m ρ c, Glue.V3_v23_1 m ρ c]
  exact (R1.arr1_10 (V2 m ρ) c e (0 : Fin 1)).trans (congrFun (weights_edges m ρ c) e)

theorem rows4 : cur2 (V4 m ρ c main_v23_0 : S102400x128.Idx → EReal) = fuK m c := by
  funext e j
  show (V4 m ρ c main_v23_0 : S102400x128.Idx → EReal) (ix2 e j) = fuK m c e j
  rw [Glue.V4_v23_0 m ρ c, Glue.V3_v23_0 m ρ c]
  exact (R1.arr1_9 (V2 m ρ) c e j).trans (congrFun (congrFun (rows_edges m ρ c) e) j)

theorem masses4 : (fun b' : Fin 2048 => (V4 m ρ c main_v28 : S2048x1.Idx → EReal) (ix2 b' (0 : Fin 1))) = AK m c := by
  funext b'
  have e := Glue.V4_v28 m ρ c b' (0 : Fin 1)
  unfold cur2 cur3 at e
  refine e.trans ?_
  rw [Glue.V3_v23_2 m ρ c, R1.arr1_11 (V2 m ρ) c (0 : Fin 2) b' (0 : Fin 1),
    R1.arr1_11 (V2 m ρ) c (1 : Fin 2) b' (0 : Fin 1), incidence2 m ρ c, weights_edges m ρ c]
  rfl

/-! ## The first result -/

/-- The program's first result at (batch item, lane): the normalised aggregate. -/
theorem first_result (p : Fin 2048) (o : Fin 100) :
    cur2 (W6 m ρ c (Proc.devRef .tc main_v35)) p o
      = out (aU m c) (aI m c) (aM m c) (aW1 m c) (ab1 m c) (aW2 m c) (ab2 m c) (aW3 m c) (ab3 m c) p o := by
  have ho : o.val < 128 := by have := o.isLt; omega
  rw [Glue.W6_v35 m ρ c p o]
  unfold cur3
  rw [Glue.V5_v29 m ρ c, R2.arr2_4 (V4 m ρ) c (0 : Fin 2) p (⟨o.val, ho⟩ : Fin 128),
    R2.arr2_4 (V4 m ρ) c (1 : Fin 2) p (⟨o.val, ho⟩ : Fin 128), incidence4 m ρ c, weights4 m ρ c, masses4 m ρ c,
    rows4 m ρ c]
  exact kOut_eq (H' := 128) (by decide : 100 ≤ 128) (show 2 * 50 * 1024 = 102400 from rfl) (aU m c) (aI m c) (aM m c)
    (aW1 m c) (ab1 m c) (aW2 m c) (ab2 m c) (aW3 m c) (ab3 m c) p (⟨o.val, ho⟩ : Fin 128) o.isLt

end Cert.KernelIdeal.Bridge

end
-- ==== Proof.lean ====
/-
  The kernel and its reference compute the same two arrays over the extended reals.

  Both programs apply a three-layer tanh network to the rows of the batch items (fᵢ) and of the edges (fᵤ), give each
  edge e the weight Z(e) = exp(∑ₕ (∑_b M(b, e) · fᵢ(b, h)) · fᵤ(e, h)) from the incidence M, form each batch item's mass
  A(b) = ∑ₑ M(b, e) · Z(e) and each edge's S(e) = ∑_b M(b, e) · A(b), and return the aggregate
  ∑ₑ M(b, e) · ((Z(e) / S(e)) · fᵤ(e, h)) together with fᵢ.

  The reference does this with whole-array matrix products. The kernel pads the hidden width from 100 to 128 with zero
  columns, rows and bias entries, computes fᵢ in one region, walks the edges in 100 tiles of 1024 split into two
  halves — a second region for fᵤ, Z and each half's partial masses, a third for each half's partial aggregate — adds
  the halves on the host, and cuts the results back to 100 lanes. Over the extended reals x · 0 = 0 for every x and
  tanh 0 = 0, so the padded lanes stay zero and contribute nothing to any sum, and a sum over all edges is the sum
  over the two halves of the sums over their tiles, whatever the grouping; the quotient Z(e) / S(e) is the same
  operation of the same two numbers on both sides. No finiteness of the inputs is used.

  The three frame claims are the generated frame runs (the reference's is its run with the results dropped); the
  idealization rewrote nothing, so `preserves` is trivial.
-/
import proofs.«130200_j43044162240998_2_alg».proof.Defs
import proofs.«130200_j43044162240998_2_alg».proof.Proof.Gen.Kernel
import proofs.«130200_j43044162240998_2_alg».proof.Proof.Gen.Kernel.Frame
import proofs.«130200_j43044162240998_2_alg».proof.Proof.Gen.KernelIdeal
import proofs.«130200_j43044162240998_2_alg».proof.Proof.Gen.KernelIdeal.Frame
import proofs.«130200_j43044162240998_2_alg».proof.Proof.Gen.ReferenceIdeal
import proofs.«130200_j43044162240998_2_alg».proof.Proof.Gen.ReferenceIdeal.Run
import proofs.«130200_j43044162240998_2_alg».proof.Proof.Gen.ReferenceIdeal.Read
import proofs.«130200_j43044162240998_2_alg».proof.Proof.Gen.Pre_finite_inputs
import proofs.«130200_j43044162240998_2_alg».proof.Proof.KRun
import proofs.«130200_j43044162240998_2_alg».proof.Proof.RefSpec
import proofs.«130200_j43044162240998_2_alg».proof.Proof.BridgeA
import proofs.«130200_j43044162240998_2_alg».proof.Proof.BridgeB
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the nine arguments both programs end with the aggregate in the first result and the
    batch items' rows in the second: the kernel's run read through its regions, the reference's run read operation by
    operation, both at the computation of the same argument arrays. -/
theorem algebraic : Cert.algebraic_KernelIdeal_ReferenceIdeal := by
  intro m ρ m' ρ' _ hagree
  refine ⟨fun c => Cert.KernelIdeal.Gen.W6 m ρ c (Proc.devRef .tc Cert.KernelIdeal.main_v35),
    fun c => Cert.KernelIdeal.Gen.W6 m ρ c (Proc.devRef .tc Cert.KernelIdeal.main_v36),
    Cert.KernelIdeal.KRun.run_values m ρ, ?_⟩
  refine (θ_run Cert.ReferenceIdeal.defs _ _).mono (fun _ h c => ?_) (Cert.ReferenceIdeal.Value.run (F := Ideal) m' ρ')
  obtain ⟨h42, h29, hargs⟩ := h c
  obtain ⟨e0, e1, e2, e3, e4, e5, e6, e7, e8⟩ := hagree c
  refine ⟨h42.trans ?_, h29.trans ?_, hargs⟩
  · rw [Cert.ReferenceIdeal.Read.val_main_v42_eq, e0, e1, e2, e3, e4, e5, e6, e7, e8]
    funext i
    obtain ⟨p, o, rfl⟩ : ∃ (p : Fin 2048) (o : Fin 100), i = ix2 p o := ⟨i 0, i 1, eq_ix2 i⟩
    rw [Cert.RefSpec.val_v42_spec]
    exact (Cert.KernelIdeal.Bridge.first_result m ρ c p o).symm
  · rw [Cert.ReferenceIdeal.Read.val_main_v29_eq, e1, e3, e4, e5, e6, e7, e8]
    funext i
    obtain ⟨p, o, rfl⟩ : ∃ (p : Fin 2048) (o : Fin 100), i = ix2 p o := ⟨i 0, i 1, eq_ix2 i⟩
    rw [Cert.RefSpec.val_v29_spec]
    exact (Cert.KernelIdeal.Bridge.second_result m ρ c p o).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
